-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x8 : Shape := ⟨2, ![800000, 8]⟩
abbrev S3x128x128 : Shape := ⟨3, ![3, 128, 128]⟩
abbrev S3x128 : Shape := ⟨2, ![3, 128]⟩
abbrev S264x128 : Shape := ⟨2, ![264, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S264x128 : S_.BroadcastsInDim S264x128 (![] : Fin 0 → Fin S264x128.rank)
  reducesTo_S264x128_S_d0_1 : S264x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x2 .f32) (main_arg14 : FVec F S2 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x2 .f32 := Host.absf main_arg13
  let main_cst_22 : FVec F S_ .f32 := constant S_ .f32 0x7F800000#32
  let main_v60 : FVec F S64x2 .f32 := broadcastInDim S64x2 ![] bcast_S_S64x2 main_cst_22
  let main_v61 : IVec S64x2 1 := cmpf .olt main_v59 main_v60
  let main_c_23 : IVec S_ 1 := constantI S_ 1 1#1
  let main_v62 : IVec S_ 1 := (fun x v => Host.reduce IntOp.andi x v reducesTo_S64x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg8 : FVec F S3x128 .f32) (main_arg9 : FVec F S264x128 .f32) (main_arg10 : FVec F S128 .f32) (main_arg11 : FVec F S128x64 .f32) (main_arg12 : FVec F S64 .f32) (main_arg13 : FVec F S64x2 .f32) (main_arg14 : FVec F S2 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S264x128 .f32 := Host.absf main_arg9
  let main_cst_14 : FVec F S_ .f32 := constant S_ .f32 0x7F800000#32
  let main_v40 : FVec F S264x128 .f32 := broadcastInDim S264x128 ![] bcast_S_S264x128 main_cst_14
  let main_v41 : IVec S264x128 1 := cmpf .olt main_v39 main_v40
  let main_c_15 : IVec S_ 1 := constantI S_ 1 1#1
  let main_v42 : IVec S_ 1 := (fun x v => Host.reduce IntOp.andi x v reducesTo_S264x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S3x128 .f32) (main_arg6 : FVec F S3x128 .f32) (main_arg7 : FVec F S3x128 .f32) (main_arg8 : FVec F S3x128 .f32) (main_arg9 : FVec F S264x128 .f32) (main_arg10 : FVec F S128 .f32) (main_arg11 : FVec F S128x64 .f32) (main_arg12 : FVec F S64 .f32) (main_arg13 : FVec F S64x2 .f32) (main_arg14 : FVec F S2 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S800000x8 .f32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S264x128 .f32) (main_arg10 : FVec F S128 .f32) (main_arg11 : FVec F S128x64 .f32) (main_arg12 : FVec F S64 .f32) (main_arg13 : FVec F S64x2 .f32) (main_arg14 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000x8 : Shape := ⟨2, ![800000, 8]⟩
abbrev S3x128x128 : Shape := ⟨3, ![3, 128, 128]⟩
abbrev S3x128 : Shape := ⟨2, ![3, 128]⟩
abbrev S264x128 : Shape := ⟨2, ![264, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S8x128 : Shape := ⟨2, ![8, 128]⟩
abbrev S1x64 : Shape := ⟨2, ![1, 64]⟩
abbrev S1x2 : Shape := ⟨2, ![1, 2]⟩
abbrev S800000x2 : Shape := ⟨2, ![800000, 2]⟩
abbrev S4000x128 : Shape := ⟨2, ![4000, 128]⟩
abbrev S4000x8 : Shape := ⟨2, ![4000, 8]⟩
abbrev S4000x2 : Shape := ⟨2, ![4000, 2]⟩
abbrev S4000x64 : Shape := ⟨2, ![4000, 64]⟩

abbrev nBuf : Space → Nat
  | .hbm => 154
  | .vmem => 76
  | .smem => 0
  | _ => 0

abbrev hbmTy0_0 (i : Nat) : BufTy := match i % 128 with
  | 0 => ⟨S50000x128, .f32⟩
  | 1 => ⟨S2x800000, .i32⟩
  | 2 => ⟨S800000x8, .f32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S264x128, .f32⟩
  | 10 => ⟨S128, .f32⟩
  | 11 => ⟨S128x64, .f32⟩
  | 12 => ⟨S64, .f32⟩
  | 13 => ⟨S64x2, .f32⟩
  | 14 => ⟨S2, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S1x128x128, .f32⟩
  | 31 => ⟨S128x128, .f32⟩
  | 32 => ⟨S50000x128, .bf16⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .bf16⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S50000x128, .f32⟩
  | 63 => ⟨S1x128x128, .f32⟩
  | 64 => ⟨S128x128, .f32⟩
  | 65 => ⟨S50000x128, .bf16⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .bf16⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S50000x128, .f32⟩
  | 96 => ⟨S1x128x128, .f32⟩
  | 97 => ⟨S128x128, .f32⟩
  | 98 => ⟨S50000x128, .bf16⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .bf16⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_1 (i : Nat) : BufTy := match i % 128 with
  | 0 => ⟨S50000x128, .bf16⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .bf16⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .bf16⟩
  | 19 => ⟨S128x128, .f32⟩
  | 20 => ⟨S128x128, .f32⟩
  | 21 => ⟨S8x128, .f32⟩
  | 22 => ⟨S1x128, .f32⟩
  | 23 => ⟨S1x64, .f32⟩
  | 24 => ⟨S1x2, .f32⟩
  | 25 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x1, .f32⟩
  | .local _ .vmem, ⟨24, _⟩ => ⟨S2000x1, .f32⟩
  | .local _ .vmem, ⟨25, _⟩ => ⟨S2000x128, .bf16⟩
  | .local _ .vmem, ⟨26, _⟩ => ⟨S2000x128, .bf16⟩
  | .local _ .vmem, ⟨27, _⟩ => ⟨S2000x128, .f32⟩
  | .local _ .vmem, ⟨28, _⟩ => ⟨S2000x128, .f32⟩
  | .local _ .vmem, ⟨29, _⟩ => ⟨S2000x128, .bf16⟩
  | .local _ .vmem, ⟨30, _⟩ => ⟨S2000x128, .bf16⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x128, .f32⟩
  | .local _ .vmem, ⟨43, _⟩ => ⟨S2000x1, .f32⟩
  | .local _ .vmem, ⟨44, _⟩ => ⟨S2000x1, .f32⟩
  | .local _ .vmem, ⟨45, _⟩ => ⟨S2000x128, .bf16⟩
  | .local _ .vmem, ⟨46, _⟩ => ⟨S2000x128, .bf16⟩
  | .local _ .vmem, ⟨47, _⟩ => ⟨S2000x128, .f32⟩
  | .local _ .vmem, ⟨48, _⟩ => ⟨S2000x128, .f32⟩
  | .local _ .vmem, ⟨49, _⟩ => ⟨S2000x128, .bf16⟩
  | .local _ .vmem, ⟨50, _⟩ => ⟨S2000x128, .bf16⟩
  | .local _ .vmem, ⟨51, _⟩ => ⟨S2000x1, .f32⟩
  | .local _ .vmem, ⟨52, _⟩ => ⟨S2000x1, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .bf16⟩
  | .local _ .vmem, ⟨59, _⟩ => ⟨S2000x128, .bf16⟩
  | .local _ .vmem, ⟨60, _⟩ => ⟨S4000x128, .bf16⟩
  | .local _ .vmem, ⟨61, _⟩ => ⟨S4000x128, .bf16⟩
  | .local _ .vmem, ⟨62, _⟩ => ⟨S4000x128, .bf16⟩
  | .local _ .vmem, ⟨63, _⟩ => ⟨S4000x128, .bf16⟩
  | .local _ .vmem, ⟨64, _⟩ => ⟨S4000x8, .f32⟩
  | .local _ .vmem, ⟨65, _⟩ => ⟨S4000x8, .f32⟩
  | .local _ .vmem, ⟨66, _⟩ => ⟨S128x128, .f32⟩
  | .local _ .vmem, ⟨67, _⟩ => ⟨S128x128, .f32⟩
  | .local _ .vmem, ⟨68, _⟩ => ⟨S8x128, .f32⟩
  | .local _ .vmem, ⟨69, _⟩ => ⟨S1x128, .f32⟩
  | .local _ .vmem, ⟨70, _⟩ => ⟨S128x64, .f32⟩
  | .local _ .vmem, ⟨71, _⟩ => ⟨S1x64, .f32⟩
  | .local _ .vmem, ⟨72, _⟩ => ⟨S64x2, .f32⟩
  | .local _ .vmem, ⟨73, _⟩ => ⟨S1x2, .f32⟩
  | .local _ .vmem, ⟨74, _⟩ => ⟨S4000x2, .f32⟩
  | .local _ .vmem, ⟨75, _⟩ => ⟨S4000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_4 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_7 : Ref sig .tc := ⟨.hbm, 99, rfl⟩
abbrev main_v75 : Ref sig .tc := ⟨.hbm, 100, rfl⟩
abbrev main_v76 : Ref sig .tc := ⟨.hbm, 101, rfl⟩
abbrev main_c_8 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_9 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_c_10 : Ref sig .tc := ⟨.hbm, 129, rfl⟩
abbrev main_v102 : Ref sig .tc := ⟨.hbm, 130, rfl⟩
abbrev main_v103 : Ref sig .tc := ⟨.hbm, 131, rfl⟩
abbrev main_c_11 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_12 : Ref sig .tc := ⟨.hbm, 138, rfl⟩
abbrev main_v109 : Ref sig .tc := ⟨.hbm, 139, rfl⟩
abbrev main_v110 : Ref sig .tc := ⟨.hbm, 140, rfl⟩
abbrev main_c_13 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg7_0 : Ref sig .tc := ⟨.vmem, 57, rfl⟩
abbrev cc5_stg8_0 : Ref sig .tc := ⟨.vmem, 58, rfl⟩
abbrev cc5_stg8_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc6_stg9_0 : Ref sig .tc := ⟨.vmem, 72, rfl⟩
abbrev cc6_stg10_0 : Ref sig .tc := ⟨.vmem, 73, rfl⟩
abbrev cc6_stg11_0 : Ref sig .tc := ⟨.vmem, 74, rfl⟩
abbrev cc6_stg11_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem8_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem3_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem7_0 : DmaSem sig := 57
abbrev cc5_sem8_0 : DmaSem sig := 58
abbrev cc5_sem8_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem8_0 : DmaSem sig := 71
abbrev cc6_sem9_0 : DmaSem sig := 72
abbrev cc6_sem10_0 : DmaSem sig := 73
abbrev cc6_sem11_0 : DmaSem sig := 74
abbrev cc6_sem11_1 : DmaSem sig := 75

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x128 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x8 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S8x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S64x2 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x2 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S4000x2 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S264x128_S128x128_0_0 : S264x128.Slices ![0, 0] S128x128
  slices_S264x128_S128x128_128_0 : S264x128.Slices ![128, 0] S128x128
  slices_S264x128_S8x128_256_0 : S264x128.Slices ![256, 0] S8x128
  shapeCasts_S64_S1x64 : S64.ShapeCasts S1x64
  shapeCasts_S2_S1x2 : S2.ShapeCasts S1x2
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x8_S4000x8_0_0 : ∀ a, (![0, 0] : Fin 2 → Nat) a + S4000x8.size a ≤ S4000x8.size a
  h_S4000x8 : 0 < S4000x8.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S4000x128_S128x128_S4000x128_1_0_0_1_n_n_wf : DotDims.WF S4000x128 S128x128 S4000x128 [1] [0] [0] [1] [] []
  dot_S4000x8_S8x128_S4000x128_1_0_0_1_n_n_wf : DotDims.WF S4000x8 S8x128 S4000x128 [1] [0] [0] [1] [] []
  dot_S4000x128_S128x64_S4000x64_1_0_0_1_n_n_wf : DotDims.WF S4000x128 S128x64 S4000x64 [1] [0] [0] [1] [] []
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .bf16 = 32 ∨ (Rect.block (s := S50000x128) S2000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x128.size a ≤ S50000x128.size a
  hwx5_8 : ∀ i : grid5.Coords, EltTy.bits .bf16 = 32 ∨ (Rect.block (s := S50000x128) S2000x128.size (cc5_transform_8 i) (hinb5_8 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S800000x128.size a
  hwx6_0 : ∀ i : grid6.Coords, EltTy.bits .bf16 = 32 ∨ (Rect.block (s := S800000x128) S4000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S800000x128.size a
  hwx6_1 : ∀ i : grid6.Coords, EltTy.bits .bf16 = 32 ∨ (Rect.block (s := S800000x128) S4000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x8.size a ≤ S800000x8.size a
  hwx6_2 : ∀ i : grid6.Coords, EltTy.bits .f32 = 32 ∨ (Rect.block (s := S800000x8) S4000x8.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S8x128.size a ≤ S8x128.size a
  hwx6_5 : ∀ i : grid6.Coords, EltTy.bits .f32 = 32 ∨ (Rect.block (s := S8x128) S8x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x64.size a ≤ S128x64.size a
  hwx6_7 : ∀ i : grid6.Coords, EltTy.bits .f32 = 32 ∨ (Rect.block (s := S128x64) S128x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S64x2.size a ≤ S64x2.size a
  hwx6_9 : ∀ i : grid6.Coords, EltTy.bits .f32 = 32 ∨ (Rect.block (s := S64x2) S64x2.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x2.size a ≤ S1x2.size a
  hwx6_10 : ∀ i : grid6.Coords, EltTy.bits .f32 = 32 ∨ (Rect.block (s := S1x2) S1x2.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S4000x2.size a ≤ S800000x2.size a
  hwx6_11 : ∀ i : grid6.Coords, EltTy.bits .f32 = 32 ∨ (Rect.block (s := S800000x2) S4000x2.size (cc6_transform_11 i) (hinb6_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v70) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v71) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v71) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v74) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v85) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v98) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v99) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v100) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v101) S2000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v108) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg2) S4000x8.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v116) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v117) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v118) S8x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v119) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg11) S128x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v120) S1x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg13) S64x2.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v121) S1x2.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v122) S4000x2.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x8 : Shape := ⟨2, ![800000, 8]⟩
abbrev S3x128x128 : Shape := ⟨3, ![3, 128, 128]⟩
abbrev S3x128 : Shape := ⟨2, ![3, 128]⟩
abbrev S264x128 : Shape := ⟨2, ![264, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S800000x264 : Shape := ⟨2, ![800000, 264]⟩
abbrev S800000x64 : Shape := ⟨2, ![800000, 64]⟩
abbrev S1x64 : Shape := ⟨2, ![1, 64]⟩
abbrev S800000x2 : Shape := ⟨2, ![800000, 2]⟩
abbrev S1x2 : Shape := ⟨2, ![1, 2]⟩

abbrev nBuf : Space → Nat
  | .hbm => 249
  | .vmem => 0
  | .smem => 0
  | _ => 0

abbrev hbmTy0_0 (i : Nat) : BufTy := match i % 128 with
  | 0 => ⟨S50000x128, .f32⟩
  | 1 => ⟨S2x800000, .i32⟩
  | 2 => ⟨S800000x8, .f32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S264x128, .f32⟩
  | 10 => ⟨S128, .f32⟩
  | 11 => ⟨S128x64, .f32⟩
  | 12 => ⟨S64, .f32⟩
  | 13 => ⟨S64x2, .f32⟩
  | 14 => ⟨S2, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S50000, .f32⟩
  | 49 => ⟨S50000x1, .f32⟩
  | 50 => ⟨S1x128x128, .f32⟩
  | 51 => ⟨S128x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S1x128x128, .f32⟩
  | 105 => ⟨S128x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x1, .f32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S50000x128, .f32⟩
  | 125 => ⟨S50000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S1x128x128, .f32⟩
  | 31 => ⟨S128x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S800000x1, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S50000x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S800000x264, .f32⟩
  | 103 => ⟨S800000x128, .f32⟩
  | 104 => ⟨S1x128, .f32⟩
  | 105 => ⟨S800000x128, .f32⟩
  | 106 => ⟨S800000x128, .f32⟩
  | 107 => ⟨S_, .f32⟩
  | 108 => ⟨S800000x128, .f32⟩
  | 109 => ⟨S800000x128, .f32⟩
  | 110 => ⟨S800000x64, .f32⟩
  | 111 => ⟨S1x64, .f32⟩
  | 112 => ⟨S800000x64, .f32⟩
  | 113 => ⟨S800000x64, .f32⟩
  | 114 => ⟨S_, .f32⟩
  | 115 => ⟨S800000x64, .f32⟩
  | 116 => ⟨S800000x64, .f32⟩
  | 117 => ⟨S800000x2, .f32⟩
  | 118 => ⟨S1x2, .f32⟩
  | 119 => ⟨S800000x2, .f32⟩
  | 120 => ⟨S800000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call0_cst : Ref sig .tc := ⟨.hbm, 101, rfl⟩
abbrev main_call0_v0 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_9 : Ref sig .tc := ⟨.hbm, 107, rfl⟩
abbrev main_v79 : Ref sig .tc := ⟨.hbm, 108, rfl⟩
abbrev main_v80 : Ref sig .tc := ⟨.hbm, 109, rfl⟩
abbrev main_c_10 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_11 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_12 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_call1_cst : Ref sig .tc := ⟨.hbm, 155, rfl⟩
abbrev main_call1_v0 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_c_13 : Ref sig .tc := ⟨.hbm, 161, rfl⟩
abbrev main_v127 : Ref sig .tc := ⟨.hbm, 162, rfl⟩
abbrev main_v128 : Ref sig .tc := ⟨.hbm, 163, rfl⟩
abbrev main_c_14 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_15 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_16 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_call2_cst : Ref sig .tc := ⟨.hbm, 209, rfl⟩
abbrev main_call2_v0 : Ref sig .tc := ⟨.hbm, 210, rfl⟩
abbrev main_v171 : Ref sig .tc := ⟨.hbm, 211, rfl⟩
abbrev main_c_17 : Ref sig .tc := ⟨.hbm, 212, rfl⟩
abbrev main_v172 : Ref sig .tc := ⟨.hbm, 213, rfl⟩
abbrev main_v173 : Ref sig .tc := ⟨.hbm, 214, rfl⟩
abbrev main_c_18 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_c_19 : Ref sig .tc := ⟨.hbm, 221, rfl⟩
abbrev main_v179 : Ref sig .tc := ⟨.hbm, 222, rfl⟩
abbrev main_v180 : Ref sig .tc := ⟨.hbm, 223, rfl⟩
abbrev main_c_20 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_call3_cst : Ref sig .tc := ⟨.hbm, 235, rfl⟩
abbrev main_call3_v0 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_call4_cst : Ref sig .tc := ⟨.hbm, 242, rfl⟩
abbrev main_call4_v0 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S800000x128_S800000x128_S800000x8_S800000x264_d1 : Shape.Concatenates [S800000x128, S800000x128, S800000x8] S800000x264 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S800000x264_S264x128_S800000x128_1_0_0_1_n_n_wf : DotDims.WF S800000x264 S264x128 S800000x128 [1] [0] [0] [1] [] []
  dot_S800000x128_S128x64_S800000x64_1_0_0_1_n_n_wf : DotDims.WF S800000x128 S128x64 S800000x64 [1] [0] [0] [1] [] []
  dot_S800000x64_S64x2_S800000x2_1_0_0_1_n_n_wf : DotDims.WF S800000x64 S64x2 S800000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S800000x264_S264x128_S800000x128_1_0_0_1_n_n : DotDims S800000x264 S264x128 S800000x128 where
  lhsContracting := [1]
  rhsContracting := [0]
  lhsNonContracting := [0]
  rhsNonContracting := [1]
  lhsBatch := []
  rhsBatch := []
  wf := dot_S800000x264_S264x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x2_S800000x2_1_0_0_1_n_n : DotDims S800000x64 S64x2 S800000x2 where
  lhsContracting := [1]
  rhsContracting := [0]
  lhsNonContracting := [0]
  rhsNonContracting := [1]
  lhsBatch := []
  rhsBatch := []
  wf := dot_S800000x64_S64x2_S800000x2_1_0_0_1_n_n_wf

class Facts : Prop extends Facts₀ where

variable [Facts]
-- ==== Proof.KerRun.lean ====
/-
  The kernel program's run with its result named: every weakly fair execution of the seven kernels and the host
  operations between them terminates, nothing faulting, the arguments unchanged, and the result array holding what the
  last kernel's write-backs leave, read at the end of the chain of buffer contents that the run passes through (the
  contents after each stretch of host operations and after each kernel's region).
-/
import proofs.«108547_j24747601560282_2_alg».proof.Proof.Gen.KernelIdeal.Frame

set_option maxRecDepth 16384

noncomputable section

namespace Cert.KernelIdeal.Val

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- THE RUN WITH THE RESULT NAMED: as the frame, and the result buffer ends at the last boundary's contents. -/
theorem run_value : θ_run defs (onTc (τ := τ) (main (F := F))) ⟨m, fun _ => 0, ρ⟩ (fun r => ∀ c : Dev nD,
      r.2.mem ((c.tc : Thread nD τ).loc main_v122) = W14 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v122 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

/-! ## A buffer that a stretch of host operations does not write, or that a kernel's region does not write back,
    keeps its contents across it -/

/-- The buffers that host stretch 0 writes. -/
def wr0 : List (Ref sig .tc) :=
  [main_v0, main_v1, main_v2, main_v3, main_cst, main_v4, main_cst_0, main_v5, main_v6, main_v7, main_cst_1, main_v8, main_v9, main_v10, main_v11, main_v12, main_v13]
theorem wr0_sub : (hostOps0 : List (HloOp τ sig (Elt F))).Forall fun op => op.writes ⊆ ((wr0).map (Proc.devRef (τ := τ) .tc)).toFinset := by
  simp only [hostOps0, wr0, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The buffers that host stretch 1 writes. -/
def wr1 : List (Ref sig .tc) :=
  [main_c, main_v15, main_v16, main_c_2, main_v17, main_v18, main_v19, main_v20, main_v21, main_v22, main_cst_3, main_v23, main_v24, main_v25, main_v26, main_v27, main_v28, main_v29, main_v30, main_v31, main_v32, main_v33, main_v34, main_v35, main_v36, main_v37, main_v38, main_v39, main_v40]
theorem wr1_sub : (hostOps1 : List (HloOp τ sig (Elt F))).Forall fun op => op.writes ⊆ ((wr1).map (Proc.devRef (τ := τ) .tc)).toFinset := by
  simp only [hostOps1, wr1, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The buffers that host stretch 2 writes. -/
def wr2 : List (Ref sig .tc) :=
  [main_v42, main_v43]
theorem wr2_sub : (hostOps2 : List (HloOp τ sig (Elt F))).Forall fun op => op.writes ⊆ ((wr2).map (Proc.devRef (τ := τ) .tc)).toFinset := by
  simp only [hostOps2, wr2, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The buffers that host stretch 3 writes. -/
def wr3 : List (Ref sig .tc) :=
  [main_c_4, main_v45, main_v46, main_c_5, main_v47, main_v48, main_v49, main_v50, main_v51, main_v52, main_cst_6, main_v53, main_v54, main_v55, main_v56, main_v57, main_v58, main_v59, main_v60, main_v61, main_v62, main_v63, main_v64, main_v65, main_v66, main_v67, main_v68, main_v69, main_v70]
theorem wr3_sub : (hostOps3 : List (HloOp τ sig (Elt F))).Forall fun op => op.writes ⊆ ((wr3).map (Proc.devRef (τ := τ) .tc)).toFinset := by
  simp only [hostOps3, wr3, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The buffers that host stretch 4 writes. -/
def wr4 : List (Ref sig .tc) :=
  [main_v72, main_v73]
theorem wr4_sub : (hostOps4 : List (HloOp τ sig (Elt F))).Forall fun op => op.writes ⊆ ((wr4).map (Proc.devRef (τ := τ) .tc)).toFinset := by
  simp only [hostOps4, wr4, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The buffers that host stretch 5 writes. -/
def wr5 : List (Ref sig .tc) :=
  [main_c_7, main_v75, main_v76, main_c_8, main_v77, main_v78, main_v79, main_v80, main_v81, main_v82, main_cst_9, main_v83, main_v84, main_v85, main_v86, main_v87, main_v88, main_v89, main_v90, main_v91, main_v92, main_v93, main_v94, main_v95, main_v96, main_v97, main_v98, main_v99, main_v100]
theorem wr5_sub : (hostOps5 : List (HloOp τ sig (Elt F))).Forall fun op => op.writes ⊆ ((wr5).map (Proc.devRef (τ := τ) .tc)).toFinset := by
  simp only [hostOps5, wr5, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

/-- The buffers that host stretch 6 writes. -/
def wr6 : List (Ref sig .tc) :=
  [main_c_10, main_v102, main_v103, main_c_11, main_v104, main_v105, main_v106, main_v107, main_v108, main_c_12, main_v109, main_v110, main_c_13, main_v111, main_v112, main_v113, main_v114, main_v115, main_v116, main_v117, main_v118, main_v119, main_v120, main_v121]
theorem wr6_sub : (hostOps6 : List (HloOp τ sig (Elt F))).Forall fun op => op.writes ⊆ ((wr6).map (Proc.devRef (τ := τ) .tc)).toFinset := by
  simp only [hostOps6, wr6, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

variable (c : Dev nD)

/-- Across a stretch of host operations: a buffer off its write list keeps its contents. -/
theorem host0 (b : Ref sig .tc) (h : b ∉ wr0) : W1 m ρ c (Proc.devRef .tc b) = W0 m ρ c (Proc.devRef .tc b) :=
  StableHlo.after_of_writes_sub _ _ wr0_sub h
theorem host1 (b : Ref sig .tc) (h : b ∉ wr1) : W3 m ρ c (Proc.devRef .tc b) = W2 m ρ c (Proc.devRef .tc b) :=
  StableHlo.after_of_writes_sub _ _ wr1_sub h
theorem host2 (b : Ref sig .tc) (h : b ∉ wr2) : W5 m ρ c (Proc.devRef .tc b) = W4 m ρ c (Proc.devRef .tc b) :=
  StableHlo.after_of_writes_sub _ _ wr2_sub h
theorem host3 (b : Ref sig .tc) (h : b ∉ wr3) : W7 m ρ c (Proc.devRef .tc b) = W6 m ρ c (Proc.devRef .tc b) :=
  StableHlo.after_of_writes_sub _ _ wr3_sub h
theorem host4 (b : Ref sig .tc) (h : b ∉ wr4) : W9 m ρ c (Proc.devRef .tc b) = W8 m ρ c (Proc.devRef .tc b) :=
  StableHlo.after_of_writes_sub _ _ wr4_sub h
theorem host5 (b : Ref sig .tc) (h : b ∉ wr5) : W11 m ρ c (Proc.devRef .tc b) = W10 m ρ c (Proc.devRef .tc b) :=
  StableHlo.after_of_writes_sub _ _ wr5_sub h
theorem host6 (b : Ref sig .tc) (h : b ∉ wr6) : W13 m ρ c (Proc.devRef .tc b) = W12 m ρ c (Proc.devRef .tc b) :=
  StableHlo.after_of_writes_sub _ _ wr6_sub h

/-- A buffer that is no window's array in the six node kernels and that host stretches 1 to 6 do not write. -/
structure Untouched (b : Ref sig .tc) : Prop where
  r0 : ∀ w, Pipeline.arrRef spec0 w ≠ b
  r1 : ∀ w, Pipeline.arrRef spec1 w ≠ b
  r2 : ∀ w, Pipeline.arrRef spec2 w ≠ b
  r3 : ∀ w, Pipeline.arrRef spec3 w ≠ b
  r4 : ∀ w, Pipeline.arrRef spec4 w ≠ b
  r5 : ∀ w, Pipeline.arrRef spec5 w ≠ b
  h1 : b ∉ wr1
  h2 : b ∉ wr2
  h3 : b ∉ wr3
  h4 : b ∉ wr4
  h5 : b ∉ wr5
  h6 : b ∉ wr6

section Carried
variable {b : Ref sig .tc} (u : Untouched b)
include u

/-- Such a buffer holds, at every later boundary up to the last kernel's entry, what it held after the first stretch. -/
theorem at2 : W2 m ρ c (Proc.devRef .tc b) = W1 m ρ c (Proc.devRef .tc b) := W2_of_ne m ρ c b u.r0
theorem at3 : W3 m ρ c (Proc.devRef .tc b) = W1 m ρ c (Proc.devRef .tc b) := (host1 m ρ c b u.h1).trans (at2 m ρ c u)
theorem at4 : W4 m ρ c (Proc.devRef .tc b) = W1 m ρ c (Proc.devRef .tc b) := (W4_of_ne m ρ c b u.r1).trans (at3 m ρ c u)
theorem at5 : W5 m ρ c (Proc.devRef .tc b) = W1 m ρ c (Proc.devRef .tc b) := (host2 m ρ c b u.h2).trans (at4 m ρ c u)
theorem at6 : W6 m ρ c (Proc.devRef .tc b) = W1 m ρ c (Proc.devRef .tc b) := (W6_of_ne m ρ c b u.r2).trans (at5 m ρ c u)
theorem at7 : W7 m ρ c (Proc.devRef .tc b) = W1 m ρ c (Proc.devRef .tc b) := (host3 m ρ c b u.h3).trans (at6 m ρ c u)
theorem at8 : W8 m ρ c (Proc.devRef .tc b) = W1 m ρ c (Proc.devRef .tc b) := (W8_of_ne m ρ c b u.r3).trans (at7 m ρ c u)
theorem at9 : W9 m ρ c (Proc.devRef .tc b) = W1 m ρ c (Proc.devRef .tc b) := (host4 m ρ c b u.h4).trans (at8 m ρ c u)
theorem at10 : W10 m ρ c (Proc.devRef .tc b) = W1 m ρ c (Proc.devRef .tc b) := (W10_of_ne m ρ c b u.r4).trans (at9 m ρ c u)
theorem at11 : W11 m ρ c (Proc.devRef .tc b) = W1 m ρ c (Proc.devRef .tc b) := (host5 m ρ c b u.h5).trans (at10 m ρ c u)
theorem at12 : W12 m ρ c (Proc.devRef .tc b) = W1 m ρ c (Proc.devRef .tc b) := (W12_of_ne m ρ c b u.r5).trans (at11 m ρ c u)
theorem at13 : W13 m ρ c (Proc.devRef .tc b) = W1 m ρ c (Proc.devRef .tc b) := (host6 m ρ c b u.h6).trans (at12 m ρ c u)

end Carried

/-- The edges' row numbers and every argument but the node features are such buffers. -/
theorem un_v1 : Untouched main_v1 := ⟨by decide, by decide, by decide, by decide, by decide, by decide, by decide, by decide, by decide, by decide, by decide, by decide⟩
theorem un_v3 : Untouched main_v3 := ⟨by decide, by decide, by decide, by decide, by decide, by decide, by decide, by decide, by decide, by decide, by decide, by decide⟩
theorem un_arg2 : Untouched main_arg2 := ⟨by decide, by decide, by decide, by decide, by decide, by decide, by decide, by decide, by decide, by decide, by decide, by decide⟩
theorem un_arg3 : Untouched main_arg3 := ⟨by decide, by decide, by decide, by decide, by decide, by decide, by decide, by decide, by decide, by decide, by decide, by decide⟩
theorem un_arg4 : Untouched main_arg4 := ⟨by decide, by decide, by decide, by decide, by decide, by decide, by decide, by decide, by decide, by decide, by decide, by decide⟩
theorem un_arg5 : Untouched main_arg5 := ⟨by decide, by decide, by decide, by decide, by decide, by decide, by decide, by decide, by decide, by decide, by decide, by decide⟩
theorem un_arg6 : Untouched main_arg6 := ⟨by decide, by decide, by decide, by decide, by decide, by decide, by decide, by decide, by decide, by decide, by decide, by decide⟩
theorem un_arg7 : Untouched main_arg7 := ⟨by decide, by decide, by decide, by decide, by decide, by decide, by decide, by decide, by decide, by decide, by decide, by decide⟩
theorem un_arg8 : Untouched main_arg8 := ⟨by decide, by decide, by decide, by decide, by decide, by decide, by decide, by decide, by decide, by decide, by decide, by decide⟩
theorem un_arg9 : Untouched main_arg9 := ⟨by decide, by decide, by decide, by decide, by decide, by decide, by decide, by decide, by decide, by decide, by decide, by decide⟩
theorem un_arg10 : Untouched main_arg10 := ⟨by decide, by decide, by decide, by decide, by decide, by decide, by decide, by decide, by decide, by decide, by decide, by decide⟩
theorem un_arg11 : Untouched main_arg11 := ⟨by decide, by decide, by decide, by decide, by decide, by decide, by decide, by decide, by decide, by decide, by decide, by decide⟩
theorem un_arg12 : Untouched main_arg12 := ⟨by decide, by decide, by decide, by decide, by decide, by decide, by decide, by decide, by decide, by decide, by decide, by decide⟩
theorem un_arg13 : Untouched main_arg13 := ⟨by decide, by decide, by decide, by decide, by decide, by decide, by decide, by decide, by decide, by decide, by decide, by decide⟩
theorem un_arg14 : Untouched main_arg14 := ⟨by decide, by decide, by decide, by decide, by decide, by decide, by decide, by decide, by decide, by decide, by decide, by decide⟩

/-- An argument array is not written by the first stretch: at the first boundary it holds the launch contents. -/
theorem arg_at1 (b : Ref sig .tc) (h : b ∉ wr0) : W1 m ρ c (Proc.devRef .tc b) = m ((c : Thread nD τ).loc b) :=
  host0 m ρ c b h

/-- The column of degree factors is an input window (number 2) of each of the six node kernels, which leave it as it
    is, and no later stretch writes it. -/
theorem v11_at2 : W2 m ρ c (Proc.devRef .tc main_v11) = W1 m ρ c (Proc.devRef .tc main_v11) :=
  (W2_arr m ρ c 2).trans (((dat0 (V1 m ρ) c).arrAt_in 2 rfl _).trans (A_eq0 (V1 m ρ) c 2))
theorem v11_at3 : W3 m ρ c (Proc.devRef .tc main_v11) = W1 m ρ c (Proc.devRef .tc main_v11) :=
  (host1 m ρ c main_v11 (by decide)).trans (v11_at2 m ρ c)
theorem v11_at4 : W4 m ρ c (Proc.devRef .tc main_v11) = W1 m ρ c (Proc.devRef .tc main_v11) :=
  ((W4_arr m ρ c 2).trans (((dat1 (V3 m ρ) c).arrAt_in 2 rfl _).trans (A_eq1 (V3 m ρ) c 2))).trans (v11_at3 m ρ c)
theorem v11_at5 : W5 m ρ c (Proc.devRef .tc main_v11) = W1 m ρ c (Proc.devRef .tc main_v11) :=
  (host2 m ρ c main_v11 (by decide)).trans (v11_at4 m ρ c)
theorem v11_at6 : W6 m ρ c (Proc.devRef .tc main_v11) = W1 m ρ c (Proc.devRef .tc main_v11) :=
  ((W6_arr m ρ c 2).trans (((dat2 (V5 m ρ) c).arrAt_in 2 rfl _).trans (A_eq2 (V5 m ρ) c 2))).trans (v11_at5 m ρ c)
theorem v11_at7 : W7 m ρ c (Proc.devRef .tc main_v11) = W1 m ρ c (Proc.devRef .tc main_v11) :=
  (host3 m ρ c main_v11 (by decide)).trans (v11_at6 m ρ c)
theorem v11_at8 : W8 m ρ c (Proc.devRef .tc main_v11) = W1 m ρ c (Proc.devRef .tc main_v11) :=
  ((W8_arr m ρ c 2).trans (((dat3 (V7 m ρ) c).arrAt_in 2 rfl _).trans (A_eq3 (V7 m ρ) c 2))).trans (v11_at7 m ρ c)
theorem v11_at9 : W9 m ρ c (Proc.devRef .tc main_v11) = W1 m ρ c (Proc.devRef .tc main_v11) :=
  (host4 m ρ c main_v11 (by decide)).trans (v11_at8 m ρ c)
theorem v11_at10 : W10 m ρ c (Proc.devRef .tc main_v11) = W1 m ρ c (Proc.devRef .tc main_v11) :=
  ((W10_arr m ρ c 2).trans (((dat4 (V9 m ρ) c).arrAt_in 2 rfl _).trans (A_eq4 (V9 m ρ) c 2))).trans (v11_at9 m ρ c)
theorem v11_at11 : W11 m ρ c (Proc.devRef .tc main_v11) = W1 m ρ c (Proc.devRef .tc main_v11) :=
  (host5 m ρ c main_v11 (by decide)).trans (v11_at10 m ρ c)

end Cert.KernelIdeal.Val

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«108547_j24747601560282_2_alg».proof.Proof.LibPlainMatmul
import proofs.«108547_j24747601560282_2_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«108547_j24747601560282_2_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibGraphConvForms.lean ====
/-
  The whole-array forms, over the extended reals, of the dense stages of a three-layer graph convolution
  followed by an edge classifier, entry by entry, with the facts that let a row-tiled computation be read
  block by block: every entry depends on one row of the row-indexed operands only.

  * `normAct agg hs D bc gm bt rm rv`: entry (r, k) is
      max( ((D(r,0) · (agg(r,k) + hs(r,k)) + bc(0,k)) − rm(0,k)) · rsqrt(rv(0,k) + ε) · gm(0,k) + bt(0,k), 0 ),
    the degree factor applied to the aggregate plus the node's own scaled features, then the bias, the running
    normalisation with its scale and shift, and the positive part. ε and 0 are kept as the float words the programs write.
  * `posPart A`: entry-wise max(A, 0).
  * `firstDense xs xd ea w1s w1d w1e b1`: entry (e, q) is Σ xs(e,·)·w1s(·,q) + Σ xd(e,·)·w1d(·,q) + Σ ea(e,·)·w1e(·,q) + b1(0,q),
    the first dense layer applied to the three column blocks of an edge's features separately.
  * `edgeHead`: posPart of that, a second biased product with its positive part, and a third biased product.
-/
import proofs.«108547_j24747601560282_2_alg».proof.Proof.LibLayerForms

noncomputable section

namespace Cert.Gnn

open Idealize.ShloMosaic Idealize.ShloMosaic.ValueIdx Cert.MatrixProduct Cert.Gcn

/-- The float word of zero, read at the extended reals. -/
abbrev zw : EReal := Ideal.ofBits .f32 0x00000000#32
/-- The float word of the normalisation's ε, read at the extended reals. -/
abbrev epsw : EReal := Ideal.ofBits .f32 0x3727C5AC#32

/-- Degree factor times (aggregate + own features), bias, running normalisation, scale, shift, positive part. -/
def normAct {M K : ℕ} (agg hs : (⟨2, ![M, K]⟩ : Shape).Idx → EReal) (D : (⟨2, ![M, 1]⟩ : Shape).Idx → EReal)
    (bc gm bt rm rv : (⟨2, ![1, K]⟩ : Shape).Idx → EReal) : (⟨2, ![M, K]⟩ : Shape).Idx → EReal :=
  fun i => max ((((D (ix2 (i 0) (0 : Fin 1)) * (agg i + hs i) + bc (ix2 (0 : Fin 1) (i 1))) - rm (ix2 (0 : Fin 1) (i 1)))
      * Ideal.rsqrt (rv (ix2 (0 : Fin 1) (i 1)) + epsw)) * gm (ix2 (0 : Fin 1) (i 1)) + bt (ix2 (0 : Fin 1) (i 1))) zw

theorem normAct_apply {M K : ℕ} (agg hs : (⟨2, ![M, K]⟩ : Shape).Idx → EReal) (D : (⟨2, ![M, 1]⟩ : Shape).Idx → EReal)
    (bc gm bt rm rv : (⟨2, ![1, K]⟩ : Shape).Idx → EReal) (r : Fin M) (k : Fin K) :
    normAct agg hs D bc gm bt rm rv (ix2 r k)
      = max ((((D (ix2 r (0 : Fin 1)) * (agg (ix2 r k) + hs (ix2 r k)) + bc (ix2 (0 : Fin 1) k)) - rm (ix2 (0 : Fin 1) k))
        * Ideal.rsqrt (rv (ix2 (0 : Fin 1) k) + epsw)) * gm (ix2 (0 : Fin 1) k) + bt (ix2 (0 : Fin 1) k)) zw := rfl

/-- The positive part, entry by entry. -/
def posPart {M K : ℕ} (A : (⟨2, ![M, K]⟩ : Shape).Idx → EReal) : (⟨2, ![M, K]⟩ : Shape).Idx → EReal :=
  fun i => max (A i) zw

/-- The first dense layer on the three column blocks of an edge's features, plus its bias row. -/
def firstDense {E A B N : ℕ} (xs xd : (⟨2, ![E, A]⟩ : Shape).Idx → EReal) (ea : (⟨2, ![E, B]⟩ : Shape).Idx → EReal)
    (w1s w1d : (⟨2, ![A, N]⟩ : Shape).Idx → EReal) (w1e : (⟨2, ![B, N]⟩ : Shape).Idx → EReal)
    (b1 : (⟨2, ![1, N]⟩ : Shape).Idx → EReal) : (⟨2, ![E, N]⟩ : Shape).Idx → EReal :=
  fun i => mm xs w1s i + mm xd w1d i + mm ea w1e i + b1 (ix2 (0 : Fin 1) (i 1))

/-- The edge classifier: three dense layers with a positive part after the first two. -/
def edgeHead {E A B N P Q : ℕ} (xs xd : (⟨2, ![E, A]⟩ : Shape).Idx → EReal) (ea : (⟨2, ![E, B]⟩ : Shape).Idx → EReal)
    (w1s w1d : (⟨2, ![A, N]⟩ : Shape).Idx → EReal) (w1e : (⟨2, ![B, N]⟩ : Shape).Idx → EReal)
    (b1 : (⟨2, ![1, N]⟩ : Shape).Idx → EReal) (w2 : (⟨2, ![N, P]⟩ : Shape).Idx → EReal) (b2 : (⟨2, ![1, P]⟩ : Shape).Idx → EReal)
    (w3 : (⟨2, ![P, Q]⟩ : Shape).Idx → EReal) (b3 : (⟨2, ![1, Q]⟩ : Shape).Idx → EReal) : (⟨2, ![E, Q]⟩ : Shape).Idx → EReal :=
  biasedProduct (posPart (biasedProduct (posPart (firstDense xs xd ea w1s w1d w1e b1)) w2 b2)) w3 b3

/-- A row of the first dense layer depends on that row of the three feature blocks only. -/
theorem firstDense_row {E R A B N : ℕ} (XS XD : (⟨2, ![E, A]⟩ : Shape).Idx → EReal) (EA : (⟨2, ![E, B]⟩ : Shape).Idx → EReal)
    (xs xd : (⟨2, ![R, A]⟩ : Shape).Idx → EReal) (ea : (⟨2, ![R, B]⟩ : Shape).Idx → EReal)
    (w1s w1d : (⟨2, ![A, N]⟩ : Shape).Idx → EReal) (w1e : (⟨2, ![B, N]⟩ : Shape).Idx → EReal)
    (b1 : (⟨2, ![1, N]⟩ : Shape).Idx → EReal) (p : Fin R) (r : Fin E)
    (hs : ∀ k : Fin A, xs (ix2 p k) = XS (ix2 r k)) (hd : ∀ k : Fin A, xd (ix2 p k) = XD (ix2 r k))
    (he : ∀ k : Fin B, ea (ix2 p k) = EA (ix2 r k)) (q : Fin N) :
    firstDense xs xd ea w1s w1d w1e b1 (ix2 p q) = firstDense XS XD EA w1s w1d w1e b1 (ix2 r q) := by
  show mm xs w1s (ix2 p q) + mm xd w1d (ix2 p q) + mm ea w1e (ix2 p q) + b1 (ix2 (0 : Fin 1) q)
    = mm XS w1s (ix2 r q) + mm XD w1d (ix2 r q) + mm EA w1e (ix2 r q) + b1 (ix2 (0 : Fin 1) q)
  rw [mm_of_row_col XS w1s xs w1s (ix2 p q) (ix2 r q) hs (fun _ => rfl),
    mm_of_row_col XD w1d xd w1d (ix2 p q) (ix2 r q) hd (fun _ => rfl),
    mm_of_row_col EA w1e ea w1e (ix2 p q) (ix2 r q) he (fun _ => rfl)]

/-- A row of the edge classifier's result depends on that row of the three feature blocks only. -/
theorem edgeHead_row {E R A B N P Q : ℕ} (XS XD : (⟨2, ![E, A]⟩ : Shape).Idx → EReal) (EA : (⟨2, ![E, B]⟩ : Shape).Idx → EReal)
    (xs xd : (⟨2, ![R, A]⟩ : Shape).Idx → EReal) (ea : (⟨2, ![R, B]⟩ : Shape).Idx → EReal)
    (w1s w1d : (⟨2, ![A, N]⟩ : Shape).Idx → EReal) (w1e : (⟨2, ![B, N]⟩ : Shape).Idx → EReal)
    (b1 : (⟨2, ![1, N]⟩ : Shape).Idx → EReal) (w2 : (⟨2, ![N, P]⟩ : Shape).Idx → EReal) (b2 : (⟨2, ![1, P]⟩ : Shape).Idx → EReal)
    (w3 : (⟨2, ![P, Q]⟩ : Shape).Idx → EReal) (b3 : (⟨2, ![1, Q]⟩ : Shape).Idx → EReal) (p : Fin R) (r : Fin E)
    (hs : ∀ k : Fin A, xs (ix2 p k) = XS (ix2 r k)) (hd : ∀ k : Fin A, xd (ix2 p k) = XD (ix2 r k))
    (he : ∀ k : Fin B, ea (ix2 p k) = EA (ix2 r k)) (q : Fin Q) :
    edgeHead xs xd ea w1s w1d w1e b1 w2 b2 w3 b3 (ix2 p q) = edgeHead XS XD EA w1s w1d w1e b1 w2 b2 w3 b3 (ix2 r q) := by
  have h1 : ∀ k : Fin N, posPart (firstDense xs xd ea w1s w1d w1e b1) (ix2 p k) = posPart (firstDense XS XD EA w1s w1d w1e b1) (ix2 r k) :=
    fun k => congrArg (fun x => max x zw) (firstDense_row XS XD EA xs xd ea w1s w1d w1e b1 p r hs hd he k)
  have h2 : ∀ k : Fin P, posPart (biasedProduct (posPart (firstDense xs xd ea w1s w1d w1e b1)) w2 b2) (ix2 p k)
      = posPart (biasedProduct (posPart (firstDense XS XD EA w1s w1d w1e b1)) w2 b2) (ix2 r k) :=
    fun k => congrArg (fun x => max x zw)
      (biasedProduct_row (posPart (firstDense XS XD EA w1s w1d w1e b1)) w2 b2 _ w2 b2 p k r h1 (fun _ => rfl) rfl)
  exact biasedProduct_row (posPart (biasedProduct (posPart (firstDense XS XD EA w1s w1d w1e b1)) w2 b2)) w3 b3 _ w3 b3 p q r h2 (fun _ => rfl) rfl

end Cert.Gnn

end
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KerRegions.lean ====
/-
  What each kernel leaves in its output array, as one whole-array function of the arrays it finds at its region's entry.

  Every kernel here is tiled by rows: grid point t works on rows 2000·t … 2000·t + 1999 of the node arrays (4000·t … for the
  edge arrays), the small operands (weight matrices, bias and normalisation rows) are the same block at every point, and
  the output block of point t is written back to the same rows. An entry of the output therefore depends on one row of
  the row-tiled inputs only, the blocks of the 25 (or 200) points tile the array, and the array ends as the whole-array
  form of LibGraphConvForms.lean applied to the entry arrays.
-/
import proofs.«108547_j24747601560282_2_alg».proof.Proof.Gen.KernelIdeal.Frame
import proofs.«108547_j24747601560282_2_alg».proof.Proof.LibGraphConvForms
import proofs.«108547_j24747601560282_2_alg».proof.Proof.LibColumnBroadcast
import Idealize.ShloMosaic.Lib.ValueLayout
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gnn Cert.Gcn Cert.MatrixProduct

/-- The zero offsets of a whole-block access. -/
theorem hz2 : (![0, 0] : Fin 2 → Nat) = fun _ => 0 := funext fun a => by fin_cases a <;> rfl

variable (V : (c : Dev nD) → (b : Ref sig .tc) → Buf (Elt Ideal) ((c : Thread nD τ).loc b))

/-! ## The linear kernels (regions 0, 2, 4): (X·W) scaled row by row -/

/-- The body's value at an entry: the product's entry times the row's factor. -/
theorem lin_pay (x0 : Vec Ideal S2000x128 .f32) (x1 : Vec Ideal S128x128 .f32) (x2 : Vec Ideal S2000x1 .f32) (p : Fin 2000) (q : Fin 128) :
    k0_pay1 x0 x1 x2 (ix2 p q) = mm x0 x1 (ix2 p q) * x2 (ix2 p (0 : Fin 1)) := by
  unfold k0_pay1
  show (matmul (F := Ideal) dot_S2000x128_S128x128_S2000x128_1_0_0_1_n_n none (truncf (F := Ideal) .bf16 x0 bitsLt_bf16_f32)
      (truncf (F := Ideal) .bf16 (shapeCast S128x128 x1 shapeCasts_S128x128_S128x128) bitsLt_bf16_f32)
      (constant (F := Ideal) S2000x128 .f32 0x00000000#32)) (ix2 p q)
    * (broadcastTo S2000x128 (shapeCast S2000x1 x2 shapeCasts_S2000x1_S2000x1) broadcasts_S2000x1_S2000x128) (ix2 p q) = _
  rw [shapeCast_self, shapeCast_self, broadcastTo_a1_ab_apply]
  exact congrArg (· * x2 (ix2 p (0 : Fin 1))) (congrFun (matmul_zero_eq_mm dot_S2000x128_S128x128_S2000x128_1_0_0_1_n_n.wf none x0 x1) (ix2 p q))

/-- At one grid point: when row p of the block of X is row r of X, the block of W is W, and the block's factor of row p
    is the factor of row r, the body's value at (p, q) is the whole scaled product's entry (r, q). -/
theorem lin_block (X : (⟨2, ![50000, 128]⟩ : Shape).Idx → EReal) (W : (⟨2, ![128, 128]⟩ : Shape).Idx → EReal)
    (D : (⟨2, ![50000, 1]⟩ : Shape).Idx → EReal)
    (x0 : Vec Ideal S2000x128 .f32) (x1 : Vec Ideal S128x128 .f32) (x2 : Vec Ideal S2000x1 .f32) (p : Fin 2000) (q : Fin 128) (r : Fin 50000)
    (h0 : ∀ k : Fin 128, x0 (ix2 p k) = X (ix2 r k)) (h1 : ∀ k : Fin 128, x1 (ix2 k q) = W (ix2 k q))
    (h2 : x2 (ix2 p (0 : Fin 1)) = D (ix2 r (0 : Fin 1))) :
    k0_pay1 x0 x1 x2 (ix2 p q) = scaledProduct X W D (ix2 r q) :=
  (lin_pay x0 x1 x2 p q).trans (scaledProduct_row X W D x0 x1 x2 p q r h0 h1 h2)

/-! ### Region 0 -/

/-- The printed index maps, decided over the grid: the row-tiled windows are at block row t, the weight matrix at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the scaled product of the entry arrays. -/
theorem flushed0 (c : Dev nD) (t : Fin cfg0.N) :
    (dat0 V c).flushed 3 t = ((cfg0.win 3).blk t).view.read (Elt Ideal)
      (scaledProduct (V c main_arg0) (V c main_v13) (V c main_v11) : Buf (Elt Ideal) ((c : Thread nD τ).loc main_v14)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2, View.ld_unit_zero (S := S2000x1) hz2]
  obtain ⟨e00, e01, e10, e11, e20, e21, e30, e31⟩ := idx0 t
  have ht : t.val < 25 := t.isLt
  funext j
  obtain ⟨p, q, rfl⟩ : ∃ (p : Fin 2000) (q : Fin 128), j = ix2 p q := ⟨j 0, j 1, eq_ix2 j⟩
  have hemb : ((cfg0.win 3).blk t).view.emb (ix2 p q) = ix2 (⟨t.val * 2000 + p.val, by omega⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  show k0_pay1 (iblk0 V c 0 t) (iblk0 V c 1 t) (iblk0 V c 2 t) (ix2 p q)
    = scaledProduct (V c main_arg0) (V c main_v13) (V c main_v11) (((cfg0.win 3).blk t).view.emb (ix2 p q))
  rw [hemb]
  refine lin_block _ _ _ _ _ _ p q _ (fun k => ?_) (fun k => ?_) ?_
  · show V c main_arg0 (((cfg0.win 0).blk t).view.emb (ix2 p k)) = V c main_arg0 (ix2 (⟨t.val * 2000 + p.val, by omega⟩ : Fin 50000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_v13 (((cfg0.win 1).blk t).view.emb (ix2 k q)) = V c main_v13 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c main_v11 (((cfg0.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega

/-- An index of the array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v14).slice (win0_3.rect t)).set ↔ _
  rw [View.set_slice_whole, Rect.mem_set_unit]
  exact Iff.rfl

/-- Every row is in the block of the point numbered row / 2000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 2000 < 25 := by omega
  refine ⟨⟨(i 0).val / 2000, hlt⟩, flush0_3 _, ?_⟩
  rw [mem_blk0]
  obtain ⟨-, -, -, -, -, -, e30, e31⟩ := idx0 ⟨(i 0).val / 2000, hlt⟩
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    rw [e31]; omega

/-- REGION 0's output array: the scaled product of the arrays the region finds. -/
theorem final0 (c : Dev nD) :
    (dat0 V c).arrAt 3 cfg0.N = (scaledProduct (V c main_arg0) (V c main_v13) (V c main_v11) : Buf (Elt Ideal) ((c : Thread nD τ).loc main_v14)) :=
  (dat0 V c).arrAt_eq_of_cover 3 _ (fun t _ => flushed0 V c t) cover0

/-! ## The normalisation kernels (regions 1, 3, 5) -/

/-- The body's value at an entry: degree factor times (aggregate + own features), bias, running normalisation, scale,
    shift, positive part — `normAct` of the loaded blocks. -/
theorem bn_pay (x0 : Vec Ideal S2000x128 .bf16) (x3 : Vec Ideal S2000x1 .f32) (x5 : Vec Ideal S2000x128 .f32)
    (x10 x14 x18 x25 x29 : Vec Ideal S1x128 .f32) (p : Fin 2000) (q : Fin 128) :
    k1_pay1 x0 x3 x5 x10 x14 x18 x25 x29 (ix2 p q) = normAct x5 x0 x3 x10 x25 x29 x14 x18 (ix2 p q) := by
  unfold k1_pay1
  simp only [shapeCast_self]
  show max ((((broadcastTo S2000x128 x3 broadcasts_S2000x1_S2000x128 (ix2 p q) * (x5 (ix2 p q) + x0 (ix2 p q))
      + broadcastTo S2000x128 x10 broadcasts_S1x128_S2000x128 (ix2 p q)) - broadcastTo S2000x128 x14 broadcasts_S1x128_S2000x128 (ix2 p q))
      * broadcastTo S2000x128 (rsqrt (F := Ideal) (addf x18 (broadcast S1x128 (Scalar.ofBits (F := Ideal) .f32 0x3727C5AC#32))))
          broadcasts_S1x128_S2000x128 (ix2 p q))
      * broadcastTo S2000x128 x25 broadcasts_S1x128_S2000x128 (ix2 p q) + broadcastTo S2000x128 x29 broadcasts_S1x128_S2000x128 (ix2 p q))
      (Ideal.ofBits .f32 0x00000000#32) = _
  rw [broadcastTo_a1_ab_apply, broadcastTo_1b_ab_apply, broadcastTo_1b_ab_apply, broadcastTo_1b_ab_apply, broadcastTo_1b_ab_apply,
    broadcastTo_1b_ab_apply]
  rfl

/-- At one grid point: when row p of the row-tiled blocks is row r of their arrays and the row vectors are the arrays',
    the body's value at (p, q) is the whole `normAct`'s entry (r, q). -/
theorem bn_block (AGG HS : (⟨2, ![50000, 128]⟩ : Shape).Idx → EReal) (D : (⟨2, ![50000, 1]⟩ : Shape).Idx → EReal)
    (BC GM BT RM RV : (⟨2, ![1, 128]⟩ : Shape).Idx → EReal)
    (x0 : Vec Ideal S2000x128 .bf16) (x3 : Vec Ideal S2000x1 .f32) (x5 : Vec Ideal S2000x128 .f32)
    (x10 x14 x18 x25 x29 : Vec Ideal S1x128 .f32) (p : Fin 2000) (q : Fin 128) (r : Fin 50000)
    (h5 : x5 (ix2 p q) = AGG (ix2 r q)) (h0 : x0 (ix2 p q) = HS (ix2 r q)) (h3 : x3 (ix2 p (0 : Fin 1)) = D (ix2 r (0 : Fin 1)))
    (h10 : x10 (ix2 (0 : Fin 1) q) = BC (ix2 (0 : Fin 1) q)) (h25 : x25 (ix2 (0 : Fin 1) q) = GM (ix2 (0 : Fin 1) q))
    (h29 : x29 (ix2 (0 : Fin 1) q) = BT (ix2 (0 : Fin 1) q)) (h14 : x14 (ix2 (0 : Fin 1) q) = RM (ix2 (0 : Fin 1) q))
    (h18 : x18 (ix2 (0 : Fin 1) q) = RV (ix2 (0 : Fin 1) q)) :
    k1_pay1 x0 x3 x5 x10 x14 x18 x25 x29 (ix2 p q) = normAct AGG HS D BC GM BT RM RV (ix2 r q) := by
  rw [bn_pay, normAct_apply, normAct_apply, h5, h0, h3, h10, h25, h29, h14, h18]

/-! ### Region 1 -/

/-- The printed index maps, decided over the grid: the row-tiled windows are at block row t, the row vectors at (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- What point t writes back is block t of `normAct` of the entry arrays. -/
theorem flushed1 (c : Dev nD) (t : Fin cfg1.N) :
    (dat1 V c).flushed 8 t = ((cfg1.win 8).blk t).view.read (Elt Ideal)
      (normAct (V c main_v25) (V c main_v14) (V c main_v11) (V c main_v36) (V c main_v37) (V c main_v38) (V c main_v39) (V c main_v40)
        : Buf (Elt Ideal) ((c : Thread nD τ).loc main_v41)) := by
  show (cfg1.win 8).cut (grid1.coords t) ((dat1 V c).after 8 t) = _
  rw [after1_8]
  unfold out1_8
  rw [View.canon_unit_zero hz2]
  simp only [View.ld_unit_zero (S := S2000x128) hz2, View.ld_unit_zero (S := S1x128) hz2, View.ld_unit_zero (S := S2000x1) hz2]
  obtain ⟨e00, e01, e10, e11, e20, e21, e30, e31, e40, e41, e50, e51, e60, e61, e70, e71, e80, e81⟩ := idx1 t
  have ht : t.val < 25 := t.isLt
  funext j
  obtain ⟨p, q, rfl⟩ : ∃ (p : Fin 2000) (q : Fin 128), j = ix2 p q := ⟨j 0, j 1, eq_ix2 j⟩
  have hemb : ((cfg1.win 8).blk t).view.emb (ix2 p q) = ix2 (⟨t.val * 2000 + p.val, by omega⟩ : Fin 50000) q := by
    funext a; apply Fin.ext
    match a with
    | ⟨0, _⟩ => show win1_8.index t (0 : Fin 2) * 2000 + 1 * p.val = t.val * 2000 + p.val; omega
    | ⟨1, _⟩ => show win1_8.index t (1 : Fin 2) * 128 + 1 * q.val = q.val; omega
  show k1_pay1 (iblk1 V c 1 t) (iblk1 V c 2 t) (iblk1 V c 0 t) (iblk1 V c 3 t) (iblk1 V c 6 t) (iblk1 V c 7 t) (iblk1 V c 4 t) (iblk1 V c 5 t) (ix2 p q)
    = normAct (V c main_v25) (V c main_v14) (V c main_v11) (V c main_v36) (V c main_v37) (V c main_v38) (V c main_v39) (V c main_v40)
        (((cfg1.win 8).blk t).view.emb (ix2 p q))
  rw [hemb]
  refine bn_block _ _ _ _ _ _ _ _ _ _ _ _ _ _ _ _ p q _ ?_ ?_ ?_ ?_ ?_ ?_ ?_ ?_
  · show V c main_v25 (((cfg1.win 0).blk t).view.emb (ix2 p q)) = V c main_v25 (ix2 (⟨t.val * 2000 + p.val, by omega⟩ : Fin 50000) q)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * q.val = q.val; omega
  · show V c main_v14 (((cfg1.win 1).blk t).view.emb (ix2 p q)) = V c main_v14 (ix2 (⟨t.val * 2000 + p.val, by omega⟩ : Fin 50000) q)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * q.val = q.val; omega
  · show V c main_v11 (((cfg1.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  · show V c main_v36 (((cfg1.win 3).blk t).view.emb (ix2 (0 : Fin 1) q)) = V c main_v36 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show V c main_v37 (((cfg1.win 4).blk t).view.emb (ix2 (0 : Fin 1) q)) = V c main_v37 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  · show V c main_v38 (((cfg1.win 5).blk t).view.emb (ix2 (0 : Fin 1) q)) = V c main_v38 (ix2 (0 : Fin 1) q)
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega
  · show V c main_v39 (((cfg1.win 6).blk t).view.emb (ix2 (0 : Fin 1) q)) = V c main_v39 (ix2 (0 : Fin 1) q)
    refine congrArg _ (funext fun a => Fin.ext ?_)
    match a with
    | ⟨0, _⟩ => show win1_6.index t (0 : Fin 2) * 1 + 1 * 0 = 0; omega
    | ⟨1, _⟩ => show win1_6.index t (1 : Fin 2) * 128 + 1 * q.val = q.val; omega
  · show V c main_v40 (((cfg1.win 7).blk t).view.emb (ix2 (0 : Fin 1) q)) = V c main_v40 (ix2 (0 : Fin 1) q)
    refine congrArg _ (funext fun a => Fin.ext ?_)
    match a with
    | ⟨0, _⟩ => show win1_7.index t (0 : Fin 2) * 1 + 1 * 0 = 0; omega
    | ⟨1, _⟩ => show win1_7.index t (1 : Fin 2) * 128 + 1 * q.val = q.val; omega

/-- An index of the array is in point t's block iff each coordinate is in the block's range on its axis. -/
theorem mem_blk1 (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v41).slice (win1_8.rect t)).set ↔ _
  rw [View.set_slice_whole, Rect.mem_set_unit]
  exact Iff.rfl

/-- Every row is in the block of the point numbered row / 2000. -/
theorem cover1 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hlt : (i 0).val / 2000 < 25 := by omega
  refine ⟨⟨(i 0).val / 2000, hlt⟩, flush1_8 _, ?_⟩
  rw [mem_blk1]
  obtain ⟨-, -, -, -, -, -, -, -, -, -, -, -, -, -, -, -, e80, e81⟩ := idx1 ⟨(i 0).val / 2000, hlt⟩
  intro a
  match a with
  | ⟨0, _⟩ =>
    show win1_8.index ⟨(i 0).val / 2000, hlt⟩ (0 : Fin 2) * 2000 ≤ (i 0).val
      ∧ (i 0).val < win1_8.index ⟨(i 0).val / 2000, hlt⟩ (0 : Fin 2) * 2000 + 2000
    rw [e80]; show (i 0).val / 2000 * 2000 ≤ (i 0).val ∧ (i 0).val < (i 0).val / 2000 * 2000 + 2000; omega
  | ⟨1, _⟩ =>
    show win1_8.index ⟨(i 0).val / 2000, hlt⟩ (1 : Fin 2) * 128 ≤ (i 1).val
      ∧ (i 1).val < win1_8.index ⟨(i 0).val / 2000, hlt⟩ (1 : Fin 2) * 128 + 128
    rw [e81]; omega

/-- REGION 1's output array: `normAct` of the arrays the region finds. -/
theorem final1 (c : Dev nD) :
    (dat1 V c).arrAt 8 cfg1.N = (normAct (V c main_v25) (V c main_v14) (V c main_v11) (V c main_v36) (V c main_v37) (V c main_v38)
      (V c main_v39) (V c main_v40) : Buf (Elt Ideal) ((c : Thread nD τ).loc main_v41)) :=
  (dat1 V c).arrAt_eq_of_cover 8 _ (fun t _ => flushed1 V c t) cover1

/-! ## The later layers' kernels: the same two bodies on the later layers' buffers -/

/-- The body's value at an entry: the product's entry times the row's factor. -/
theorem lin_pay2 (x0 : Vec Ideal S2000x128 .f32) (x1 : Vec Ideal S128x128 .f32) (x2 : Vec Ideal S2000x1 .f32) (p : Fin 2000) (q : Fin 128) :
    k2_pay1 x0 x1 x2 (ix2 p q) = mm x0 x1 (ix2 p q) * x2 (ix2 p (0 : Fin 1)) := by
  unfold k2_pay1
  show (matmul (F := Ideal) dot_S2000x128_S128x128_S2000x128_1_0_0_1_n_n none (truncf (F := Ideal) .bf16 (shapeCast S2000x128 x0 shapeCasts_S2000x128_S2000x128) bitsLt_bf16_f32)
      (truncf (F := Ideal) .bf16 (shapeCast S128x128 x1 shapeCasts_S128x128_S128x128) bitsLt_bf16_f32)
      (constant (F := Ideal) S2000x128 .f32 0x00000000#32)) (ix2 p q)
    * (broadcastTo S2000x128 (shapeCast S2000x1 x2 shapeCasts_S2000x1_S2000x1) broadcasts_S2000x1_S2000x128) (ix2 p q) = _
  rw [shapeCast_self, shapeCast_self, shapeCast_self, broadcastTo_a1_ab_apply]
  exact congrArg (· * x2 (ix2 p (0 : Fin 1))) (congrFun (matmul_zero_eq_mm dot_S2000x128_S128x128_S2000x128_1_0_0_1_n_n.wf none x0 x1) (ix2 p q))

/-- At one grid point: when row p of the block of X is row r of X, the block of W is W, and the block's factor of row p
    is the factor of row r, the body's value at (p, q) is the whole scaled product's entry (r, q). -/
theorem lin_block2 (X : (⟨2, ![50000, 128]⟩ : Shape).Idx → EReal) (W : (⟨2, ![128, 128]⟩ : Shape).Idx → EReal)
    (D : (⟨2, ![50000, 1]⟩ : Shape).Idx → EReal)
    (x0 : Vec Ideal S2000x128 .f32) (x1 : Vec Ideal S128x128 .f32) (x2 : Vec Ideal S2000x1 .f32) (p : Fin 2000) (q : Fin 128) (r : Fin 50000)
    (h0 : ∀ k : Fin 128, x0 (ix2 p k) = X (ix2 r k)) (h1 : ∀ k : Fin 128, x1 (ix2 k q) = W (ix2 k q))
    (h2 : x2 (ix2 p (0 : Fin 1)) = D (ix2 r (0 : Fin 1))) :
    k2_pay1 x0 x1 x2 (ix2 p q) = scaledProduct X W D (ix2 r q) :=
  (lin_pay2 x0 x1 x2 p q).trans (scaledProduct_row X W D x0 x1 x2 p q r h0 h1 h2)

/-! ### Region 2 -/

/-- The printed index maps, decided over the grid: the row-tiled windows are at block row t, the weight matrix at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of the scaled product of the entry arrays. -/
theorem flushed2 (c : Dev nD) (t : Fin cfg2.N) :
    (dat2 V c).flushed 3 t = ((cfg2.win 3).blk t).view.read (Elt Ideal)
      (scaledProduct (V c main_v41) (V c main_v43) (V c main_v11) : Buf (Elt Ideal) ((c : Thread nD τ).loc main_v44)) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S128x128) hz2, View.ld_unit_zero (S := S2000x1) hz2]
  obtain ⟨e00, e01, e10, e11, e20, e21, e30, e31⟩ := idx2 t
  have ht : t.val < 25 := t.isLt
  funext j
  obtain ⟨p, q, rfl⟩ : ∃ (p : Fin 2000) (q : Fin 128), j = ix2 p q := ⟨j 0, j 1, eq_ix2 j⟩
  have hemb : ((cfg2.win 3).blk t).view.emb (ix2 p q) = ix2 (⟨t.val * 2000 + p.val, by omega⟩ : Fin 50000) q := by
    funext a; apply Fin.ext
    match a with
    | ⟨0, _⟩ => show win2_3.index t (0 : Fin 2) * 2000 + 1 * p.val = t.val * 2000 + p.val; omega
    | ⟨1, _⟩ => show win2_3.index t (1 : Fin 2) * 128 + 1 * q.val = q.val; omega
  show k2_pay1 (iblk2 V c 0 t) (iblk2 V c 1 t) (iblk2 V c 2 t) (ix2 p q)
    = scaledProduct (V c main_v41) (V c main_v43) (V c main_v11) (((cfg2.win 3).blk t).view.emb (ix2 p q))
  rw [hemb]
  refine lin_block2 _ _ _ _ _ _ p q _ (fun k => ?_) (fun k => ?_) ?_
  · show V c main_v41 (((cfg2.win 0).blk t).view.emb (ix2 p k)) = V c main_v41 (ix2 (⟨t.val * 2000 + p.val, by omega⟩ : Fin 50000) k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_v43 (((cfg2.win 1).blk t).view.emb (ix2 k q)) = V c main_v43 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · show V c main_v11 (((cfg2.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega

/-- An index of the array is in point t's block iff each coordinate is in the block's range on its axis. -/
theorem mem_blk2 (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v44).slice (win2_3.rect t)).set ↔ _
  rw [View.set_slice_whole, Rect.mem_set_unit]
  exact Iff.rfl

/-- Every row is in the block of the point numbered row / 2000. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hlt : (i 0).val / 2000 < 25 := by omega
  refine ⟨⟨(i 0).val / 2000, hlt⟩, flush2_3 _, ?_⟩
  rw [mem_blk2]
  obtain ⟨-, -, -, -, -, -, e30, e31⟩ := idx2 ⟨(i 0).val / 2000, hlt⟩
  intro a
  match a with
  | ⟨0, _⟩ =>
    show win2_3.index ⟨(i 0).val / 2000, hlt⟩ (0 : Fin 2) * 2000 ≤ (i 0).val
      ∧ (i 0).val < win2_3.index ⟨(i 0).val / 2000, hlt⟩ (0 : Fin 2) * 2000 + 2000
    rw [e30]; show (i 0).val / 2000 * 2000 ≤ (i 0).val ∧ (i 0).val < (i 0).val / 2000 * 2000 + 2000; omega
  | ⟨1, _⟩ =>
    show win2_3.index ⟨(i 0).val / 2000, hlt⟩ (1 : Fin 2) * 128 ≤ (i 1).val
      ∧ (i 1).val < win2_3.index ⟨(i 0).val / 2000, hlt⟩ (1 : Fin 2) * 128 + 128
    rw [e31]; omega

/-- REGION 2's output array: the scaled product of the arrays the region finds. -/
theorem final2 (c : Dev nD) :
    (dat2 V c).arrAt 3 cfg2.N = (scaledProduct (V c main_v41) (V c main_v43) (V c main_v11) : Buf (Elt Ideal) ((c : Thread nD τ).loc main_v44)) :=
  (dat2 V c).arrAt_eq_of_cover 3 _ (fun t _ => flushed2 V c t) cover2

/-- The body's value at an entry: degree factor times (aggregate + own features), bias, running normalisation, scale,
    shift, positive part — `normAct` of the loaded blocks. -/
theorem bn_pay3 (x0 : Vec Ideal S2000x128 .bf16) (x3 : Vec Ideal S2000x1 .f32) (x5 : Vec Ideal S2000x128 .f32)
    (x10 x14 x18 x25 x29 : Vec Ideal S1x128 .f32) (p : Fin 2000) (q : Fin 128) :
    k3_pay1 x0 x3 x5 x10 x14 x18 x25 x29 (ix2 p q) = normAct x5 x0 x3 x10 x25 x29 x14 x18 (ix2 p q) := by
  unfold k3_pay1
  simp only [shapeCast_self]
  show max ((((broadcastTo S2000x128 x3 broadcasts_S2000x1_S2000x128 (ix2 p q) * (x5 (ix2 p q) + x0 (ix2 p q))
      + broadcastTo S2000x128 x10 broadcasts_S1x128_S2000x128 (ix2 p q)) - broadcastTo S2000x128 x14 broadcasts_S1x128_S2000x128 (ix2 p q))
      * broadcastTo S2000x128 (rsqrt (F := Ideal) (addf x18 (broadcast S1x128 (Scalar.ofBits (F := Ideal) .f32 0x3727C5AC#32))))
          broadcasts_S1x128_S2000x128 (ix2 p q))
      * broadcastTo S2000x128 x25 broadcasts_S1x128_S2000x128 (ix2 p q) + broadcastTo S2000x128 x29 broadcasts_S1x128_S2000x128 (ix2 p q))
      (Ideal.ofBits .f32 0x00000000#32) = _
  rw [broadcastTo_a1_ab_apply, broadcastTo_1b_ab_apply, broadcastTo_1b_ab_apply, broadcastTo_1b_ab_apply, broadcastTo_1b_ab_apply,
    broadcastTo_1b_ab_apply]
  rfl

/-- At one grid point: when row p of the row-tiled blocks is row r of their arrays and the row vectors are the arrays',
    the body's value at (p, q) is the whole `normAct`'s entry (r, q). -/
theorem bn_block3 (AGG HS : (⟨2, ![50000, 128]⟩ : Shape).Idx → EReal) (D : (⟨2, ![50000, 1]⟩ : Shape).Idx → EReal)
    (BC GM BT RM RV : (⟨2, ![1, 128]⟩ : Shape).Idx → EReal)
    (x0 : Vec Ideal S2000x128 .bf16) (x3 : Vec Ideal S2000x1 .f32) (x5 : Vec Ideal S2000x128 .f32)
    (x10 x14 x18 x25 x29 : Vec Ideal S1x128 .f32) (p : Fin 2000) (q : Fin 128) (r : Fin 50000)
    (h5 : x5 (ix2 p q) = AGG (ix2 r q)) (h0 : x0 (ix2 p q) = HS (ix2 r q)) (h3 : x3 (ix2 p (0 : Fin 1)) = D (ix2 r (0 : Fin 1)))
    (h10 : x10 (ix2 (0 : Fin 1) q) = BC (ix2 (0 : Fin 1) q)) (h25 : x25 (ix2 (0 : Fin 1) q) = GM (ix2 (0 : Fin 1) q))
    (h29 : x29 (ix2 (0 : Fin 1) q) = BT (ix2 (0 : Fin 1) q)) (h14 : x14 (ix2 (0 : Fin 1) q) = RM (ix2 (0 : Fin 1) q))
    (h18 : x18 (ix2 (0 : Fin 1) q) = RV (ix2 (0 : Fin 1) q)) :
    k3_pay1 x0 x3 x5 x10 x14 x18 x25 x29 (ix2 p q) = normAct AGG HS D BC GM BT RM RV (ix2 r q) := by
  rw [bn_pay3, normAct_apply, normAct_apply, h5, h0, h3, h10, h25, h29, h14, h18]

/-! ### Region 3 -/

/-- The printed index maps, decided over the grid: the row-tiled windows are at block row t, the row vectors at (0, 0). -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- What point t writes back is block t of `normAct` of the entry arrays. -/
theorem flushed3 (c : Dev nD) (t : Fin cfg3.N) :
    (dat3 V c).flushed 8 t = ((cfg3.win 8).blk t).view.read (Elt Ideal)
      (normAct (V c main_v55) (V c main_v44) (V c main_v11) (V c main_v66) (V c main_v67) (V c main_v68) (V c main_v69) (V c main_v70)
        : Buf (Elt Ideal) ((c : Thread nD τ).loc main_v71)) := by
  show (cfg3.win 8).cut (grid3.coords t) ((dat3 V c).after 8 t) = _
  rw [after3_8]
  unfold out3_8
  rw [View.canon_unit_zero hz2]
  simp only [View.ld_unit_zero (S := S2000x128) hz2, View.ld_unit_zero (S := S1x128) hz2, View.ld_unit_zero (S := S2000x1) hz2]
  obtain ⟨e00, e01, e10, e11, e20, e21, e30, e31, e40, e41, e50, e51, e60, e61, e70, e71, e80, e81⟩ := idx3 t
  have ht : t.val < 25 := t.isLt
  funext j
  obtain ⟨p, q, rfl⟩ : ∃ (p : Fin 2000) (q : Fin 128), j = ix2 p q := ⟨j 0, j 1, eq_ix2 j⟩
  have hemb : ((cfg3.win 8).blk t).view.emb (ix2 p q) = ix2 (⟨t.val * 2000 + p.val, by omega⟩ : Fin 50000) q := by
    funext a; apply Fin.ext
    match a with
    | ⟨0, _⟩ => show win3_8.index t (0 : Fin 2) * 2000 + 1 * p.val = t.val * 2000 + p.val; omega
    | ⟨1, _⟩ => show win3_8.index t (1 : Fin 2) * 128 + 1 * q.val = q.val; omega
  show k3_pay1 (iblk3 V c 1 t) (iblk3 V c 2 t) (iblk3 V c 0 t) (iblk3 V c 3 t) (iblk3 V c 6 t) (iblk3 V c 7 t) (iblk3 V c 4 t) (iblk3 V c 5 t) (ix2 p q)
    = normAct (V c main_v55) (V c main_v44) (V c main_v11) (V c main_v66) (V c main_v67) (V c main_v68) (V c main_v69) (V c main_v70)
        (((cfg3.win 8).blk t).view.emb (ix2 p q))
  rw [hemb]
  refine bn_block3 _ _ _ _ _ _ _ _ _ _ _ _ _ _ _ _ p q _ ?_ ?_ ?_ ?_ ?_ ?_ ?_ ?_
  · show V c main_v55 (((cfg3.win 0).blk t).view.emb (ix2 p q)) = V c main_v55 (ix2 (⟨t.val * 2000 + p.val, by omega⟩ : Fin 50000) q)
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * q.val = q.val; omega
  · show V c main_v44 (((cfg3.win 1).blk t).view.emb (ix2 p q)) = V c main_v44 (ix2 (⟨t.val * 2000 + p.val, by omega⟩ : Fin 50000) q)
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 128 + 1 * q.val = q.val; omega
  · show V c main_v11 (((cfg3.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  · show V c main_v66 (((cfg3.win 3).blk t).view.emb (ix2 (0 : Fin 1) q)) = V c main_v66 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · show V c main_v67 (((cfg3.win 4).blk t).view.emb (ix2 (0 : Fin 1) q)) = V c main_v67 (ix2 (0 : Fin 1) q)
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega
  · show V c main_v68 (((cfg3.win 5).blk t).view.emb (ix2 (0 : Fin 1) q)) = V c main_v68 (ix2 (0 : Fin 1) q)
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * q.val = q.val; omega
  · show V c main_v69 (((cfg3.win 6).blk t).view.emb (ix2 (0 : Fin 1) q)) = V c main_v69 (ix2 (0 : Fin 1) q)
    refine congrArg _ (funext fun a => Fin.ext ?_)
    match a with
    | ⟨0, _⟩ => show win3_6.index t (0 : Fin 2) * 1 + 1 * 0 = 0; omega
    | ⟨1, _⟩ => show win3_6.index t (1 : Fin 2) * 128 + 1 * q.val = q.val; omega
  · show V c main_v70 (((cfg3.win 7).blk t).view.emb (ix2 (0 : Fin 1) q)) = V c main_v70 (ix2 (0 : Fin 1) q)
    refine congrArg _ (funext fun a => Fin.ext ?_)
    match a with
    | ⟨0, _⟩ => show win3_7.index t (0 : Fin 2) * 1 + 1 * 0 = 0; omega
    | ⟨1, _⟩ => show win3_7.index t (1 : Fin 2) * 128 + 1 * q.val = q.val; omega

/-- An index of the array is in point t's block iff each coordinate is in the block's range on its axis. -/
theorem mem_blk3 (t : Fin cfg3.N) (i : S50000x128.Idx) :
    i ∈ ((cfg3.win 8).blk t).view.set ↔ ∀ a : Fin 2, win3_8.index t a * S2000x128.size a ≤ (i a).val
      ∧ (i a).val < win3_8.index t a * S2000x128.size a + S2000x128.size a := by
  show i ∈ ((View.whole main_v71).slice (win3_8.rect t)).set ↔ _
  rw [View.set_slice_whole, Rect.mem_set_unit]
  exact Iff.rfl

/-- Every row is in the block of the point numbered row / 2000. -/
theorem cover3 (i : S50000x128.Idx) : ∃ t : Fin cfg3.N, (cfg3.win 8).flush t = true ∧ i ∈ ((cfg3.win 8).blk t).view.set := by
  have hi0 : (i 0).val < 50000 := (i 0).isLt
  have hi1 : (i 1).val < 128 := (i 1).isLt
  have hlt : (i 0).val / 2000 < 25 := by omega
  refine ⟨⟨(i 0).val / 2000, hlt⟩, flush3_8 _, ?_⟩
  rw [mem_blk3]
  obtain ⟨-, -, -, -, -, -, -, -, -, -, -, -, -, -, -, -, e80, e81⟩ := idx3 ⟨(i 0).val / 2000, hlt⟩
  intro a
  match a with
  | ⟨0, _⟩ =>
    show win3_8.index ⟨(i 0).val / 2000, hlt⟩ (0 : Fin 2) * 2000 ≤ (i 0).val
      ∧ (i 0).val < win3_8.index ⟨(i 0).val / 2000, hlt⟩ (0 : Fin 2) * 2000 + 2000
    rw [e80]; show (i 0).val / 2000 * 2000 ≤ (i 0).val ∧ (i 0).val < (i 0).val / 2000 * 2000 + 2000; omega
  | ⟨1, _⟩ =>
    show win3_8.index ⟨(i 0).val / 2000, hlt⟩ (1 : Fin 2) * 128 ≤ (i 1).val
      ∧ (i 1).val < win3_8.index ⟨(i 0).val / 2000, hlt⟩ (1 : Fin 2) * 128 + 128
    rw [e81]; omega

/-- REGION 3's output array: `normAct` of the arrays the region finds. -/
theorem final3 (c : Dev nD) :
    (dat3 V c).arrAt 8 cfg3.N = (normAct (V c main_v55) (V c main_v44) (V c main_v11) (V c main_v66) (V c main_v67) (V c main_v68)
      (V c main_v69) (V c main_v70) : Buf (Elt Ideal) ((c : Thread nD τ).loc main_v71)) :=
  (dat3 V c).arrAt_eq_of_cover 8 _ (fun t _ => flushed3 V c t) cover3
/-- The body's value at an entry: the product's entry times the row's factor. -/
theorem lin_pay4 (x0 : Vec Ideal S2000x128 .f32) (x1 : Vec Ideal S128x128 .f32) (x2 : Vec Ideal S2000x1 .f32) (p : Fin 2000) (q : Fin 128) :
    k4_pay1 x0 x1 x2 (ix2 p q) = mm x0 x1 (ix2 p q) * x2 (ix2 p (0 : Fin 1)) := by
  unfold k4_pay1
  show (matmul (F := Ideal) dot_S2000x128_S128x128_S2000x128_1_0_0_1_n_n none (truncf (F := Ideal) .bf16 (shapeCast S2000x128 x0 shapeCasts_S2000x128_S2000x128) bitsLt_bf16_f32)
      (truncf (F := Ideal) .bf16 (shapeCast S128x128 x1 shapeCasts_S128x128_S128x128) bitsLt_bf16_f32)
      (constant (F := Ideal) S2000x128 .f32 0x00000000#32)) (ix2 p q)
    * (broadcastTo S2000x128 (shapeCast S2000x1 x2 shapeCasts_S2000x1_S2000x1) broadcasts_S2000x1_S2000x128) (ix2 p q) = _
  rw [shapeCast_self, shapeCast_self, shapeCast_self, broadcastTo_a1_ab_apply]
  exact congrArg (· * x2 (ix2 p (0 : Fin 1))) (congrFun (matmul_zero_eq_mm dot_S2000x128_S128x128_S2000x128_1_0_0_1_n_n.wf none x0 x1) (ix2 p q))

/-- At one grid point: when row p of the block of X is row r of X, the block of W is W, and the block's factor of row p
    is the factor of row r, the body's value at (p, q) is the whole scaled product's entry (r, q). -/
theorem lin_block4 (X : (⟨2, ![50000, 128]⟩ : Shape).Idx → EReal) (W : (⟨2, ![128, 128]⟩ : Shape).Idx → EReal)
    (D : (⟨2, ![50000, 1]⟩ : Shape).Idx → EReal)
    (x0 : Vec Ideal S2000x128 .f32) (x1 : Vec Ideal S128x128 .f32) (x2 : Vec Ideal S2000x1 .f32) (p : Fin 2000) (q : Fin 128) (r : Fin 50000)
    (h0 : ∀ k : Fin 128, x0 (ix2 p k) = X (ix2 r k)) (h1 : ∀ k : Fin 128, x1 (ix2 k q) = W (ix2 k q))
    (h2 : x2 (ix2 p (0 : Fin 1)) = D (ix2 r (0 : Fin 1))) :
    k4_pay1 x0 x1 x2 (ix2 p q) = scaledProduct X W D (ix2 r q) :=
  (lin_pay4 x0 x1 x2 p q).trans (scaledProduct_row X W D x0 x1 x2 p q r h0 h1 h2)

/-! ### Region 4 -/

/-- The printed index maps, decided over the grid: the row-tiled windows are at block row t, the weight matrix at (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What point t writes back is block t of the scaled product of the entry arrays. -/
theorem flushed4 (c : Dev nD) (t : Fin cfg4.N) :
    (dat4 V c).flushed 3 t = ((cfg4.win 3).blk t).view.read (Elt Ideal)
      (scaledProduct (V c main_v71) (V c main_v73) (V c main_v11) : Buf (Elt Ideal) ((c : Thread nD τ).loc main_v74)) := by
  show (cfg4.win 3).cut (grid4.coords t) ((dat4 V c).after 3 t) = _
  rw [after4_3]
  unfold out4_3
  rw [View.canon_unit_zero hz2]
  simp only [View.ld_unit_zero (S := S2000x128) hz2, View.ld_unit_zero (S := S128x128) hz2, View.ld_unit_zero (S := S2000x1) hz2]
  obtain ⟨e00, e01, e10, e11, e20, e21, e30, e31⟩ := idx4 t
  have ht : t.val < 25 := t.isLt
  funext j
  obtain ⟨p, q, rfl⟩ : ∃ (p : Fin 2000) (q : Fin 128), j = ix2 p q := ⟨j 0, j 1, eq_ix2 j⟩
  have hemb : ((cfg4.win 3).blk t).view.emb (ix2 p q) = ix2 (⟨t.val * 2000 + p.val, by omega⟩ : Fin 50000) q := by
    funext a; apply Fin.ext
    match a with
    | ⟨0, _⟩ => show win4_3.index t (0 : Fin 2) * 2000 + 1 * p.val = t.val * 2000 + p.val; omega
    | ⟨1, _⟩ => show win4_3.index t (1 : Fin 2) * 128 + 1 * q.val = q.val; omega
  show k4_pay1 (iblk4 V c 0 t) (iblk4 V c 1 t) (iblk4 V c 2 t) (ix2 p q)
    = scaledProduct (V c main_v71) (V c main_v73) (V c main_v11) (((cfg4.win 3).blk t).view.emb (ix2 p q))
  rw [hemb]
  refine lin_block4 _ _ _ _ _ _ p q _ (fun k => ?_) (fun k => ?_) ?_
  · show V c main_v71 (((cfg4.win 0).blk t).view.emb (ix2 p k)) = V c main_v71 (ix2 (⟨t.val * 2000 + p.val, by omega⟩ : Fin 50000) k)
    refine congrArg _ (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * k.val = k.val; omega
  · show V c main_v73 (((cfg4.win 1).blk t).view.emb (ix2 k q)) = V c main_v73 (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega
  · show V c main_v11 (((cfg4.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win4_2.index t (0 : Fin 2) * 2000 + 1 * p.val = t.val * 2000 + p.val; omega
    | ⟨1, _⟩ => show win4_2.index t (1 : Fin 2) * 1 + 1 * 0 = 0; omega

/-- An index of the array is in point t's block iff each coordinate is in the block's range on its axis. -/
theorem mem_blk4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v74).slice (win4_3.rect t)).set ↔ _
  rw [View.set_slice_whole, Rect.mem_set_unit]
  exact Iff.rfl

/-- Every row is in the block of the point numbered row / 2000. -/
theorem cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  have hlt : (i 0).val / 2000 < 25 := by omega
  refine ⟨⟨(i 0).val / 2000, hlt⟩, flush4_3 _, ?_⟩
  rw [mem_blk4]
  obtain ⟨-, -, -, -, -, -, e30, e31⟩ := idx4 ⟨(i 0).val / 2000, hlt⟩
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    rw [e30]; show (i 0).val / 2000 * 2000 ≤ (i 0).val ∧ (i 0).val < (i 0).val / 2000 * 2000 + 2000; omega
  | ⟨1, _⟩ =>
    show win4_3.index ⟨(i 0).val / 2000, hlt⟩ (1 : Fin 2) * 128 ≤ (i 1).val
      ∧ (i 1).val < win4_3.index ⟨(i 0).val / 2000, hlt⟩ (1 : Fin 2) * 128 + 128
    rw [e31]; omega

/-- REGION 4's output array: the scaled product of the arrays the region finds. -/
theorem final4 (c : Dev nD) :
    (dat4 V c).arrAt 3 cfg4.N = (scaledProduct (V c main_v71) (V c main_v73) (V c main_v11) : Buf (Elt Ideal) ((c : Thread nD τ).loc main_v74)) :=
  (dat4 V c).arrAt_eq_of_cover 3 _ (fun t _ => flushed4 V c t) cover4

/-- The body's value at an entry: degree factor times (aggregate + own features), bias, running normalisation, scale,
    shift, positive part — `normAct` of the loaded blocks. -/
theorem bn_pay5 (x0 : Vec Ideal S2000x128 .bf16) (x3 : Vec Ideal S2000x1 .f32) (x5 : Vec Ideal S2000x128 .f32)
    (x10 x14 x18 x25 x29 : Vec Ideal S1x128 .f32) (p : Fin 2000) (q : Fin 128) :
    k5_pay1 x0 x3 x5 x10 x14 x18 x25 x29 (ix2 p q) = normAct x5 x0 x3 x10 x25 x29 x14 x18 (ix2 p q) := by
  unfold k5_pay1
  simp only [shapeCast_self]
  show max ((((broadcastTo S2000x128 x3 broadcasts_S2000x1_S2000x128 (ix2 p q) * (x5 (ix2 p q) + x0 (ix2 p q))
      + broadcastTo S2000x128 x10 broadcasts_S1x128_S2000x128 (ix2 p q)) - broadcastTo S2000x128 x14 broadcasts_S1x128_S2000x128 (ix2 p q))
      * broadcastTo S2000x128 (rsqrt (F := Ideal) (addf x18 (broadcast S1x128 (Scalar.ofBits (F := Ideal) .f32 0x3727C5AC#32))))
          broadcasts_S1x128_S2000x128 (ix2 p q))
      * broadcastTo S2000x128 x25 broadcasts_S1x128_S2000x128 (ix2 p q) + broadcastTo S2000x128 x29 broadcasts_S1x128_S2000x128 (ix2 p q))
      (Ideal.ofBits .f32 0x00000000#32) = _
  rw [broadcastTo_a1_ab_apply, broadcastTo_1b_ab_apply, broadcastTo_1b_ab_apply, broadcastTo_1b_ab_apply, broadcastTo_1b_ab_apply,
    broadcastTo_1b_ab_apply]
  rfl

/-- At one grid point: when row p of the row-tiled blocks is row r of their arrays and the row vectors are the arrays',
    the body's value at (p, q) is the whole `normAct`'s entry (r, q). -/
theorem bn_block5 (AGG HS : (⟨2, ![50000, 128]⟩ : Shape).Idx → EReal) (D : (⟨2, ![50000, 1]⟩ : Shape).Idx → EReal)
    (BC GM BT RM RV : (⟨2, ![1, 128]⟩ : Shape).Idx → EReal)
    (x0 : Vec Ideal S2000x128 .bf16) (x3 : Vec Ideal S2000x1 .f32) (x5 : Vec Ideal S2000x128 .f32)
    (x10 x14 x18 x25 x29 : Vec Ideal S1x128 .f32) (p : Fin 2000) (q : Fin 128) (r : Fin 50000)
    (h5 : x5 (ix2 p q) = AGG (ix2 r q)) (h0 : x0 (ix2 p q) = HS (ix2 r q)) (h3 : x3 (ix2 p (0 : Fin 1)) = D (ix2 r (0 : Fin 1)))
    (h10 : x10 (ix2 (0 : Fin 1) q) = BC (ix2 (0 : Fin 1) q)) (h25 : x25 (ix2 (0 : Fin 1) q) = GM (ix2 (0 : Fin 1) q))
    (h29 : x29 (ix2 (0 : Fin 1) q) = BT (ix2 (0 : Fin 1) q)) (h14 : x14 (ix2 (0 : Fin 1) q) = RM (ix2 (0 : Fin 1) q))
    (h18 : x18 (ix2 (0 : Fin 1) q) = RV (ix2 (0 : Fin 1) q)) :
    k5_pay1 x0 x3 x5 x10 x14 x18 x25 x29 (ix2 p q) = normAct AGG HS D BC GM BT RM RV (ix2 r q) := by
  rw [bn_pay5, normAct_apply, normAct_apply, h5, h0, h3, h10, h25, h29, h14, h18]

/-! ### Region 5 -/

/-- The printed index maps, decided over the grid: the row-tiled windows are at block row t, the row vectors at (0, 0). -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

/-- What point t writes back is block t of `normAct` of the entry arrays. -/
theorem flushed5 (c : Dev nD) (t : Fin cfg5.N) :
    (dat5 V c).flushed 8 t = ((cfg5.win 8).blk t).view.read (Elt Ideal)
      (normAct (V c main_v85) (V c main_v74) (V c main_v11) (V c main_v96) (V c main_v97) (V c main_v98) (V c main_v99) (V c main_v100)
        : Buf (Elt Ideal) ((c : Thread nD τ).loc main_v101)) := by
  show (cfg5.win 8).cut (grid5.coords t) ((dat5 V c).after 8 t) = _
  rw [after5_8]
  unfold out5_8
  rw [View.canon_unit_zero hz2]
  simp only [View.ld_unit_zero (S := S2000x128) hz2, View.ld_unit_zero (S := S1x128) hz2, View.ld_unit_zero (S := S2000x1) hz2]
  obtain ⟨e00, e01, e10, e11, e20, e21, e30, e31, e40, e41, e50, e51, e60, e61, e70, e71, e80, e81⟩ := idx5 t
  have ht : t.val < 25 := t.isLt
  funext j
  obtain ⟨p, q, rfl⟩ : ∃ (p : Fin 2000) (q : Fin 128), j = ix2 p q := ⟨j 0, j 1, eq_ix2 j⟩
  have hemb : ((cfg5.win 8).blk t).view.emb (ix2 p q) = ix2 (⟨t.val * 2000 + p.val, by omega⟩ : Fin 50000) q := by
    funext a; apply Fin.ext
    match a with
    | ⟨0, _⟩ => show win5_8.index t (0 : Fin 2) * 2000 + 1 * p.val = t.val * 2000 + p.val; omega
    | ⟨1, _⟩ => show win5_8.index t (1 : Fin 2) * 128 + 1 * q.val = q.val; omega
  show k5_pay1 (iblk5 V c 1 t) (iblk5 V c 2 t) (iblk5 V c 0 t) (iblk5 V c 3 t) (iblk5 V c 6 t) (iblk5 V c 7 t) (iblk5 V c 4 t) (iblk5 V c 5 t) (ix2 p q)
    = normAct (V c main_v85) (V c main_v74) (V c main_v11) (V c main_v96) (V c main_v97) (V c main_v98) (V c main_v99) (V c main_v100)
        (((cfg5.win 8).blk t).view.emb (ix2 p q))
  rw [hemb]
  refine bn_block5 _ _ _ _ _ _ _ _ _ _ _ _ _ _ _ _ p q _ ?_ ?_ ?_ ?_ ?_ ?_ ?_ ?_
  · show V c main_v85 (((cfg5.win 0).blk t).view.emb (ix2 p q)) = V c main_v85 (ix2 (⟨t.val * 2000 + p.val, by omega⟩ : Fin 50000) q)
    refine congrArg _ (funext fun a => Fin.ext ?_)
    match a with
    | ⟨0, _⟩ => show win5_0.index t (0 : Fin 2) * 2000 + 1 * p.val = t.val * 2000 + p.val; omega
    | ⟨1, _⟩ => show win5_0.index t (1 : Fin 2) * 128 + 1 * q.val = q.val; omega
  · show V c main_v74 (((cfg5.win 1).blk t).view.emb (ix2 p q)) = V c main_v74 (ix2 (⟨t.val * 2000 + p.val, by omega⟩ : Fin 50000) q)
    refine congrArg _ (funext fun a => Fin.ext ?_)
    match a with
    | ⟨0, _⟩ => show win5_1.index t (0 : Fin 2) * 2000 + 1 * p.val = t.val * 2000 + p.val; omega
    | ⟨1, _⟩ => show win5_1.index t (1 : Fin 2) * 128 + 1 * q.val = q.val; omega
  · show V c main_v11 (((cfg5.win 2).blk t).view.emb (ix2 p (0 : Fin 1))) = V c main_v11 (ix2 (⟨t.val * 2000 + p.val, by omega⟩ : Fin 50000) (0 : Fin 1))
    refine congrArg _ (funext fun a => Fin.ext ?_)
    match a with
    | ⟨0, _⟩ => show win5_2.index t (0 : Fin 2) * 2000 + 1 * p.val = t.val * 2000 + p.val; omega
    | ⟨1, _⟩ => show win5_2.index t (1 : Fin 2) * 1 + 1 * 0 = 0; omega
  · show V c main_v96 (((cfg5.win 3).blk t).view.emb (ix2 (0 : Fin 1) q)) = V c main_v96 (ix2 (0 : Fin 1) q)
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega
  · show V c main_v97 (((cfg5.win 4).blk t).view.emb (ix2 (0 : Fin 1) q)) = V c main_v97 (ix2 (0 : Fin 1) q)
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega
  · show V c main_v98 (((cfg5.win 5).blk t).view.emb (ix2 (0 : Fin 1) q)) = V c main_v98 (ix2 (0 : Fin 1) q)
    refine congrArg _ (funext fun a => Fin.ext ?_)
    match a with
    | ⟨0, _⟩ => show win5_5.index t (0 : Fin 2) * 1 + 1 * 0 = 0; omega
    | ⟨1, _⟩ => show win5_5.index t (1 : Fin 2) * 128 + 1 * q.val = q.val; omega
  · show V c main_v99 (((cfg5.win 6).blk t).view.emb (ix2 (0 : Fin 1) q)) = V c main_v99 (ix2 (0 : Fin 1) q)
    refine congrArg _ (funext fun a => Fin.ext ?_)
    match a with
    | ⟨0, _⟩ => show win5_6.index t (0 : Fin 2) * 1 + 1 * 0 = 0; omega
    | ⟨1, _⟩ => show win5_6.index t (1 : Fin 2) * 128 + 1 * q.val = q.val; omega
  · show V c main_v100 (((cfg5.win 7).blk t).view.emb (ix2 (0 : Fin 1) q)) = V c main_v100 (ix2 (0 : Fin 1) q)
    refine congrArg _ (funext fun a => Fin.ext ?_)
    match a with
    | ⟨0, _⟩ => show win5_7.index t (0 : Fin 2) * 1 + 1 * 0 = 0; omega
    | ⟨1, _⟩ => show win5_7.index t (1 : Fin 2) * 128 + 1 * q.val = q.val; omega

/-- An index of the array is in point t's block iff each coordinate is in the block's range on its axis. -/
theorem mem_blk5 (t : Fin cfg5.N) (i : S50000x128.Idx) :
    i ∈ ((cfg5.win 8).blk t).view.set ↔ ∀ a : Fin 2, win5_8.index t a * S2000x128.size a ≤ (i a).val
      ∧ (i a).val < win5_8.index t a * S2000x128.size a + S2000x128.size a := by
  show i ∈ ((View.whole main_v101).slice (win5_8.rect t)).set ↔ _
  rw [View.set_slice_whole, Rect.mem_set_unit]
  exact Iff.rfl

/-- Every row is in the block of the point numbered row / 2000. -/
theorem cover5 (i : S50000x128.Idx) : ∃ t : Fin cfg5.N, (cfg5.win 8).flush t = true ∧ i ∈ ((cfg5.win 8).blk t).view.set := by
  have hi0 : (i 0).val < 50000 := (i 0).isLt
  have hi1 : (i 1).val < 128 := (i 1).isLt
  have hlt : (i 0).val / 2000 < 25 := by omega
  refine ⟨⟨(i 0).val / 2000, hlt⟩, flush5_8 _, ?_⟩
  rw [mem_blk5]
  obtain ⟨-, -, -, -, -, -, -, -, -, -, -, -, -, -, -, -, e80, e81⟩ := idx5 ⟨(i 0).val / 2000, hlt⟩
  intro a
  match a with
  | ⟨0, _⟩ =>
    show win5_8.index ⟨(i 0).val / 2000, hlt⟩ (0 : Fin 2) * 2000 ≤ (i 0).val
      ∧ (i 0).val < win5_8.index ⟨(i 0).val / 2000, hlt⟩ (0 : Fin 2) * 2000 + 2000
    rw [e80]; show (i 0).val / 2000 * 2000 ≤ (i 0).val ∧ (i 0).val < (i 0).val / 2000 * 2000 + 2000; omega
  | ⟨1, _⟩ =>
    show win5_8.index ⟨(i 0).val / 2000, hlt⟩ (1 : Fin 2) * 128 ≤ (i 1).val
      ∧ (i 1).val < win5_8.index ⟨(i 0).val / 2000, hlt⟩ (1 : Fin 2) * 128 + 128
    rw [e81]; omega

/-- REGION 5's output array: `normAct` of the arrays the region finds. -/
theorem final5 (c : Dev nD) :
    (dat5 V c).arrAt 8 cfg5.N = (normAct (V c main_v85) (V c main_v74) (V c main_v11) (V c main_v96) (V c main_v97) (V c main_v98)
      (V c main_v99) (V c main_v100) : Buf (Elt Ideal) ((c : Thread nD τ).loc main_v101)) :=
  (dat5 V c).arrAt_eq_of_cover 8 _ (fun t _ => flushed5 V c t) cover5

end Cert.KernelIdeal.Reg

end
-- ==== Proof.KerHead.lean ====
/-
  What the edge classifier's kernel leaves in its output array: `edgeHead` of the arrays it finds at its region's entry.

  Grid point t works on edges 4000·t … 4000·t + 3999: the two gathered end-point feature arrays and the edge features are
  tiled by rows, the three weight matrices and their bias rows are the same block at every point, and a row of the result
  depends on that row of the three feature blocks only; the 200 blocks tile the 800000 × 2 result.
-/
import proofs.«108547_j24747601560282_2_alg».proof.Proof.Gen.KernelIdeal.Frame
import proofs.«108547_j24747601560282_2_alg».proof.Proof.LibGraphConvForms
import Idealize.ShloMosaic.Lib.ValueLayout
import Idealize.ShloMosaic.Lib.Pipeline.Value

set_option maxRecDepth 16384

noncomputable section

namespace Cert.KernelIdeal.Reg6

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gnn Cert.Gcn Cert.MatrixProduct

/-- The zero offsets of a whole-block access. -/
theorem hz : (![0, 0] : Fin 2 → Nat) = fun _ => 0 := funext fun a => by fin_cases a <;> rfl

/-! ## The matrix unit's four products into zero accumulators are plain matrix products -/

theorem mmA {φ₁ φ₂ : FTy} (A : FVec Ideal S4000x128 φ₁) (B : FVec Ideal S128x128 φ₂) :
    matmul (F := Ideal) dot_S4000x128_S128x128_S4000x128_1_0_0_1_n_n none A B (constant (F := Ideal) S4000x128 .f32 0x00000000#32) = mm A B :=
  matmul_zero_eq_mm dot_S4000x128_S128x128_S4000x128_1_0_0_1_n_n.wf none A B
theorem mmB {φ₁ φ₂ : FTy} (A : FVec Ideal S4000x8 φ₁) (B : FVec Ideal S8x128 φ₂) :
    matmul (F := Ideal) dot_S4000x8_S8x128_S4000x128_1_0_0_1_n_n none A B (constant (F := Ideal) S4000x128 .f32 0x00000000#32) = mm A B :=
  matmul_zero_eq_mm dot_S4000x8_S8x128_S4000x128_1_0_0_1_n_n.wf none A B
theorem mmC {φ₁ φ₂ : FTy} (A : FVec Ideal S4000x128 φ₁) (B : FVec Ideal S128x64 φ₂) :
    matmul (F := Ideal) dot_S4000x128_S128x64_S4000x64_1_0_0_1_n_n none A B (constant (F := Ideal) S4000x64 .f32 0x00000000#32) = mm A B :=
  matmul_zero_eq_mm dot_S4000x128_S128x64_S4000x64_1_0_0_1_n_n.wf none A B
theorem mmD {φ₁ φ₂ : FTy} (A : FVec Ideal S4000x64 φ₁) (B : FVec Ideal S64x2 φ₂) :
    matmul (F := Ideal) dot_S4000x64_S64x2_S4000x2_1_0_0_1_n_n none A B (constant (F := Ideal) S4000x2 .f32 0x00000000#32) = mm A B :=
  matmul_zero_eq_mm dot_S4000x64_S64x2_S4000x2_1_0_0_1_n_n.wf none A B

/-! ## The body's value -/

/-- The first two dense layers of the body, at an entry. -/
theorem head_pay2 (v0 v2 : Vec Ideal S4000x128 .bf16) (v4 : Vec Ideal S4000x8 .f32) (v6 v9 : Vec Ideal S128x128 .f32)
    (v12 : Vec Ideal S8x128 .f32) (v20 : Vec Ideal S1x128 .f32) (v27 : Vec Ideal S128x64 .f32) (v30 : Vec Ideal S1x64 .f32)
    (p : Fin 4000) (s : Fin 64) :
    k6_pay2 v0 v2 v4 v6 v9 v12 v20 v27 v30 (ix2 p s) = biasedProduct (Gnn.posPart (firstDense v0 v2 v4 v6 v9 v12 v20)) v27 v30 (ix2 p s) := by
  unfold k6_pay2
  simp only [shapeCast_self]
  rw [mmA, mmA, mmB, mmC]
  show mm _ _ (ix2 p s) + broadcastTo S4000x64 v30 broadcasts_S1x64_S4000x64 (ix2 p s)
    = mm (Gnn.posPart (firstDense v0 v2 v4 v6 v9 v12 v20)) v27 (ix2 p s) + v30 (ix2 (0 : Fin 1) s)
  rw [broadcastTo_1b_ab_apply]
  refine congrArg (· + v30 (ix2 (0 : Fin 1) s)) (mm_of_row_col _ _ _ _ (ix2 p s) (ix2 p s) (fun k => ?_) (fun k => rfl))
  show max (mm v0 _ (ix2 p k) + mm v2 _ (ix2 p k) + mm _ _ (ix2 p k) + broadcastTo S4000x128 v20 broadcasts_S1x128_S4000x128 (ix2 p k)) _
    = max (mm v0 v6 (ix2 p k) + mm v2 v9 (ix2 p k) + mm v4 v12 (ix2 p k) + v20 (ix2 (0 : Fin 1) k)) zw
  rw [broadcastTo_1b_ab_apply]
  rfl

/-- The whole body's value at an entry: the edge classifier of the loaded blocks. -/
theorem head_pay (x0 x1 : Vec Ideal S4000x128 .bf16) (x2 : Vec Ideal S4000x8 .f32) (x3 x4 : Vec Ideal S128x128 .f32)
    (x5 : Vec Ideal S8x128 .f32) (x6 : Vec Ideal S1x128 .f32) (x7 : Vec Ideal S128x64 .f32) (x8 : Vec Ideal S1x64 .f32)
    (x9 : Vec Ideal S64x2 .f32) (x10 : Vec Ideal S1x2 .f32) (p : Fin 4000) (q : Fin 2) :
    k6_pay1 (k6_pay2 x0 x1 x2 x3 x4 x5 x6 x7 x8) (k6_pay3 (F := Ideal)) x9 x10 (ix2 p q)
      = edgeHead x0 x1 x2 x3 x4 x5 x6 x7 x8 x9 x10 (ix2 p q) := by
  unfold k6_pay1
  simp only [shapeCast_self]
  rw [mmD]
  show mm _ _ (ix2 p q) + broadcastTo S4000x2 x10 broadcasts_S1x2_S4000x2 (ix2 p q)
    = mm (Gnn.posPart (biasedProduct (Gnn.posPart (firstDense x0 x1 x2 x3 x4 x5 x6)) x7 x8)) x9 (ix2 p q) + x10 (ix2 (0 : Fin 1) q)
  rw [broadcastTo_1b_ab_apply]
  refine congrArg (· + x10 (ix2 (0 : Fin 1) q)) (mm_of_row_col _ _ _ _ (ix2 p q) (ix2 p q) (fun k => ?_) (fun k => rfl))
  show max (k6_pay2 x0 x1 x2 x3 x4 x5 x6 x7 x8 (ix2 p k)) (k6_pay3 (F := Ideal) (ix2 p k))
    = max (biasedProduct (Gnn.posPart (firstDense x0 x1 x2 x3 x4 x5 x6)) x7 x8 (ix2 p k)) zw
  rw [head_pay2]
  rfl

/-- At one grid point: when row p of the three feature blocks is row r of their arrays and the eight small operands'
    blocks are their arrays, the body's value at (p, q) is the whole classifier's entry (r, q). -/
theorem head_block (XS XD : (⟨2, ![800000, 128]⟩ : Shape).Idx → EReal) (EA : (⟨2, ![800000, 8]⟩ : Shape).Idx → EReal)
    (W3 W4 : (⟨2, ![128, 128]⟩ : Shape).Idx → EReal) (W5 : (⟨2, ![8, 128]⟩ : Shape).Idx → EReal) (W6 : (⟨2, ![1, 128]⟩ : Shape).Idx → EReal)
    (W7 : (⟨2, ![128, 64]⟩ : Shape).Idx → EReal) (W8 : (⟨2, ![1, 64]⟩ : Shape).Idx → EReal) (W9 : (⟨2, ![64, 2]⟩ : Shape).Idx → EReal)
    (W10 : (⟨2, ![1, 2]⟩ : Shape).Idx → EReal)
    (x0 x1 : Vec Ideal S4000x128 .bf16) (x2 : Vec Ideal S4000x8 .f32) (x3 x4 : Vec Ideal S128x128 .f32)
    (x5 : Vec Ideal S8x128 .f32) (x6 : Vec Ideal S1x128 .f32) (x7 : Vec Ideal S128x64 .f32) (x8 : Vec Ideal S1x64 .f32)
    (x9 : Vec Ideal S64x2 .f32) (x10 : Vec Ideal S1x2 .f32) (p : Fin 4000) (q : Fin 2) (r : Fin 800000)
    (h0 : ∀ k : Fin 128, x0 (ix2 p k) = XS (ix2 r k)) (h1 : ∀ k : Fin 128, x1 (ix2 p k) = XD (ix2 r k))
    (h2 : ∀ k : Fin 8, x2 (ix2 p k) = EA (ix2 r k))
    (h3 : ∀ (a : Fin 128) (b : Fin 128), x3 (ix2 a b) = W3 (ix2 a b)) (h4 : ∀ (a : Fin 128) (b : Fin 128), x4 (ix2 a b) = W4 (ix2 a b))
    (h5 : ∀ (a : Fin 8) (b : Fin 128), x5 (ix2 a b) = W5 (ix2 a b)) (h6 : ∀ (a : Fin 1) (b : Fin 128), x6 (ix2 a b) = W6 (ix2 a b))
    (h7 : ∀ (a : Fin 128) (b : Fin 64), x7 (ix2 a b) = W7 (ix2 a b)) (h8 : ∀ (a : Fin 1) (b : Fin 64), x8 (ix2 a b) = W8 (ix2 a b))
    (h9 : ∀ (a : Fin 64) (b : Fin 2), x9 (ix2 a b) = W9 (ix2 a b)) (h10 : ∀ (a : Fin 1) (b : Fin 2), x10 (ix2 a b) = W10 (ix2 a b)) :
    k6_pay1 (k6_pay2 x0 x1 x2 x3 x4 x5 x6 x7 x8) (k6_pay3 (F := Ideal)) x9 x10 (ix2 p q)
      = edgeHead XS XD EA W3 W4 W5 W6 W7 W8 W9 W10 (ix2 r q) := by
  have e3 : x3 = W3 := funext fun i => by rw [eq_ix2 i]; exact h3 _ _
  have e4 : x4 = W4 := funext fun i => by rw [eq_ix2 i]; exact h4 _ _
  have e5 : x5 = W5 := funext fun i => by rw [eq_ix2 i]; exact h5 _ _
  have e6 : x6 = W6 := funext fun i => by rw [eq_ix2 i]; exact h6 _ _
  have e7 : x7 = W7 := funext fun i => by rw [eq_ix2 i]; exact h7 _ _
  have e8 : x8 = W8 := funext fun i => by rw [eq_ix2 i]; exact h8 _ _
  have e9 : x9 = W9 := funext fun i => by rw [eq_ix2 i]; exact h9 _ _
  have e10 : x10 = W10 := funext fun i => by rw [eq_ix2 i]; exact h10 _ _
  subst e3 e4 e5 e6 e7 e8 e9 e10
  exact (head_pay x0 x1 x2 x3 x4 x5 x6 x7 x8 x9 x10 p q).trans (edgeHead_row XS XD EA x0 x1 x2 x3 x4 x5 x6 x7 x8 x9 x10 p r h0 h1 h2 q)

/-! ## Region 6 -/

variable (V : (c : Dev nD) → (b : Ref sig .tc) → Buf (Elt Ideal) ((c : Thread nD τ).loc b))

/-- The printed index maps, decided over the grid: the row-tiled windows are at block row t, the small operands at (0, 0). -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0
    ∧ win6_10.index t (0 : Fin 2) = 0 ∧ win6_10.index t (1 : Fin 2) = 0
    ∧ win6_11.index t (0 : Fin 2) = t.val ∧ win6_11.index t (1 : Fin 2) = 0 :=
  (by decide +kernel : ∀ t : Fin grid6.N, _)

/-- What point t writes back is block t of the edge classifier of the entry arrays. -/
theorem flushed6 (c : Dev nD) (t : Fin cfg6.N) :
    (dat6 V c).flushed 11 t = ((cfg6.win 11).blk t).view.read (Elt Ideal)
      (edgeHead (V c main_v108) (V c main_v115) (V c main_arg2) (V c main_v116) (V c main_v117) (V c main_v118) (V c main_v119)
        (V c main_arg11) (V c main_v120) (V c main_arg13) (V c main_v121) : Buf (Elt Ideal) ((c : Thread nD τ).loc main_v122)) := by
  show (cfg6.win 11).cut (grid6.coords t) ((dat6 V c).after 11 t) = _
  rw [after6_11]
  unfold out6_11
  rw [View.canon_unit_zero hz]
  simp only [View.ld_unit_zero (S := S4000x128) hz, View.ld_unit_zero (S := S4000x8) hz, View.ld_unit_zero (S := S128x128) hz,
    View.ld_unit_zero (S := S8x128) hz, View.ld_unit_zero (S := S1x128) hz, View.ld_unit_zero (S := S128x64) hz,
    View.ld_unit_zero (S := S1x64) hz, View.ld_unit_zero (S := S64x2) hz, View.ld_unit_zero (S := S1x2) hz]
  obtain ⟨e0a, e0b, e1a, e1b, e2a, e2b, e3a, e3b, e4a, e4b, e5a, e5b, e6a, e6b, e7a, e7b, e8a, e8b, e9a, e9b, e10a, e10b, e11a, e11b⟩ := idx6 t
  have ht : t.val < 200 := t.isLt
  funext j
  obtain ⟨p, q, rfl⟩ : ∃ (p : Fin 4000) (q : Fin 2), j = ix2 p q := ⟨j 0, j 1, eq_ix2 j⟩
  have hemb : ((cfg6.win 11).blk t).view.emb (ix2 p q) = ix2 (⟨t.val * 4000 + p.val, by omega⟩ : Fin 800000) q := by
    funext a; apply Fin.ext
    match a with
    | ⟨0, _⟩ => show win6_11.index t (0 : Fin 2) * 4000 + 1 * p.val = t.val * 4000 + p.val; omega
    | ⟨1, _⟩ => show win6_11.index t (1 : Fin 2) * 2 + 1 * q.val = q.val; omega
  show k6_pay1 (k6_pay2 (iblk6 V c 0 t) (iblk6 V c 1 t) (iblk6 V c 2 t) (iblk6 V c 3 t) (iblk6 V c 4 t) (iblk6 V c 5 t) (iblk6 V c 6 t)
      (iblk6 V c 7 t) (iblk6 V c 8 t)) (k6_pay3 (F := Ideal)) (iblk6 V c 9 t) (iblk6 V c 10 t) (ix2 p q)
    = edgeHead (V c main_v108) (V c main_v115) (V c main_arg2) (V c main_v116) (V c main_v117) (V c main_v118) (V c main_v119)
        (V c main_arg11) (V c main_v120) (V c main_arg13) (V c main_v121) (((cfg6.win 11).blk t).view.emb (ix2 p q))
  rw [hemb]
  refine head_block _ _ _ _ _ _ _ _ _ _ _ _ _ _ _ _ _ _ _ _ _ _ p q _ (fun k => ?_) (fun k => ?_) (fun k => ?_) ?_ ?_ ?_ ?_ ?_ ?_ ?_ ?_
  · show V c main_v108 (((cfg6.win 0).blk t).view.emb (ix2 p k)) = V c main_v108 (ix2 (⟨t.val * 4000 + p.val, by omega⟩ : Fin 800000) k)
    refine congrArg _ (funext fun a => Fin.ext ?_)
    match a with
    | ⟨0, _⟩ => show win6_0.index t (0 : Fin 2) * 4000 + 1 * p.val = t.val * 4000 + p.val; omega
    | ⟨1, _⟩ => show win6_0.index t (1 : Fin 2) * 128 + 1 * k.val = k.val; omega
  · show V c main_v115 (((cfg6.win 1).blk t).view.emb (ix2 p k)) = V c main_v115 (ix2 (⟨t.val * 4000 + p.val, by omega⟩ : Fin 800000) k)
    refine congrArg _ (funext fun a => Fin.ext ?_)
    match a with
    | ⟨0, _⟩ => show win6_1.index t (0 : Fin 2) * 4000 + 1 * p.val = t.val * 4000 + p.val; omega
    | ⟨1, _⟩ => show win6_1.index t (1 : Fin 2) * 128 + 1 * k.val = k.val; omega
  · show V c main_arg2 (((cfg6.win 2).blk t).view.emb (ix2 p k)) = V c main_arg2 (ix2 (⟨t.val * 4000 + p.val, by omega⟩ : Fin 800000) k)
    refine congrArg _ (funext fun a => Fin.ext ?_)
    match a with
    | ⟨0, _⟩ => show win6_2.index t (0 : Fin 2) * 4000 + 1 * p.val = t.val * 4000 + p.val; omega
    | ⟨1, _⟩ => show win6_2.index t (1 : Fin 2) * 8 + 1 * k.val = k.val; omega
  · intro a b
    show V c main_v116 (((cfg6.win 3).blk t).view.emb (ix2 a b)) = V c main_v116 (ix2 a b)
    refine congrArg _ (funext fun ax => Fin.ext ?_)
    match ax with
    | ⟨0, _⟩ => show win6_3.index t (0 : Fin 2) * 128 + 1 * a.val = a.val; omega
    | ⟨1, _⟩ => show win6_3.index t (1 : Fin 2) * 128 + 1 * b.val = b.val; omega
  · intro a b
    show V c main_v117 (((cfg6.win 4).blk t).view.emb (ix2 a b)) = V c main_v117 (ix2 a b)
    refine congrArg _ (funext fun ax => Fin.ext ?_)
    match ax with
    | ⟨0, _⟩ => show win6_4.index t (0 : Fin 2) * 128 + 1 * a.val = a.val; omega
    | ⟨1, _⟩ => show win6_4.index t (1 : Fin 2) * 128 + 1 * b.val = b.val; omega
  · intro a b
    show V c main_v118 (((cfg6.win 5).blk t).view.emb (ix2 a b)) = V c main_v118 (ix2 a b)
    refine congrArg _ (funext fun ax => Fin.ext ?_)
    match ax with
    | ⟨0, _⟩ => show win6_5.index t (0 : Fin 2) * 8 + 1 * a.val = a.val; omega
    | ⟨1, _⟩ => show win6_5.index t (1 : Fin 2) * 128 + 1 * b.val = b.val; omega
  · intro a b
    show V c main_v119 (((cfg6.win 6).blk t).view.emb (ix2 a b)) = V c main_v119 (ix2 a b)
    refine congrArg _ (funext fun ax => Fin.ext ?_)
    match ax with
    | ⟨0, _⟩ => show win6_6.index t (0 : Fin 2) * 1 + 1 * a.val = a.val; omega
    | ⟨1, _⟩ => show win6_6.index t (1 : Fin 2) * 128 + 1 * b.val = b.val; omega
  · intro a b
    show V c main_arg11 (((cfg6.win 7).blk t).view.emb (ix2 a b)) = V c main_arg11 (ix2 a b)
    refine congrArg _ (funext fun ax => Fin.ext ?_)
    match ax with
    | ⟨0, _⟩ => show win6_7.index t (0 : Fin 2) * 128 + 1 * a.val = a.val; omega
    | ⟨1, _⟩ => show win6_7.index t (1 : Fin 2) * 64 + 1 * b.val = b.val; omega
  · intro a b
    show V c main_v120 (((cfg6.win 8).blk t).view.emb (ix2 a b)) = V c main_v120 (ix2 a b)
    refine congrArg _ (funext fun ax => Fin.ext ?_)
    match ax with
    | ⟨0, _⟩ => show win6_8.index t (0 : Fin 2) * 1 + 1 * a.val = a.val; omega
    | ⟨1, _⟩ => show win6_8.index t (1 : Fin 2) * 64 + 1 * b.val = b.val; omega
  · intro a b
    show V c main_arg13 (((cfg6.win 9).blk t).view.emb (ix2 a b)) = V c main_arg13 (ix2 a b)
    refine congrArg _ (funext fun ax => Fin.ext ?_)
    match ax with
    | ⟨0, _⟩ => show win6_9.index t (0 : Fin 2) * 64 + 1 * a.val = a.val; omega
    | ⟨1, _⟩ => show win6_9.index t (1 : Fin 2) * 2 + 1 * b.val = b.val; omega
  · intro a b
    show V c main_v121 (((cfg6.win 10).blk t).view.emb (ix2 a b)) = V c main_v121 (ix2 a b)
    refine congrArg _ (funext fun ax => Fin.ext ?_)
    match ax with
    | ⟨0, _⟩ => show win6_10.index t (0 : Fin 2) * 1 + 1 * a.val = a.val; omega
    | ⟨1, _⟩ => show win6_10.index t (1 : Fin 2) * 2 + 1 * b.val = b.val; omega

/-- An index of the array is in point t's block iff each coordinate is in the block's range on its axis. -/
theorem mem_blk6 (t : Fin cfg6.N) (i : S800000x2.Idx) :
    i ∈ ((cfg6.win 11).blk t).view.set ↔ ∀ a : Fin 2, win6_11.index t a * S4000x2.size a ≤ (i a).val
      ∧ (i a).val < win6_11.index t a * S4000x2.size a + S4000x2.size a := by
  show i ∈ ((View.whole main_v122).slice (win6_11.rect t)).set ↔ _
  rw [View.set_slice_whole, Rect.mem_set_unit]
  exact Iff.rfl

/-- Every row is in the block of the point numbered row / 4000. -/
theorem cover6 (i : S800000x2.Idx) : ∃ t : Fin cfg6.N, (cfg6.win 11).flush t = true ∧ i ∈ ((cfg6.win 11).blk t).view.set := by
  have hi0 : (i 0).val < 800000 := (i 0).isLt
  have hi1 : (i 1).val < 2 := (i 1).isLt
  have hlt : (i 0).val / 4000 < 200 := by omega
  refine ⟨⟨(i 0).val / 4000, hlt⟩, flush6_11 _, ?_⟩
  rw [mem_blk6]
  obtain ⟨-, -, -, -, -, -, -, -, -, -, -, -, -, -, -, -, -, -, -, -, -, -, e11a, e11b⟩ := idx6 ⟨(i 0).val / 4000, hlt⟩
  intro a
  match a with
  | ⟨0, _⟩ =>
    show win6_11.index ⟨(i 0).val / 4000, hlt⟩ (0 : Fin 2) * 4000 ≤ (i 0).val
      ∧ (i 0).val < win6_11.index ⟨(i 0).val / 4000, hlt⟩ (0 : Fin 2) * 4000 + 4000
    rw [e11a]; show (i 0).val / 4000 * 4000 ≤ (i 0).val ∧ (i 0).val < (i 0).val / 4000 * 4000 + 4000; omega
  | ⟨1, _⟩ =>
    show win6_11.index ⟨(i 0).val / 4000, hlt⟩ (1 : Fin 2) * 2 ≤ (i 1).val
      ∧ (i 1).val < win6_11.index ⟨(i 0).val / 4000, hlt⟩ (1 : Fin 2) * 2 + 2
    rw [e11b]; omega

/-- REGION 6's output array: the edge classifier of the arrays the region finds. -/
theorem final6 (c : Dev nD) :
    (dat6 V c).arrAt 11 cfg6.N = (edgeHead (V c main_v108) (V c main_v115) (V c main_arg2) (V c main_v116) (V c main_v117) (V c main_v118)
      (V c main_v119) (V c main_arg11) (V c main_v120) (V c main_arg13) (V c main_v121) : Buf (Elt Ideal) ((c : Thread nD τ).loc main_v122)) :=
  (dat6 V c).arrAt_eq_of_cover 11 _ (fun t _ => flushed6 V c t) cover6

end Cert.KernelIdeal.Reg6

end
-- ==== Proof.KerForms.lean ====
/-
  The kernel program's computation, cut into the same pieces as the reference's: the degree factors, one
  graph-convolution layer, the edge classifier, and their composition over three layers. The host operations between the
  kernels are the program's own, on whole arrays; what a kernel leaves in its output array is stated by the whole-array
  forms of LibGraphConvForms.lean.

  One layer, from node features X and a weight matrix W: hs = (X·W) scaled row by row by dinv; every edge e carries
  hs(src e, ·), unscaled, to its destination row, the rows are summed per destination, and the second kernel computes
  dinv · (sum + hs) plus the bias, the running normalisation, the scale and the shift, and takes the positive part.
-/
import proofs.«108547_j24747601560282_2_alg».proof.KernelIdeal
import proofs.«108547_j24747601560282_2_alg».proof.Proof.Gen.KernelIdeal
import proofs.«108547_j24747601560282_2_alg».proof.Proof.LibGraphConvForms

noncomputable section

namespace Cert.KernelIdeal.Forms

open Cert.KernelIdeal Cert.KernelIdeal.Facts₀ Idealize.ShloMosaic Cert.Gnn Cert.Gcn

abbrev Vec32 := (⟨S800000, .i32⟩ : BufTy).Contents (Elt Ideal)
abbrev Col32 := (⟨S800000x1, .i32⟩ : BufTy).Contents (Elt Ideal)

/-- The source row numbers of the edges: row 0 of the edge list. -/
def srcVec (a1 : (⟨S2x800000, .i32⟩ : BufTy).Contents (Elt Ideal)) : Vec32 :=
  shapeCast _ (extractStridedSlice S1x800000 ![0, 0] a1 slices_S2x800000_S1x800000_0_0) shapeCasts_S1x800000_S800000
/-- The destination row numbers of the edges: row 1 of the edge list. -/
def dstVec (a1 : (⟨S2x800000, .i32⟩ : BufTy).Contents (Elt Ideal)) : Vec32 :=
  shapeCast _ (extractStridedSlice S1x800000 ![1, 0] a1 slices_S2x800000_S1x800000_1_0) shapeCasts_S1x800000_S800000
/-- A vector of row numbers as one column, as given. -/
def rawCol (v : Vec32) : Col32 := broadcastInDim S800000x1 ![0] bcast_S800000_S800000x1_0 v
/-- A vector of row numbers as one column, a negative number wrapped by adding the number of rows. -/
def wrapCol (v : Vec32) : Col32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The degree factors: rsqrt of (number of edges arriving at the node, plus one). -/
def dinv (a1 : (⟨S2x800000, .i32⟩ : BufTy).Contents (Elt Ideal)) : FVec Ideal S50000 .f32 :=
  Host.rsqrt (F := Ideal) (addf (Host.scatterAdd (F := Ideal) scatter_S50000_S800000x1_S800000_n_0_0_1
      (broadcastInDim S50000 ![] bcast_S_S50000 (constant (F := Ideal) S_ .f32 0x00000000#32)) (rawCol (dstVec a1))
      (broadcastInDim S800000 ![] bcast_S_S800000 (constant (F := Ideal) S_ .f32 0x3F800000#32)))
    (broadcastInDim S50000 ![] bcast_S_S50000 (constant (F := Ideal) S_ .f32 0x3F800000#32)))

/-- The degree factors as one column. -/
def dinvCol (a1 : (⟨S2x800000, .i32⟩ : BufTy).Contents (Elt Ideal)) : FVec Ideal S50000x1 .f32 :=
  broadcastInDim S50000x1 ![0] bcast_S50000_S50000x1_0 (dinv a1)

/-- A length-128 vector as a 1 × 128 row. -/
abbrev row (v : FVec Ideal S128 .f32) : FVec Ideal S1x128 .f32 := shapeCast S1x128 v shapeCasts_S128_S1x128

/-- The scaled features a layer's first kernel leaves. -/
def scaled (X : FVec Ideal S50000x128 .f32) (W : FVec Ideal S128x128 .f32) (D : FVec Ideal S50000x1 .f32) : FVec Ideal S50000x128 .bf16 :=
  scaledProduct X W D

/-- The per-destination sums of the gathered scaled features: the host's gather, change of format and scatter-add. -/
def aggregate (hs : FVec Ideal S50000x128 .bf16) (srcw dstc : Col32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) dstc
    (extf .f32 (Host.gather gather_S50000x128_S800000x1_S800000x128_1_0_n_n_0_1_1128 hs srcw) bitsLt_bf16_f32)

/-- ONE LAYER of the kernel program. -/
def layer (X : FVec Ideal S50000x128 .f32) (W : FVec Ideal S128x128 .f32) (D : FVec Ideal S50000x1 .f32)
    (bc gm bt rm rv : FVec Ideal S128 .f32) (srcw dstc : Col32) : (⟨2, ![50000, 128]⟩ : Shape).Idx → EReal :=
  normAct (aggregate (scaled X W D) srcw dstc) (scaled X W D) D (row bc) (row gm) (row bt) (row rm) (row rv)

/-- THE EDGE CLASSIFIER of the kernel program, on the gathered end-point features. -/
def head (X : (⟨2, ![50000, 128]⟩ : Shape).Idx → EReal) (srcw dstw : Col32) (ea : FVec Ideal S800000x8 .f32) (w1 : FVec Ideal S264x128 .f32)
    (b1 : FVec Ideal S128 .f32) (w2 : FVec Ideal S128x64 .f32) (b2 : FVec Ideal S64 .f32) (w3 : FVec Ideal S64x2 .f32)
    (b3 : FVec Ideal S2 .f32) : (⟨2, ![800000, 2]⟩ : Shape).Idx → EReal :=
  edgeHead (Host.gather gather_S50000x128_S800000x1_S800000x128_1_0_n_n_0_1_1128 X srcw)
    (Host.gather gather_S50000x128_S800000x1_S800000x128_1_0_n_n_0_1_1128 X dstw) ea
    (extractStridedSlice S128x128 ![0, 0] w1 slices_S264x128_S128x128_0_0)
    (extractStridedSlice S128x128 ![128, 0] w1 slices_S264x128_S128x128_128_0)
    (extractStridedSlice S8x128 ![256, 0] w1 slices_S264x128_S8x128_256_0)
    (shapeCast S1x128 b1 shapeCasts_S128_S1x128) w2 (shapeCast S1x64 b2 shapeCasts_S64_S1x64) w3 (shapeCast S1x2 b3 shapeCasts_S2_S1x2)

/-- Layer k's weight matrix, and row k of a 3 × 128 parameter array. -/
def w0 (a3 : FVec Ideal S3x128x128 .f32) : FVec Ideal S128x128 .f32 :=
  shapeCast _ (extractStridedSlice S1x128x128 ![0, 0, 0] a3 slices_S3x128x128_S1x128x128_0_0_0) shapeCasts_S1x128x128_S128x128
def w1 (a3 : FVec Ideal S3x128x128 .f32) : FVec Ideal S128x128 .f32 :=
  shapeCast _ (extractStridedSlice S1x128x128 ![1, 0, 0] a3 slices_S3x128x128_S1x128x128_1_0_0) shapeCasts_S1x128x128_S128x128
def w2 (a3 : FVec Ideal S3x128x128 .f32) : FVec Ideal S128x128 .f32 :=
  shapeCast _ (extractStridedSlice S1x128x128 ![2, 0, 0] a3 slices_S3x128x128_S1x128x128_2_0_0) shapeCasts_S1x128x128_S128x128
def p0 (a : FVec Ideal S3x128 .f32) : FVec Ideal S128 .f32 :=
  shapeCast _ (extractStridedSlice S1x128 ![0, 0] a slices_S3x128_S1x128_0_0) shapeCasts_S1x128_S128
def p1 (a : FVec Ideal S3x128 .f32) : FVec Ideal S128 .f32 :=
  shapeCast _ (extractStridedSlice S1x128 ![1, 0] a slices_S3x128_S1x128_1_0) shapeCasts_S1x128_S128
def p2 (a : FVec Ideal S3x128 .f32) : FVec Ideal S128 .f32 :=
  shapeCast _ (extractStridedSlice S1x128 ![2, 0] a slices_S3x128_S1x128_2_0) shapeCasts_S1x128_S128

/-- The node features after layers 0, 1 and 2. -/
def x1 (a0 : FVec Ideal S50000x128 .f32) (a1 : (⟨S2x800000, .i32⟩ : BufTy).Contents (Elt Ideal)) (a3 : FVec Ideal S3x128x128 .f32)
    (a4 a5 a6 a7 a8 : FVec Ideal S3x128 .f32) : (⟨2, ![50000, 128]⟩ : Shape).Idx → EReal :=
  layer a0 (w0 a3) (dinvCol a1) (p0 a4) (p0 a5) (p0 a6) (p0 a7) (p0 a8) (wrapCol (srcVec a1)) (rawCol (dstVec a1))
def x2 (a0 : FVec Ideal S50000x128 .f32) (a1 : (⟨S2x800000, .i32⟩ : BufTy).Contents (Elt Ideal)) (a3 : FVec Ideal S3x128x128 .f32)
    (a4 a5 a6 a7 a8 : FVec Ideal S3x128 .f32) : (⟨2, ![50000, 128]⟩ : Shape).Idx → EReal :=
  layer (x1 a0 a1 a3 a4 a5 a6 a7 a8) (w1 a3) (dinvCol a1) (p1 a4) (p1 a5) (p1 a6) (p1 a7) (p1 a8) (wrapCol (srcVec a1)) (rawCol (dstVec a1))
def x3 (a0 : FVec Ideal S50000x128 .f32) (a1 : (⟨S2x800000, .i32⟩ : BufTy).Contents (Elt Ideal)) (a3 : FVec Ideal S3x128x128 .f32)
    (a4 a5 a6 a7 a8 : FVec Ideal S3x128 .f32) : (⟨2, ![50000, 128]⟩ : Shape).Idx → EReal :=
  layer (x2 a0 a1 a3 a4 a5 a6 a7 a8) (w2 a3) (dinvCol a1) (p2 a4) (p2 a5) (p2 a6) (p2 a7) (p2 a8) (wrapCol (srcVec a1)) (rawCol (dstVec a1))

/-- THE KERNEL PROGRAM's result as one function of its arguments. -/
def top (a0 : FVec Ideal S50000x128 .f32) (a1 : (⟨S2x800000, .i32⟩ : BufTy).Contents (Elt Ideal)) (a2 : FVec Ideal S800000x8 .f32)
    (a3 : FVec Ideal S3x128x128 .f32) (a4 a5 a6 a7 a8 : FVec Ideal S3x128 .f32) (a9 : FVec Ideal S264x128 .f32) (a10 : FVec Ideal S128 .f32)
    (a11 : FVec Ideal S128x64 .f32) (a12 : FVec Ideal S64 .f32) (a13 : FVec Ideal S64x2 .f32) (a14 : FVec Ideal S2 .f32) :
    (⟨2, ![800000, 2]⟩ : Shape).Idx → EReal :=
  head (x3 a0 a1 a3 a4 a5 a6 a7 a8) (wrapCol (srcVec a1)) (wrapCol (dstVec a1)) a2 a9 a10 a11 a12 a13 a14

end Cert.KernelIdeal.Forms

end
-- ==== Proof.KerValue.lean ====
/-
  The kernel program's result as one function of its arguments.

  The run passes through fourteen boundaries: after each stretch of host operations and after each kernel's region. At
  each boundary the buffers that later segments read are named: what a stretch of host operations leaves is that stretch's
  operations applied to what it finds; what a kernel's region leaves in its output array is the whole-array form of its
  body applied to the arrays it finds (KerRegions.lean, KerHead.lean); every other buffer is carried unchanged
  (KerRun.lean). Composed, the result array ends at `Forms.top` of the argument arrays.
-/
import proofs.«108547_j24747601560282_2_alg».proof.Proof.KerRun
import proofs.«108547_j24747601560282_2_alg».proof.Proof.KerRegions
import proofs.«108547_j24747601560282_2_alg».proof.Proof.KerHead
import proofs.«108547_j24747601560282_2_alg».proof.Proof.KerForms
import Idealize.ShloMosaic.Lib.StableHlo.Run

set_option maxRecDepth 16384

noncomputable section

namespace Cert.KernelIdeal.Val

open Cert.KernelIdeal Cert.KernelIdeal.Facts₀ Cert.KernelIdeal.Gen
open Idealize.ShloMosaic Idealize.ShloMosaic.TcCoe Idealize.SL.Sem Idealize.ShloMosaic.StableHlo
open Cert.Gnn Cert.Gcn

variable (m : (ℓ : Loc nD τ sig) → Buf (Elt Ideal) ℓ) (ρ : Dev nD → PrngReg) (c : Dev nD)

/-! ## After the first stretch -/

theorem w1_v1 : W1 m ρ c (Proc.devRef .tc main_v1) = Forms.srcVec (m ((c : Thread nD τ).loc main_arg1)) := by
  show StableHlo.after hostOps0 (W0 m ρ c) (Proc.devRef .tc main_v1) = _
  after_results <;> rfl
theorem w1_v3 : W1 m ρ c (Proc.devRef .tc main_v3) = Forms.dstVec (m ((c : Thread nD τ).loc main_arg1)) := by
  show StableHlo.after hostOps0 (W0 m ρ c) (Proc.devRef .tc main_v3) = _
  after_results <;> rfl
theorem w1_v11 : W1 m ρ c (Proc.devRef .tc main_v11) = Forms.dinvCol (m ((c : Thread nD τ).loc main_arg1)) := by
  show StableHlo.after hostOps0 (W0 m ρ c) (Proc.devRef .tc main_v11) = _
  after_results <;> rfl
theorem w1_v13 : W1 m ρ c (Proc.devRef .tc main_v13) = Forms.w0 (m ((c : Thread nD τ).loc main_arg3)) := by
  show StableHlo.after hostOps0 (W0 m ρ c) (Proc.devRef .tc main_v13) = _
  after_results <;> rfl

/-! ## Layer 0 -/

/-- After the first kernel: the scaled features. -/
theorem w2_v14 : W2 m ρ c (Proc.devRef .tc main_v14)
    = Forms.scaled (m ((c : Thread nD τ).loc main_arg0)) (Forms.w0 (m ((c : Thread nD τ).loc main_arg3)))
        (Forms.dinvCol (m ((c : Thread nD τ).loc main_arg1))) := by
  refine (W2_arr m ρ c 3).trans ((Reg.final0 (V1 m ρ) c).trans ?_)
  show scaledProduct (W1 m ρ c (Proc.devRef .tc main_arg0)) (W1 m ρ c (Proc.devRef .tc main_v13)) (W1 m ρ c (Proc.devRef .tc main_v11)) = _
  rw [arg_at1 m ρ c main_arg0 (by decide), w1_v13, w1_v11]
  rfl

/-- An argument array at a later boundary still holds its launch contents. -/
theorem argAt2 {b : Ref sig .tc} (u : Untouched b) (h0 : b ∉ wr0) : W2 m ρ c (Proc.devRef .tc b) = m ((c : Thread nD τ).loc b) :=
  (at2 m ρ c u).trans (arg_at1 m ρ c b h0)
theorem argAt4 {b : Ref sig .tc} (u : Untouched b) (h0 : b ∉ wr0) : W4 m ρ c (Proc.devRef .tc b) = m ((c : Thread nD τ).loc b) :=
  (at4 m ρ c u).trans (arg_at1 m ρ c b h0)
theorem argAt6 {b : Ref sig .tc} (u : Untouched b) (h0 : b ∉ wr0) : W6 m ρ c (Proc.devRef .tc b) = m ((c : Thread nD τ).loc b) :=
  (at6 m ρ c u).trans (arg_at1 m ρ c b h0)
theorem argAt8 {b : Ref sig .tc} (u : Untouched b) (h0 : b ∉ wr0) : W8 m ρ c (Proc.devRef .tc b) = m ((c : Thread nD τ).loc b) :=
  (at8 m ρ c u).trans (arg_at1 m ρ c b h0)
theorem argAt10 {b : Ref sig .tc} (u : Untouched b) (h0 : b ∉ wr0) : W10 m ρ c (Proc.devRef .tc b) = m ((c : Thread nD τ).loc b) :=
  (at10 m ρ c u).trans (arg_at1 m ρ c b h0)
theorem argAt12 {b : Ref sig .tc} (u : Untouched b) (h0 : b ∉ wr0) : W12 m ρ c (Proc.devRef .tc b) = m ((c : Thread nD τ).loc b) :=
  (at12 m ρ c u).trans (arg_at1 m ρ c b h0)
theorem argAt13 {b : Ref sig .tc} (u : Untouched b) (h0 : b ∉ wr0) : W13 m ρ c (Proc.devRef .tc b) = m ((c : Thread nD τ).loc b) :=
  (at13 m ρ c u).trans (arg_at1 m ρ c b h0)

/-! ## Layer 0: the host's gather and scatter-add, the parameter rows, and the second kernel -/

set_option maxHeartbeats 1600000 in
theorem w3_agg : W3 m ρ c (Proc.devRef .tc main_v25) = Forms.aggregate (W2 m ρ c (Proc.devRef .tc main_v14)) (Forms.wrapCol (W2 m ρ c (Proc.devRef .tc main_v1))) (Forms.rawCol (W2 m ρ c (Proc.devRef .tc main_v3))) := by
  show StableHlo.after hostOps1 (W2 m ρ c) (Proc.devRef .tc main_v25) = _
  unfold Forms.aggregate Forms.wrapCol Forms.rawCol
  after_results_simp <;> rfl
theorem w3_row0 : W3 m ρ c (Proc.devRef .tc main_v36) = Forms.row (Forms.p0 (W2 m ρ c (Proc.devRef .tc main_arg4))) := by
  show StableHlo.after hostOps1 (W2 m ρ c) (Proc.devRef .tc main_v36) = _
  after_results <;> rfl
theorem w3_row1 : W3 m ρ c (Proc.devRef .tc main_v37) = Forms.row (Forms.p0 (W2 m ρ c (Proc.devRef .tc main_arg5))) := by
  show StableHlo.after hostOps1 (W2 m ρ c) (Proc.devRef .tc main_v37) = _
  after_results <;> rfl
theorem w3_row2 : W3 m ρ c (Proc.devRef .tc main_v38) = Forms.row (Forms.p0 (W2 m ρ c (Proc.devRef .tc main_arg6))) := by
  show StableHlo.after hostOps1 (W2 m ρ c) (Proc.devRef .tc main_v38) = _
  after_results <;> rfl
theorem w3_row3 : W3 m ρ c (Proc.devRef .tc main_v39) = Forms.row (Forms.p0 (W2 m ρ c (Proc.devRef .tc main_arg7))) := by
  show StableHlo.after hostOps1 (W2 m ρ c) (Proc.devRef .tc main_v39) = _
  after_results <;> rfl
theorem w3_row4 : W3 m ρ c (Proc.devRef .tc main_v40) = Forms.row (Forms.p0 (W2 m ρ c (Proc.devRef .tc main_arg8))) := by
  show StableHlo.after hostOps1 (W2 m ρ c) (Proc.devRef .tc main_v40) = _
  after_results <;> rfl
/-- After layer 0's second kernel: the node features. -/
theorem w4_x : W4 m ρ c (Proc.devRef .tc main_v41) = Forms.x1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 8).trans ((Reg.final1 (V3 m ρ) c).trans ?_)
  show normAct (W3 m ρ c (Proc.devRef .tc main_v25)) (W3 m ρ c (Proc.devRef .tc main_v14)) (W3 m ρ c (Proc.devRef .tc main_v11))
    (W3 m ρ c (Proc.devRef .tc main_v36)) (W3 m ρ c (Proc.devRef .tc main_v37)) (W3 m ρ c (Proc.devRef .tc main_v38))
    (W3 m ρ c (Proc.devRef .tc main_v39)) (W3 m ρ c (Proc.devRef .tc main_v40)) = _
  rw [w3_agg, w3_row0, w3_row1, w3_row2, w3_row3, w3_row4, host1 m ρ c main_v14 (by decide), v11_at3, w2_v14, w1_v11,
    at2 m ρ c un_v1, at2 m ρ c un_v3, w1_v1, w1_v3, argAt2 m ρ c un_arg4 (by decide), argAt2 m ρ c un_arg5 (by decide), argAt2 m ρ c un_arg6 (by decide), argAt2 m ρ c un_arg7 (by decide), argAt2 m ρ c un_arg8 (by decide)]
  rfl

theorem w5_w : W5 m ρ c (Proc.devRef .tc main_v43) = Forms.w1 (W4 m ρ c (Proc.devRef .tc main_arg3)) := by
  show StableHlo.after hostOps2 (W4 m ρ c) (Proc.devRef .tc main_v43) = _
  after_results <;> rfl
/-- After layer 1's first kernel: the scaled features. -/
theorem w6_v44 : W6 m ρ c (Proc.devRef .tc main_v44)
    = Forms.scaled (Forms.x1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Forms.w1 (m ((c : Thread nD τ).loc main_arg3))) (Forms.dinvCol (m ((c : Thread nD τ).loc main_arg1))) := by
  refine (W6_arr m ρ c 3).trans ((Reg.final2 (V5 m ρ) c).trans ?_)
  show scaledProduct (W5 m ρ c (Proc.devRef .tc main_v41)) (W5 m ρ c (Proc.devRef .tc main_v43)) (W5 m ρ c (Proc.devRef .tc main_v11)) = _
  rw [host2 m ρ c main_v41 (by decide), w4_x, w5_w, argAt4 m ρ c un_arg3 (by decide), v11_at5, w1_v11]
  rfl

/-! ## Layer 1: the host's gather and scatter-add, the parameter rows, and the second kernel -/

set_option maxHeartbeats 1600000 in
theorem w7_agg : W7 m ρ c (Proc.devRef .tc main_v55) = Forms.aggregate (W6 m ρ c (Proc.devRef .tc main_v44)) (Forms.wrapCol (W6 m ρ c (Proc.devRef .tc main_v1))) (Forms.rawCol (W6 m ρ c (Proc.devRef .tc main_v3))) := by
  show StableHlo.after hostOps3 (W6 m ρ c) (Proc.devRef .tc main_v55) = _
  unfold Forms.aggregate Forms.wrapCol Forms.rawCol
  after_results_simp <;> rfl
theorem w7_row0 : W7 m ρ c (Proc.devRef .tc main_v66) = Forms.row (Forms.p1 (W6 m ρ c (Proc.devRef .tc main_arg4))) := by
  show StableHlo.after hostOps3 (W6 m ρ c) (Proc.devRef .tc main_v66) = _
  after_results <;> rfl
theorem w7_row1 : W7 m ρ c (Proc.devRef .tc main_v67) = Forms.row (Forms.p1 (W6 m ρ c (Proc.devRef .tc main_arg5))) := by
  show StableHlo.after hostOps3 (W6 m ρ c) (Proc.devRef .tc main_v67) = _
  after_results <;> rfl
theorem w7_row2 : W7 m ρ c (Proc.devRef .tc main_v68) = Forms.row (Forms.p1 (W6 m ρ c (Proc.devRef .tc main_arg6))) := by
  show StableHlo.after hostOps3 (W6 m ρ c) (Proc.devRef .tc main_v68) = _
  after_results <;> rfl
theorem w7_row3 : W7 m ρ c (Proc.devRef .tc main_v69) = Forms.row (Forms.p1 (W6 m ρ c (Proc.devRef .tc main_arg7))) := by
  show StableHlo.after hostOps3 (W6 m ρ c) (Proc.devRef .tc main_v69) = _
  after_results <;> rfl
theorem w7_row4 : W7 m ρ c (Proc.devRef .tc main_v70) = Forms.row (Forms.p1 (W6 m ρ c (Proc.devRef .tc main_arg8))) := by
  show StableHlo.after hostOps3 (W6 m ρ c) (Proc.devRef .tc main_v70) = _
  after_results <;> rfl
/-- After layer 1's second kernel: the node features. -/
theorem w8_x : W8 m ρ c (Proc.devRef .tc main_v71) = Forms.x2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 8).trans ((Reg.final3 (V7 m ρ) c).trans ?_)
  show normAct (W7 m ρ c (Proc.devRef .tc main_v55)) (W7 m ρ c (Proc.devRef .tc main_v44)) (W7 m ρ c (Proc.devRef .tc main_v11))
    (W7 m ρ c (Proc.devRef .tc main_v66)) (W7 m ρ c (Proc.devRef .tc main_v67)) (W7 m ρ c (Proc.devRef .tc main_v68))
    (W7 m ρ c (Proc.devRef .tc main_v69)) (W7 m ρ c (Proc.devRef .tc main_v70)) = _
  rw [w7_agg, w7_row0, w7_row1, w7_row2, w7_row3, w7_row4, host3 m ρ c main_v44 (by decide), v11_at7, w6_v44, w1_v11,
    at6 m ρ c un_v1, at6 m ρ c un_v3, w1_v1, w1_v3, argAt6 m ρ c un_arg4 (by decide), argAt6 m ρ c un_arg5 (by decide), argAt6 m ρ c un_arg6 (by decide), argAt6 m ρ c un_arg7 (by decide), argAt6 m ρ c un_arg8 (by decide)]
  rfl

theorem w9_w : W9 m ρ c (Proc.devRef .tc main_v73) = Forms.w2 (W8 m ρ c (Proc.devRef .tc main_arg3)) := by
  show StableHlo.after hostOps4 (W8 m ρ c) (Proc.devRef .tc main_v73) = _
  after_results <;> rfl
/-- After layer 2's first kernel: the scaled features. -/
theorem w10_v74 : W10 m ρ c (Proc.devRef .tc main_v74)
    = Forms.scaled (Forms.x2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Forms.w2 (m ((c : Thread nD τ).loc main_arg3))) (Forms.dinvCol (m ((c : Thread nD τ).loc main_arg1))) := by
  refine (W10_arr m ρ c 3).trans ((Reg.final4 (V9 m ρ) c).trans ?_)
  show scaledProduct (W9 m ρ c (Proc.devRef .tc main_v71)) (W9 m ρ c (Proc.devRef .tc main_v73)) (W9 m ρ c (Proc.devRef .tc main_v11)) = _
  rw [host4 m ρ c main_v71 (by decide), w8_x, w9_w, argAt8 m ρ c un_arg3 (by decide), v11_at9, w1_v11]
  rfl

/-! ## Layer 2: the host's gather and scatter-add, the parameter rows, and the second kernel -/

set_option maxHeartbeats 1600000 in
theorem w11_agg : W11 m ρ c (Proc.devRef .tc main_v85) = Forms.aggregate (W10 m ρ c (Proc.devRef .tc main_v74)) (Forms.wrapCol (W10 m ρ c (Proc.devRef .tc main_v1))) (Forms.rawCol (W10 m ρ c (Proc.devRef .tc main_v3))) := by
  show StableHlo.after hostOps5 (W10 m ρ c) (Proc.devRef .tc main_v85) = _
  unfold Forms.aggregate Forms.wrapCol Forms.rawCol
  after_results_simp <;> rfl
theorem w11_row0 : W11 m ρ c (Proc.devRef .tc main_v96) = Forms.row (Forms.p2 (W10 m ρ c (Proc.devRef .tc main_arg4))) := by
  show StableHlo.after hostOps5 (W10 m ρ c) (Proc.devRef .tc main_v96) = _
  after_results <;> rfl
theorem w11_row1 : W11 m ρ c (Proc.devRef .tc main_v97) = Forms.row (Forms.p2 (W10 m ρ c (Proc.devRef .tc main_arg5))) := by
  show StableHlo.after hostOps5 (W10 m ρ c) (Proc.devRef .tc main_v97) = _
  after_results <;> rfl
theorem w11_row2 : W11 m ρ c (Proc.devRef .tc main_v98) = Forms.row (Forms.p2 (W10 m ρ c (Proc.devRef .tc main_arg6))) := by
  show StableHlo.after hostOps5 (W10 m ρ c) (Proc.devRef .tc main_v98) = _
  after_results <;> rfl
theorem w11_row3 : W11 m ρ c (Proc.devRef .tc main_v99) = Forms.row (Forms.p2 (W10 m ρ c (Proc.devRef .tc main_arg7))) := by
  show StableHlo.after hostOps5 (W10 m ρ c) (Proc.devRef .tc main_v99) = _
  after_results <;> rfl
theorem w11_row4 : W11 m ρ c (Proc.devRef .tc main_v100) = Forms.row (Forms.p2 (W10 m ρ c (Proc.devRef .tc main_arg8))) := by
  show StableHlo.after hostOps5 (W10 m ρ c) (Proc.devRef .tc main_v100) = _
  after_results <;> rfl
/-- After layer 2's second kernel: the node features. -/
theorem w12_x : W12 m ρ c (Proc.devRef .tc main_v101) = Forms.x3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 8).trans ((Reg.final5 (V11 m ρ) c).trans ?_)
  show normAct (W11 m ρ c (Proc.devRef .tc main_v85)) (W11 m ρ c (Proc.devRef .tc main_v74)) (W11 m ρ c (Proc.devRef .tc main_v11))
    (W11 m ρ c (Proc.devRef .tc main_v96)) (W11 m ρ c (Proc.devRef .tc main_v97)) (W11 m ρ c (Proc.devRef .tc main_v98))
    (W11 m ρ c (Proc.devRef .tc main_v99)) (W11 m ρ c (Proc.devRef .tc main_v100)) = _
  rw [w11_agg, w11_row0, w11_row1, w11_row2, w11_row3, w11_row4, host5 m ρ c main_v74 (by decide), v11_at11, w10_v74, w1_v11,
    at10 m ρ c un_v1, at10 m ρ c un_v3, w1_v1, w1_v3, argAt10 m ρ c un_arg4 (by decide), argAt10 m ρ c un_arg5 (by decide), argAt10 m ρ c un_arg6 (by decide), argAt10 m ρ c un_arg7 (by decide), argAt10 m ρ c un_arg8 (by decide)]
  rfl

/-! ## The edge classifier: the host's two gathers, the slices of the first weight matrix, the bias rows, and the last kernel -/

theorem w13_xs : W13 m ρ c (Proc.devRef .tc main_v108) = Host.gather gather_S50000x128_S800000x1_S800000x128_1_0_n_n_0_1_1128 (W12 m ρ c (Proc.devRef .tc main_v101)) (Forms.wrapCol (W12 m ρ c (Proc.devRef .tc main_v1))) := by
  show StableHlo.after hostOps6 (W12 m ρ c) (Proc.devRef .tc main_v108) = _
  after_results <;> rfl
theorem w13_xd : W13 m ρ c (Proc.devRef .tc main_v115) = Host.gather gather_S50000x128_S800000x1_S800000x128_1_0_n_n_0_1_1128 (W12 m ρ c (Proc.devRef .tc main_v101)) (Forms.wrapCol (W12 m ρ c (Proc.devRef .tc main_v3))) := by
  show StableHlo.after hostOps6 (W12 m ρ c) (Proc.devRef .tc main_v115) = _
  after_results <;> rfl
theorem w13_w1s : W13 m ρ c (Proc.devRef .tc main_v116) = extractStridedSlice S128x128 ![0, 0] (W12 m ρ c (Proc.devRef .tc main_arg9)) Facts₀.slices_S264x128_S128x128_0_0 := by
  show StableHlo.after hostOps6 (W12 m ρ c) (Proc.devRef .tc main_v116) = _
  after_results <;> rfl
theorem w13_w1d : W13 m ρ c (Proc.devRef .tc main_v117) = extractStridedSlice S128x128 ![128, 0] (W12 m ρ c (Proc.devRef .tc main_arg9)) Facts₀.slices_S264x128_S128x128_128_0 := by
  show StableHlo.after hostOps6 (W12 m ρ c) (Proc.devRef .tc main_v117) = _
  after_results <;> rfl
theorem w13_w1e : W13 m ρ c (Proc.devRef .tc main_v118) = extractStridedSlice S8x128 ![256, 0] (W12 m ρ c (Proc.devRef .tc main_arg9)) Facts₀.slices_S264x128_S8x128_256_0 := by
  show StableHlo.after hostOps6 (W12 m ρ c) (Proc.devRef .tc main_v118) = _
  after_results <;> rfl
theorem w13_b1 : W13 m ρ c (Proc.devRef .tc main_v119) = shapeCast S1x128 (W12 m ρ c (Proc.devRef .tc main_arg10)) Facts₀.shapeCasts_S128_S1x128 := by
  show StableHlo.after hostOps6 (W12 m ρ c) (Proc.devRef .tc main_v119) = _
  after_results <;> rfl
theorem w13_b2 : W13 m ρ c (Proc.devRef .tc main_v120) = shapeCast S1x64 (W12 m ρ c (Proc.devRef .tc main_arg12)) Facts₀.shapeCasts_S64_S1x64 := by
  show StableHlo.after hostOps6 (W12 m ρ c) (Proc.devRef .tc main_v120) = _
  after_results <;> rfl
theorem w13_b3 : W13 m ρ c (Proc.devRef .tc main_v121) = shapeCast S1x2 (W12 m ρ c (Proc.devRef .tc main_arg14)) Facts₀.shapeCasts_S2_S1x2 := by
  show StableHlo.after hostOps6 (W12 m ρ c) (Proc.devRef .tc main_v121) = _
  after_results <;> rfl
/-- THE RESULT: what the last kernel leaves in the result array is `Forms.top` of the arguments. -/
theorem w14_result : W14 m ρ c (Proc.devRef .tc main_v122)
    = Forms.top (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W14_arr m ρ c 11).trans ((Reg6.final6 (V13 m ρ) c).trans ?_)
  show edgeHead (W13 m ρ c (Proc.devRef .tc main_v108)) (W13 m ρ c (Proc.devRef .tc main_v115)) (W13 m ρ c (Proc.devRef .tc main_arg2)) (W13 m ρ c (Proc.devRef .tc main_v116))
    (W13 m ρ c (Proc.devRef .tc main_v117)) (W13 m ρ c (Proc.devRef .tc main_v118)) (W13 m ρ c (Proc.devRef .tc main_v119)) (W13 m ρ c (Proc.devRef .tc main_arg11))
    (W13 m ρ c (Proc.devRef .tc main_v120)) (W13 m ρ c (Proc.devRef .tc main_arg13)) (W13 m ρ c (Proc.devRef .tc main_v121)) = _
  rw [w13_xs, w13_xd, w13_w1s, w13_w1d, w13_w1e, w13_b1, w13_b2, w13_b3, w12_x, at12 m ρ c un_v1, at12 m ρ c un_v3, w1_v1, w1_v3,
    argAt13 m ρ c un_arg2 (by decide), argAt13 m ρ c un_arg11 (by decide), argAt13 m ρ c un_arg13 (by decide),
    argAt12 m ρ c un_arg9 (by decide), argAt12 m ρ c un_arg10 (by decide), argAt12 m ρ c un_arg12 (by decide),
    argAt12 m ρ c un_arg14 (by decide)]
  rfl

end Cert.KernelIdeal.Val

end
-- ==== Proof.RefForms.lean ====
/-
  The reference program's computation, cut into the pieces its mathematics has: the degree factors, one graph-convolution
  layer, the edge classifier, and their composition over three layers. Each piece is the reference's own sequence of
  host operations on whole arrays, so that the reference's result IS the composition, and each piece can be compared with
  the kernel program's counterpart separately.

  One layer, from node features X and a weight matrix W: h = X·W; every edge e carries h(src e, ·) scaled by
  norm(e) = dinv(src e)·dinv(dst e) to its destination row, the rows are summed per destination, the node's own h scaled by
  dinv² is added, then the bias, the running normalisation (subtract the mean, multiply by rsqrt(var + ε)), the scale and
  the shift, and the positive part is taken.
-/
import proofs.«108547_j24747601560282_2_alg».proof.ReferenceIdeal
import proofs.«108547_j24747601560282_2_alg».proof.Proof.Gen.ReferenceIdeal
import Idealize.ShloMosaic.PureOps.Ideal

noncomputable section

namespace Cert.ReferenceIdeal.Forms

open Cert.ReferenceIdeal Cert.ReferenceIdeal.Facts₀ Idealize.ShloMosaic

abbrev Vec32 := (⟨S800000, .i32⟩ : BufTy).Contents (Elt Ideal)
abbrev Col32 := (⟨S800000x1, .i32⟩ : BufTy).Contents (Elt Ideal)

/-- The source row numbers of the edges: row 0 of the edge list. -/
def srcVec (a1 : (⟨S2x800000, .i32⟩ : BufTy).Contents (Elt Ideal)) : Vec32 :=
  shapeCast _ (extractStridedSlice S1x800000 ![0, 0] a1 slices_S2x800000_S1x800000_0_0) shapeCasts_S1x800000_S800000
/-- The destination row numbers of the edges: row 1 of the edge list. -/
def dstVec (a1 : (⟨S2x800000, .i32⟩ : BufTy).Contents (Elt Ideal)) : Vec32 :=
  shapeCast _ (extractStridedSlice S1x800000 ![1, 0] a1 slices_S2x800000_S1x800000_1_0) shapeCasts_S1x800000_S800000
/-- A vector of row numbers as one column, as given. -/
def rawCol (v : Vec32) : Col32 := broadcastInDim S800000x1 ![0] bcast_S800000_S800000x1_0 v
/-- A vector of row numbers as one column, a negative number wrapped by adding the number of rows. -/
def wrapCol (v : Vec32) : Col32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The degree factors: rsqrt of (number of edges arriving at the node, plus one). -/
def dinv (a1 : (⟨S2x800000, .i32⟩ : BufTy).Contents (Elt Ideal)) : FVec Ideal S50000 .f32 :=
  Host.rsqrt (F := Ideal) (addf (Host.scatterAdd (F := Ideal) scatter_S50000_S800000x1_S800000_n_0_0_1
      (broadcastInDim S50000 ![] bcast_S_S50000 (constant (F := Ideal) S_ .f32 0x00000000#32)) (rawCol (dstVec a1))
      (broadcastInDim S800000 ![] bcast_S_S800000 (constant (F := Ideal) S_ .f32 0x3F800000#32)))
    (broadcastInDim S50000 ![] bcast_S_S50000 (constant (F := Ideal) S_ .f32 0x3F800000#32)))

/-- The per-edge factor dinv(src e) · dinv(dst e). -/
def edgeNorm (a1 : (⟨S2x800000, .i32⟩ : BufTy).Contents (Elt Ideal)) : FVec Ideal S800000 .f32 :=
  mulf (Host.gather gather_S50000_S800000x1_S800000_n_0_n_n_0_1_1 (dinv a1) (wrapCol (srcVec a1)))
    (Host.gather gather_S50000_S800000x1_S800000_n_0_n_n_0_1_1 (dinv a1) (wrapCol (dstVec a1)))
/-- The per-node factor dinv², as one column. -/
def selfNorm (a1 : (⟨S2x800000, .i32⟩ : BufTy).Contents (Elt Ideal)) : FVec Ideal S50000x1 .f32 :=
  broadcastInDim S50000x1 ![0] bcast_S50000_S50000x1_0 (mulf (dinv a1) (dinv a1))

/-- A length-128 vector repeated down the 50000 rows. -/
abbrev rows (v : FVec Ideal S128 .f32) : FVec Ideal S50000x128 .f32 :=
  broadcastInDim S50000x128 ![0, 1] bcast_S1x128_S50000x128_0_1 (broadcastInDim S1x128 ![1] bcast_S128_S1x128_1 v)

/-- ONE LAYER of the reference. -/
def layer (X : FVec Ideal S50000x128 .f32) (W : FVec Ideal S128x128 .f32) (bc gm bt rm rv : FVec Ideal S128 .f32)
    (norm : FVec Ideal S800000 .f32) (selfn : FVec Ideal S50000x1 .f32) (srcw dstc : Col32) : FVec Ideal S50000x128 .f32 :=
  maximumf (addf (mulf (mulf (subf (addf (addf
    (Host.scatterAdd (F := Ideal) scatter_S50000x128_S800000x1_S800000x128_1_0_0_1
      (broadcastInDim S50000x128 ![] bcast_S_S50000x128 (constant (F := Ideal) S_ .f32 0x00000000#32)) dstc
      (mulf (Host.gather gather_S50000x128_S800000x1_S800000x128_1_0_n_n_0_1_1128
          (Host.dotGeneral (F := Ideal) dot_S50000x128_S128x128_S50000x128_1_0_0_1_n_n none X W) srcw)
        (broadcastInDim S800000x128 ![0, 1] bcast_S800000x1_S800000x128_0_1 (broadcastInDim S800000x1 ![0] bcast_S800000_S800000x1_0 norm))))
    (mulf (Host.dotGeneral (F := Ideal) dot_S50000x128_S128x128_S50000x128_1_0_0_1_n_n none X W)
      (broadcastInDim S50000x128 ![0, 1] bcast_S50000x1_S50000x128_0_1 selfn)))
    (rows bc)) (rows rm))
    (rows (Host.rsqrt (F := Ideal) (addf rv (broadcastInDim S128 ![] bcast_S_S128 (constant (F := Ideal) S_ .f32 0x3727C5AC#32))))))
    (rows gm)) (rows bt))
    (broadcastInDim S50000x128 ![] bcast_S_S50000x128 (constant (F := Ideal) S_ .f32 0x00000000#32))

/-- THE EDGE CLASSIFIER of the reference: the end points' features and the edge's own joined side by side, three dense
    layers, a positive part after the first two. -/
def head (X : FVec Ideal S50000x128 .f32) (srcw dstw : Col32) (ea : FVec Ideal S800000x8 .f32) (w1 : FVec Ideal S264x128 .f32)
    (b1 : FVec Ideal S128 .f32) (w2 : FVec Ideal S128x64 .f32) (b2 : FVec Ideal S64 .f32) (w3 : FVec Ideal S64x2 .f32)
    (b3 : FVec Ideal S2 .f32) : FVec Ideal S800000x2 .f32 :=
  addf (Host.dotGeneral (F := Ideal) dot_S800000x64_S64x2_S800000x2_1_0_0_1_n_n none
    (maximumf (addf (Host.dotGeneral (F := Ideal) dot_S800000x128_S128x64_S800000x64_1_0_0_1_n_n none
      (maximumf (addf (Host.dotGeneral (F := Ideal) dot_S800000x264_S264x128_S800000x128_1_0_0_1_n_n none
          (concatenate S800000x264 1 [⟨S800000x128, (Host.gather gather_S50000x128_S800000x1_S800000x128_1_0_n_n_0_1_1128 X srcw)⟩,
            ⟨S800000x128, (Host.gather gather_S50000x128_S800000x1_S800000x128_1_0_n_n_0_1_1128 X dstw)⟩, ⟨S800000x8, ea⟩]
            concatenates_S800000x128_S800000x128_S800000x8_S800000x264_d1) w1)
        (broadcastInDim S800000x128 ![0, 1] bcast_S1x128_S800000x128_0_1 (broadcastInDim S1x128 ![1] bcast_S128_S1x128_1 b1)))
        (broadcastInDim S800000x128 ![] bcast_S_S800000x128 (constant (F := Ideal) S_ .f32 0x00000000#32))) w2)
      (broadcastInDim S800000x64 ![0, 1] bcast_S1x64_S800000x64_0_1 (broadcastInDim S1x64 ![1] bcast_S64_S1x64_1 b2)))
      (broadcastInDim S800000x64 ![] bcast_S_S800000x64 (constant (F := Ideal) S_ .f32 0x00000000#32))) w3)
    (broadcastInDim S800000x2 ![0, 1] bcast_S1x2_S800000x2_0_1 (broadcastInDim S1x2 ![1] bcast_S2_S1x2_1 b3))

/-- Layer k's weight matrix, and row k of a 3 × 128 parameter array. -/
def w0 (a3 : FVec Ideal S3x128x128 .f32) : FVec Ideal S128x128 .f32 :=
  shapeCast _ (extractStridedSlice S1x128x128 ![0, 0, 0] a3 slices_S3x128x128_S1x128x128_0_0_0) shapeCasts_S1x128x128_S128x128
def w1 (a3 : FVec Ideal S3x128x128 .f32) : FVec Ideal S128x128 .f32 :=
  shapeCast _ (extractStridedSlice S1x128x128 ![1, 0, 0] a3 slices_S3x128x128_S1x128x128_1_0_0) shapeCasts_S1x128x128_S128x128
def w2 (a3 : FVec Ideal S3x128x128 .f32) : FVec Ideal S128x128 .f32 :=
  shapeCast _ (extractStridedSlice S1x128x128 ![2, 0, 0] a3 slices_S3x128x128_S1x128x128_2_0_0) shapeCasts_S1x128x128_S128x128
def p0 (a : FVec Ideal S3x128 .f32) : FVec Ideal S128 .f32 :=
  shapeCast _ (extractStridedSlice S1x128 ![0, 0] a slices_S3x128_S1x128_0_0) shapeCasts_S1x128_S128
def p1 (a : FVec Ideal S3x128 .f32) : FVec Ideal S128 .f32 :=
  shapeCast _ (extractStridedSlice S1x128 ![1, 0] a slices_S3x128_S1x128_1_0) shapeCasts_S1x128_S128
def p2 (a : FVec Ideal S3x128 .f32) : FVec Ideal S128 .f32 :=
  shapeCast _ (extractStridedSlice S1x128 ![2, 0] a slices_S3x128_S1x128_2_0) shapeCasts_S1x128_S128

/-- The node features after layers 0, 1 and 2. -/
def x1 (a0 : FVec Ideal S50000x128 .f32) (a1 : (⟨S2x800000, .i32⟩ : BufTy).Contents (Elt Ideal)) (a3 : FVec Ideal S3x128x128 .f32)
    (a4 a5 a6 a7 a8 : FVec Ideal S3x128 .f32) : FVec Ideal S50000x128 .f32 :=
  layer a0 (w0 a3) (p0 a4) (p0 a5) (p0 a6) (p0 a7) (p0 a8) (edgeNorm a1) (selfNorm a1) (wrapCol (srcVec a1)) (rawCol (dstVec a1))
def x2 (a0 : FVec Ideal S50000x128 .f32) (a1 : (⟨S2x800000, .i32⟩ : BufTy).Contents (Elt Ideal)) (a3 : FVec Ideal S3x128x128 .f32)
    (a4 a5 a6 a7 a8 : FVec Ideal S3x128 .f32) : FVec Ideal S50000x128 .f32 :=
  layer (x1 a0 a1 a3 a4 a5 a6 a7 a8) (w1 a3) (p1 a4) (p1 a5) (p1 a6) (p1 a7) (p1 a8) (edgeNorm a1) (selfNorm a1) (wrapCol (srcVec a1)) (rawCol (dstVec a1))
def x3 (a0 : FVec Ideal S50000x128 .f32) (a1 : (⟨S2x800000, .i32⟩ : BufTy).Contents (Elt Ideal)) (a3 : FVec Ideal S3x128x128 .f32)
    (a4 a5 a6 a7 a8 : FVec Ideal S3x128 .f32) : FVec Ideal S50000x128 .f32 :=
  layer (x2 a0 a1 a3 a4 a5 a6 a7 a8) (w2 a3) (p2 a4) (p2 a5) (p2 a6) (p2 a7) (p2 a8) (edgeNorm a1) (selfNorm a1) (wrapCol (srcVec a1)) (rawCol (dstVec a1))

/-- THE REFERENCE's result as one function of its arguments. -/
def top (a0 : FVec Ideal S50000x128 .f32) (a1 : (⟨S2x800000, .i32⟩ : BufTy).Contents (Elt Ideal)) (a2 : FVec Ideal S800000x8 .f32)
    (a3 : FVec Ideal S3x128x128 .f32) (a4 a5 a6 a7 a8 : FVec Ideal S3x128 .f32) (a9 : FVec Ideal S264x128 .f32) (a10 : FVec Ideal S128 .f32)
    (a11 : FVec Ideal S128x64 .f32) (a12 : FVec Ideal S64 .f32) (a13 : FVec Ideal S64x2 .f32) (a14 : FVec Ideal S2 .f32) : FVec Ideal S800000x2 .f32 :=
  head (x3 a0 a1 a3 a4 a5 a6 a7 a8) (wrapCol (srcVec a1)) (wrapCol (dstVec a1)) a2 a9 a10 a11 a12 a13 a14

end Cert.ReferenceIdeal.Forms

end
-- ==== Proof.RefSide.lean ====
/-
  The reference program's result is the composition of its pieces (RefForms.lean): each layer's last stage is `Forms.layer`
  of the previous layer's, and the result is `Forms.head` of the third layer's. Nothing is computed here: the stages of the
  generated reading of the program are the same operations in the same order, so each equation holds by unfolding names.
-/
import proofs.«108547_j24747601560282_2_alg».proof.Proof.Gen.ReferenceIdeal.Read
import proofs.«108547_j24747601560282_2_alg».proof.Proof.RefForms

set_option maxRecDepth 16384

noncomputable section

namespace Cert.ReferenceIdeal.Side

open Cert.ReferenceIdeal Cert.ReferenceIdeal.Facts₀ Cert.ReferenceIdeal.Read Idealize.ShloMosaic Idealize.SL.Sem

variable (a0 : FVec Ideal S50000x128 .f32) (a1 : (⟨S2x800000, .i32⟩ : BufTy).Contents (Elt Ideal)) (a2 : FVec Ideal S800000x8 .f32)
  (a3 : FVec Ideal S3x128x128 .f32) (a4 a5 a6 a7 a8 : FVec Ideal S3x128 .f32) (a9 : FVec Ideal S264x128 .f32) (a10 : FVec Ideal S128 .f32)
  (a11 : FVec Ideal S128x64 .f32) (a12 : FVec Ideal S64 .f32) (a13 : FVec Ideal S64x2 .f32) (a14 : FVec Ideal S2 .f32)

/-- The node features after layer 0. -/
theorem layer0_eq : val_main_v75 (F := Ideal) a0 a1 a3 a4 a5 a6 a7 a8 = Forms.x1 a0 a1 a3 a4 a5 a6 a7 a8 := rfl

/-- The node features after layer 1. -/
theorem layer1_eq : val_main_v123 (F := Ideal) a0 a1 a3 a4 a5 a6 a7 a8 = Forms.x2 a0 a1 a3 a4 a5 a6 a7 a8 := rfl

/-- The node features after layer 2. -/
theorem layer2_eq : val_main_v171 (F := Ideal) a0 a1 a3 a4 a5 a6 a7 a8 = Forms.x3 a0 a1 a3 a4 a5 a6 a7 a8 := rfl

/-- The result. -/
theorem top_eq : val_main_v200 (F := Ideal) a0 a1 a2 a3 a4 a5 a6 a7 a8 a9 a10 a11 a12 a13 a14
    = Forms.top a0 a1 a2 a3 a4 a5 a6 a7 a8 a9 a10 a11 a12 a13 a14 := rfl

end Cert.ReferenceIdeal.Side

end
-- ==== Proof.LibRowGather.lean ====
/-
  A gather of whole rows, a gather of vector entries, and a scatter of whole rows, each driven by ONE column of
  row numbers, read at an index.

  The start indices are an E × 1 array of integers, one per result row e.
  * Gathering rows of an N × C matrix: result entry (e, l) is the matrix entry (r, l), where r is the integer of
    row e read as a signed number and clamped into [0, N − 1].
  * Gathering entries of a vector of length N: result entry e is the vector's entry r, the same clamped number.
  * Scattering the rows of an E × C array into an N × C matrix: update entry (e, l) lands on entry (r, l) of the
    matrix exactly when the integer of row e, read as a signed number WITHOUT clamping, is a row number r of the
    matrix; otherwise the update is dropped. In particular a landing update has a nonnegative integer, equal to
    the row it lands on, and keeps its column.
-/
import Idealize.ShloMosaic.Lib.ValueIdx
import Idealize.ShloMosaic.PureOps.Ideal

namespace Idealize.ShloMosaic.ValueIdx

open Idealize.ShloMosaic

section
variable {α : Type}

/-- The dimension numbers of a gather of rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of vector entries: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The entry of the one column of row numbers that belongs to result row `e`. -/
abbrev colEntry {E : Nat} (e : Fin E) : (⟨2, ![E, 1]⟩ : Shape).Idx := ix2 e ⟨0, Nat.one_pos⟩

/-- The row a gather reads for result row `e`: the integer, signed, clamped into `[0, N − 1]`. -/
abbrev clampRow {N E w : Nat} (hN : 0 < N) (idx : IVec ⟨2, ![E, 1]⟩ w) (e : Fin E) : Fin N :=
  ⟨min (idx (colEntry e)).toInt.toNat (N - 1), by omega⟩

/-- A GATHER OF ROWS read at `(e, l)`: the operand at the clamped row, same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (l : Fin C) :
    Host.gather (rowGatherDims N E C wf) x idx (ix2 e l) = x (ix2 (clampRow hN idx e) l) := by
  have h0 : (rowGatherDims N E C wf).start (ix2 e l) idx (0 : Fin 2) + (rowGatherDims N E C wf).batchCoord (ix2 e l) (0 : Fin 2)
      + (rowGatherDims N E C wf).offCoord (ix2 e l) (0 : Fin 2) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e l) ⟨List.idxOf (0 : Fin 2) (rowGatherDims N E C wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  have h1 : (rowGatherDims N E C wf).start (ix2 e l) idx (1 : Fin 2) + (rowGatherDims N E C wf).batchCoord (ix2 e l) (1 : Fin 2)
      + (rowGatherDims N E C wf).offCoord (ix2 e l) (1 : Fin 2) = l.val := by
    rw [GatherDims.batchCoord_eq_zero _ _ _ List.not_mem_nil]
    have hs : (rowGatherDims N E C wf).start (ix2 e l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext a
  refine Fin.ext ?_
  match a with
  | ⟨0, _⟩ => exact h0
  | ⟨1, _⟩ => exact h1

/-- A GATHER OF VECTOR ENTRIES read at `e`: the operand at the clamped number. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  have h0 : (vecGatherDims N E wf).start (ix1 e) idx (0 : Fin 1) + (vecGatherDims N E wf).batchCoord (ix1 e) (0 : Fin 1)
      + (vecGatherDims N E wf).offCoord (ix1 e) (0 : Fin 1) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

/-- WHERE A SCATTERED ROW LANDS: if update entry `(e, l)` lands on entry `i` of the matrix, then the integer of row
    `e`, read signed, is the row number of `i` (so it is not negative and below `N`), and `i` is in column `l`. -/
theorem scatter_rows_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) (i : (⟨2, ![N, C]⟩ : Shape).Idx)
    (h : (rowScatterDims N E C wf).resultIdx? (ix2 e l) idx = some i) :
    (idx (colEntry e)).toInt = ((i 0).val : Int) ∧ (i 1).val = l.val := by
  have hs0 : (rowScatterDims N E C wf).start (ix2 e l) idx (0 : Fin 2) = (idx (colEntry e)).toInt := by
    unfold ScatterDims.start
    rw [dif_pos (show (0 : Fin 2) ∈ (rowScatterDims N E C wf).scatterDimsToOperandDims from List.mem_singleton.mpr rfl)]
    have hsi : (rowScatterDims N E C wf).siIdx (ix2 e l) ⟨List.idxOf (0 : Fin 2) (rowScatterDims N E C wf).scatterDimsToOperandDims,
        List.idxOf_lt_length_iff.2 (List.mem_singleton.mpr rfl)⟩ = colEntry e := by
      funext b; refine Fin.ext ?_
      match b with
      | ⟨0, _⟩ => rfl
      | ⟨1, _⟩ => rfl
    rw [hsi]
  have hw0 : (rowScatterDims N E C wf).window (ix2 e l) (0 : Fin 2) = 0 := by
    unfold ScatterDims.window
    rw [dif_neg (show (0 : Fin 2) ∉ (rowScatterDims N E C wf).sKept from (by decide : (0 : Fin 2) ∉ (List.finRange 2).filter (· ∉ ([0] : List (Fin 2)))))]
  have hs1 : (rowScatterDims N E C wf).start (ix2 e l) idx (1 : Fin 2) = 0 := by
    unfold ScatterDims.start
    rw [dif_neg (show (1 : Fin 2) ∉ ([0] : List (Fin 2)) by decide)]
  have hw1 : (rowScatterDims N E C wf).window (ix2 e l) (1 : Fin 2) = l.val := by
    unfold ScatterDims.window
    rw [dif_pos (show (1 : Fin 2) ∈ (rowScatterDims N E C wf).sKept from (by decide : (1 : Fin 2) ∈ (List.finRange 2).filter (· ∉ ([0] : List (Fin 2)))))]
    rfl
  unfold ScatterDims.resultIdx? at h
  split at h
  · rename_i hin
    have hi := Option.some.inj h
    have h0 := hin (0 : Fin 2)
    rw [hs0, hw0] at h0
    have e0 : (i 0).val = ((rowScatterDims N E C wf).start (ix2 e l) idx (0 : Fin 2) + ((rowScatterDims N E C wf).window (ix2 e l) (0 : Fin 2) : Int)).toNat := by
      rw [← hi]
    have e1 : (i 1).val = ((rowScatterDims N E C wf).start (ix2 e l) idx (1 : Fin 2) + ((rowScatterDims N E C wf).window (ix2 e l) (1 : Fin 2) : Int)).toNat := by
      rw [← hi]
    rw [hs0, hw0] at e0
    rw [hs1, hw1] at e1
    constructor
    · omega
    · omega
  · exact absurd h (by simp)

end

end Idealize.ShloMosaic.ValueIdx
-- ==== Proof.LibScaleSum.lean ====
/-
  Two facts about the extended reals.

  * Multiplying a finite sum by a factor d with 0 ≤ d < ⊤ can be done term by term: (Σ f) · d = Σ (f · d). On the
    extended reals multiplication does not distribute over addition in general (⊤ + ⊥ = ⊥, and a negative factor
    swaps the two infinities), but it does for a nonnegative finite factor, and a finite sum follows by induction.
  * The reciprocal square root, applied to max x r with r a positive real, is a nonnegative finite number: the
    argument is either ⊤, where the reciprocal square root is 0, or a positive real, where it is a positive real.
-/
import Idealize.ShloMosaic.PureOps.Ideal
import Mathlib.Data.EReal.Operations

open scoped BigOperators

namespace Idealize.ShloMosaic.Ideal

/-- A factor `d` with `0 ≤ d` and `d ≠ ⊤` distributes over a finite sum of extended reals. -/
theorem sum_mul_of_nonneg_of_ne_top {ι : Type*} (s : Finset ι) (f : ι → EReal) {d : EReal} (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- `rsqrt (max x r)` for a positive real `r` is nonnegative and finite. -/
theorem rsqrt_max_pos_range (x : EReal) {r : ℝ} (hr : 0 < r) :
    0 ≤ Ideal.rsqrt (max x (r : EReal)) ∧ Ideal.rsqrt (max x (r : EReal)) ≠ ⊤ := by
  have hle : (r : EReal) ≤ max x (r : EReal) := le_max_right _ _
  induction h : max x (r : EReal) using EReal.rec with
  | bot => rw [h] at hle; exact absurd hle (by simp)
  | top => rw [Ideal.rsqrt_top]; exact ⟨le_refl _, EReal.zero_ne_top⟩
  | coe y =>
    rw [h] at hle
    have hy : 0 < y := lt_of_lt_of_le hr (by exact_mod_cast hle)
    have hs : 0 < Real.sqrt y := Real.sqrt_pos.mpr hy
    rw [Ideal.rsqrt_coe, if_neg (not_lt.mpr hy.le), if_neg hy.ne']
    exact ⟨by exact_mod_cast (inv_pos.mpr hs).le, EReal.coe_ne_top _⟩

end Idealize.ShloMosaic.Ideal
-- ==== Proof.LibScaledScatter.lean ====
/-
  A degree-normalised aggregation can be scaled before and after the sum, or once per edge.

  Rows of an N × C matrix h are gathered along a list of E edges (source row of edge e: the clamped integer
  row(e)) and added up per destination row (edge e lands on row col(e) when that integer is a row number, and is
  dropped otherwise). Let dis be a vector of N factors, each nonnegative and finite. Then, entry by entry,

      ( Σ_{e lands on i}  h(src e, l) · dis(src e) ) · dis(i)
        =  Σ_{e lands on i}  h(src e, l) · ( dis(src e) · dis(dst e) ),

  where dst e is the clamped integer of the destination column after negative numbers have been wrapped: an edge
  that lands on row i has the nonnegative integer i there, which neither the wrap nor the clamp changes, so
  dis(dst e) = dis(i). The factor dis(i) moves inside the sum because it is nonnegative and finite (the one case
  in which multiplication distributes over addition on the extended reals), and the product is associative.
  Nothing is assumed of h: its entries may be infinite.
-/
import proofs.«108547_j24747601560282_2_alg».proof.Proof.LibRowGather
import proofs.«108547_j24747601560282_2_alg».proof.Proof.LibScaleSum

open scoped BigOperators

namespace Idealize.ShloMosaic.ValueIdx

open Idealize.ShloMosaic

/-- THE SCALED AGGREGATION: the scatter-add of updates `h(src e, l) · dis(src e)`, scaled afterwards by `dis(i)`, is
    the scatter-add of updates `h(src e, l) · (dis(src e) · dis(dst e))`, into an operand of zeros. -/
theorem scaled_scatter_rows {N E C : Nat} (hN : 0 < N)
    (ws : ScatterDims.WF ⟨2, ![N, C]⟩ ⟨2, ![E, 1]⟩ ⟨2, ![E, C]⟩ [1] [0] [0] 1)
    (h : (⟨2, ![N, C]⟩ : Shape).Idx → EReal) (dis : (⟨1, ![N]⟩ : Shape).Idx → EReal)
    (hdis : ∀ r : Fin N, 0 ≤ dis (ix1 r) ∧ dis (ix1 r) ≠ ⊤)
    (irow icol icolw : IVec ⟨2, ![E, 1]⟩ 32)
    (hwrap : ∀ e : Fin E, 0 ≤ (icol (colEntry e)).toInt → icolw (colEntry e) = icol (colEntry e))
    (z : (⟨2, ![N, C]⟩ : Shape).Idx → EReal) (hz : ∀ i, z i = 0)
    (updK updR : (⟨2, ![E, C]⟩ : Shape).Idx → EReal)
    (hK : ∀ (e : Fin E) (l : Fin C), updK (ix2 e l) = h (ix2 (clampRow hN irow e) l) * dis (ix1 (clampRow hN irow e)))
    (hR : ∀ (e : Fin E) (l : Fin C), updR (ix2 e l)
      = h (ix2 (clampRow hN irow e) l) * (dis (ix1 (clampRow hN irow e)) * dis (ix1 (clampRow hN icolw e))))
    (i : Fin N) (l : Fin C) :
    Ideal.hostScatterAdd (rowScatterDims N E C ws) z icol updK (ix2 i l) * dis (ix1 i)
      = Ideal.hostScatterAdd (rowScatterDims N E C ws) z icol updR (ix2 i l) := by
  unfold Ideal.hostScatterAdd
  rw [hz, zero_add, zero_add, Ideal.sum_mul_of_nonneg_of_ne_top _ _ (hdis i).1 (hdis i).2]
  refine Finset.sum_congr rfl fun j hj => ?_
  obtain ⟨e, l', rfl⟩ : ∃ (e : Fin E) (l' : Fin C), j = ix2 e l' := ⟨j 0, j 1, eq_ix2 j⟩
  obtain ⟨hint, -⟩ := scatter_rows_lands ws icol e l' (ix2 i l) (Finset.mem_filter.mp hj).2
  have hi : ((ix2 i l : (⟨2, ![N, C]⟩ : Shape).Idx) 0).val = i.val := rfl
  rw [hi] at hint
  have hdst : clampRow hN icolw e = i := by
    refine Fin.ext ?_
    show min (icolw (colEntry e)).toInt.toNat (N - 1) = i.val
    rw [hwrap e (by omega), hint]
    have := i.isLt
    simp only [Int.toNat_natCast]
    omega
  rw [hK, hR, hdst, mul_assoc]

end Idealize.ShloMosaic.ValueIdx
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.LibDegreeScaledLayer.lean ====
/-
  A graph convolution's degree normalisation, applied before and after the aggregation or once per edge: the algebra
  over the extended reals, for arrays of any sizes.

  * A factor d with 0 ≤ d < ⊤ distributes over a sum from the left (`mul_add_of_nonneg_of_ne_top`).
  * rsqrt of (a scatter-add of ones into zeros, plus one) is nonnegative and finite: the count is a natural number, so the
    argument is a real number ≥ 1 (`sum_one_coe`, `ofBits_one_f32`, `rsqrt_count_range`, `host_rsqrt_count_range`).
  * A vector made one column reads the vector (`col_apply`); its square made a column and repeated along the rows reads
    the entry squared (`sq_col_apply`); the product of its entries gathered along two columns of row numbers, repeated
    along the rows, reads the product of the two gathered entries (`gathered_product_apply`).
  * THE LAYER LAW: with h any N × C array (its entries may be infinite), dis a vector of nonnegative finite factors and D
    the same as one column, `dis(i)·(Σ_{e→i} h(src e,·)·dis(src e) + h(i,·)·dis(i)) = Σ_{e→i} h(src e,·)·(dis(src e)·dis(dst e))
    + h(i,·)·dis(i)²` (`gcn_core`), and the same inside the bias / running-normalisation / scale / shift / positive-part
    form `normAct` (`normAct_scaled`).
-/
import proofs.«108547_j24747601560282_2_alg».proof.Proof.LibGraphConvForms
import proofs.«108547_j24747601560282_2_alg».proof.Proof.LibScaledScatter
import proofs.«108547_j24747601560282_2_alg».proof.Proof.LibBiasRows
import Idealize.ShloMosaic.Lib.ValueLayout

set_option maxRecDepth 16384

noncomputable section

open scoped BigOperators

namespace Cert.Law

open Idealize.ShloMosaic Idealize.ShloMosaic.ValueIdx Cert.Gnn Cert.Gcn Cert.MatrixProduct

/-! ## Two facts about the extended reals -/

/-- A factor `d` with `0 ≤ d` and `d ≠ ⊤` distributes over a sum from the left. -/
theorem mul_add_of_nonneg_of_ne_top {d a b : EReal} (h0 : 0 ≤ d) (ht : d ≠ ⊤) : d * (a + b) = d * a + d * b := by
  rw [mul_comm d (a + b), EReal.right_distrib_of_nonneg_of_ne_top h0 ht, mul_comm a d, mul_comm b d]

/-- A sum of ones is the number of terms. -/
theorem sum_one_coe {ι : Type*} (s : Finset ι) : ∑ _j ∈ s, ((1 : ℝ) : EReal) = ((s.card : ℝ) : EReal) := by
  classical
  induction s using Finset.induction_on with
  | empty => simp
  | insert a s ha ih =>
    rw [Finset.sum_insert ha, ih, Finset.card_insert_of_notMem ha, ← EReal.coe_add]
    exact congrArg _ (by push_cast; ring)

/-- The float word of one is the real number one. -/
theorem ofBits_one_f32 : Ideal.ofBits .f32 0x3F800000#32 = ((1 : ℝ) : EReal) := by
  simp [Ideal.ofBits, Ideal.ieee]
  rw [← EReal.coe_mul]
  norm_num

/-- The reciprocal square root of (a count of ones scattered into zeros, plus one) is nonnegative and finite. -/
theorem rsqrt_count_range {s si su : Shape} (d : ScatterDims s si su) {w : Nat} (x : s.Idx → EReal) (idx : IVec si w)
    (upd : su.Idx → EReal) (hx : ∀ i, x i = 0) (hu : ∀ j, upd j = ((1 : ℝ) : EReal)) (i : s.Idx) :
    0 ≤ Ideal.rsqrt (Ideal.hostScatterAdd d x idx upd i + ((1 : ℝ) : EReal))
      ∧ Ideal.rsqrt (Ideal.hostScatterAdd d x idx upd i + ((1 : ℝ) : EReal)) ≠ ⊤ := by
  unfold Ideal.hostScatterAdd
  rw [hx, zero_add, Finset.sum_congr rfl (fun j _ => hu j), sum_one_coe, ← EReal.coe_add, Ideal.rsqrt_coe]
  have hpos : (0 : ℝ) < ((Finset.univ.filter fun j => d.resultIdx? j idx = some i).card : ℝ) + 1 := by positivity
  rw [if_neg (not_lt.mpr hpos.le), if_neg hpos.ne']
  exact ⟨by exact_mod_cast (inv_pos.mpr (Real.sqrt_pos.mpr hpos)).le, EReal.coe_ne_top _⟩

/-- The same, in the host's spelling: rsqrt of (a scatter-add of ones into zeros, plus ones). -/
theorem host_rsqrt_count_range {s si su : Shape} (d : ScatterDims s si su) {w : Nat} (x : FVec Ideal s .f32) (idx : IVec si w)
    (upd : FVec Ideal su .f32) (y : FVec Ideal s .f32) (hx : ∀ i, x i = 0) (hu : ∀ j, upd j = ((1 : ℝ) : EReal))
    (hy : ∀ i, y i = ((1 : ℝ) : EReal)) (i : s.Idx) :
    0 ≤ (Host.rsqrt (F := Ideal) (addf (Host.scatterAdd (F := Ideal) d x idx upd) y)) i
      ∧ (Host.rsqrt (F := Ideal) (addf (Host.scatterAdd (F := Ideal) d x idx upd) y)) i ≠ ⊤ := by
  show 0 ≤ Ideal.rsqrt (Ideal.hostScatterAdd d x idx upd i + y i) ∧ Ideal.rsqrt (Ideal.hostScatterAdd d x idx upd i + y i) ≠ ⊤
  rw [hy]
  exact rsqrt_count_range d x idx upd hx hu i

/-- A vector made one column by a broadcast along a new trailing axis reads the vector. -/
theorem col_apply {α : Type} {a : ℕ} (v : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-! ## The algebra of one layer

    With h the product X·W, d the degree factors, D the same as one column, and hs = h·D row by row: the kernel's
    d·(Σ hs(src e, ·) + hs) is the reference's Σ h(src e, ·)·(d(src e)·d(dst e)) + h·d². -/

/-- The aggregation law with the node's own term: `d·(agg + h·d) = agg' + h·d²`. -/
theorem gcn_core {N E C : ℕ} (hN : 0 < N)
    (ws : ScatterDims.WF ⟨2, ![N, C]⟩ ⟨2, ![E, 1]⟩ ⟨2, ![E, C]⟩ [1] [0] [0] 1)
    (h : (⟨2, ![N, C]⟩ : Shape).Idx → EReal) (dis : (⟨1, ![N]⟩ : Shape).Idx → EReal)
    (hdis : ∀ r : Fin N, 0 ≤ dis (ix1 r) ∧ dis (ix1 r) ≠ ⊤)
    (irow icol icolw : IVec ⟨2, ![E, 1]⟩ 32)
    (hwrap : ∀ e : Fin E, 0 ≤ (icol (colEntry e)).toInt → icolw (colEntry e) = icol (colEntry e))
    (z : (⟨2, ![N, C]⟩ : Shape).Idx → EReal) (hz : ∀ i, z i = 0)
    (updK updR : (⟨2, ![E, C]⟩ : Shape).Idx → EReal)
    (hK : ∀ (e : Fin E) (l : Fin C), updK (ix2 e l) = h (ix2 (clampRow hN irow e) l) * dis (ix1 (clampRow hN irow e)))
    (hR : ∀ (e : Fin E) (l : Fin C), updR (ix2 e l)
      = h (ix2 (clampRow hN irow e) l) * (dis (ix1 (clampRow hN irow e)) * dis (ix1 (clampRow hN icolw e))))
    (i : Fin N) (l : Fin C) :
    dis (ix1 i) * (Ideal.hostScatterAdd (rowScatterDims N E C ws) z icol updK (ix2 i l) + h (ix2 i l) * dis (ix1 i))
      = Ideal.hostScatterAdd (rowScatterDims N E C ws) z icol updR (ix2 i l) + h (ix2 i l) * (dis (ix1 i) * dis (ix1 i)) := by
  rw [mul_add_of_nonneg_of_ne_top (hdis i).1 (hdis i).2, mul_comm (dis (ix1 i)) (Ideal.hostScatterAdd _ _ _ _ _),
    scaled_scatter_rows hN ws h dis hdis irow icol icolw hwrap z hz updK updR hK hR i l,
    mul_comm (dis (ix1 i)) (h (ix2 i l) * dis (ix1 i)), mul_assoc]

/-- The kernel's normalised activation of its aggregate, entry by entry, in the reference's arrangement. -/
theorem normAct_scaled {N E C : ℕ} (hN : 0 < N)
    (ws : ScatterDims.WF ⟨2, ![N, C]⟩ ⟨2, ![E, 1]⟩ ⟨2, ![E, C]⟩ [1] [0] [0] 1)
    (h : (⟨2, ![N, C]⟩ : Shape).Idx → EReal) (dis : (⟨1, ![N]⟩ : Shape).Idx → EReal)
    (hdis : ∀ r : Fin N, 0 ≤ dis (ix1 r) ∧ dis (ix1 r) ≠ ⊤)
    (D : (⟨2, ![N, 1]⟩ : Shape).Idx → EReal) (hD : ∀ r : Fin N, D (ix2 r (0 : Fin 1)) = dis (ix1 r))
    (irow icol icolw : IVec ⟨2, ![E, 1]⟩ 32)
    (hwrap : ∀ e : Fin E, 0 ≤ (icol (colEntry e)).toInt → icolw (colEntry e) = icol (colEntry e))
    (z : (⟨2, ![N, C]⟩ : Shape).Idx → EReal) (hz : ∀ i, z i = 0)
    (updK updR : (⟨2, ![E, C]⟩ : Shape).Idx → EReal)
    (hK : ∀ (e : Fin E) (l : Fin C), updK (ix2 e l) = h (ix2 (clampRow hN irow e) l) * dis (ix1 (clampRow hN irow e)))
    (hR : ∀ (e : Fin E) (l : Fin C), updR (ix2 e l)
      = h (ix2 (clampRow hN irow e) l) * (dis (ix1 (clampRow hN irow e)) * dis (ix1 (clampRow hN icolw e))))
    (hs : (⟨2, ![N, C]⟩ : Shape).Idx → EReal) (hhs : ∀ (r : Fin N) (l : Fin C), hs (ix2 r l) = h (ix2 r l) * D (ix2 r (0 : Fin 1)))
    (bc gm bt rm rv : (⟨2, ![1, C]⟩ : Shape).Idx → EReal) (r : Fin N) (l : Fin C) :
    normAct (Ideal.hostScatterAdd (rowScatterDims N E C ws) z icol updK) hs D bc gm bt rm rv (ix2 r l)
      = max (((((Ideal.hostScatterAdd (rowScatterDims N E C ws) z icol updR (ix2 r l) + h (ix2 r l) * (dis (ix1 r) * dis (ix1 r)))
          + bc (ix2 (0 : Fin 1) l)) - rm (ix2 (0 : Fin 1) l)) * Ideal.rsqrt (rv (ix2 (0 : Fin 1) l) + epsw)) * gm (ix2 (0 : Fin 1) l)
          + bt (ix2 (0 : Fin 1) l)) zw := by
  rw [normAct_apply, hhs, hD, gcn_core hN ws h dis hdis irow icol icolw hwrap z hz updK updR hK hR r l]

/-- A vector's square made one column and repeated along the rows reads, at (r, l), the entry squared. -/
theorem sq_col_apply {a b : ℕ} (d : (⟨1, ![a]⟩ : Shape).Idx → EReal)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (l : Fin b) :
    broadcastInDim ⟨2, ![a, b]⟩ (![0, 1] : Fin 2 → Fin 2) h2
        (broadcastInDim ⟨2, ![a, 1]⟩ (![0] : Fin 1 → Fin 2) h1 (mulf (F := Ideal) (φ := .f32) d d)) (ix2 r l)
      = d (ix1 r) * d (ix1 r) :=
  row_factors_apply (mulf (F := Ideal) (φ := .f32) d d) h1 h2 r l

/-- The product of a vector's entries gathered along two columns of row numbers, made one column and repeated along the
    rows, reads, at (e, l), the product of the two gathered entries. -/
theorem gathered_product_apply {N E C : ℕ} (hN : 0 < N)
    (wf : GatherDims.WF ⟨1, ![N]⟩ ⟨2, ![E, 1]⟩ ⟨1, ![E]⟩ [] [0] [] [0] [] 1 ![1])
    (d : (⟨1, ![N]⟩ : Shape).Idx → EReal) (i0 i1 : IVec ⟨2, ![E, 1]⟩ 32)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2)) (e : Fin E) (l : Fin C) :
    broadcastInDim ⟨2, ![E, C]⟩ (![0, 1] : Fin 2 → Fin 2) h2
        (broadcastInDim ⟨2, ![E, 1]⟩ (![0] : Fin 1 → Fin 2) h1
          (mulf (F := Ideal) (φ := .f32) (Host.gather (vecGatherDims N E wf) d i0) (Host.gather (vecGatherDims N E wf) d i1))) (ix2 e l)
      = d (ix1 (clampRow hN i0 e)) * d (ix1 (clampRow hN i1 e)) := by
  refine (row_factors_apply _ h1 h2 e l).trans ?_
  show Host.gather (vecGatherDims N E wf) d i0 (ix1 e) * Host.gather (vecGatherDims N E wf) d i1 (ix1 e) = _
  rw [gather_vec_apply hN wf, gather_vec_apply hN wf]

end Cert.Law

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.LayerLaw.lean ====
/-
  One graph-convolution layer of the kernel program is one layer of the reference, entry by entry, over the extended reals.

  ONE LAYER. Write h = X·W, d(n) = dinv(n) = rsqrt(1 + number of edges arriving at n): a positive real, whatever the edge list
  is. The kernel program forms hs = h·d row by row, sums hs(src e, ·) over the edges e arriving at n, and multiplies
  (sum + hs(n, ·)) by d(n); the reference sums h(src e, ·)·(d(src e)·d(dst e)) over the same edges and adds h(n, ·)·d(n)².
  Since d(n) is nonnegative and finite it distributes over the sums even when entries of h are infinite, an edge arriving
  at n has d(dst e) = d(n), and products are associative and commutative: the two agree. What follows the aggregation (bias,
  running normalisation, scale, shift, positive part) is the same function of it on both sides.

  The algebra itself, for arrays of any sizes, is LibDegreeScaledLayer.lean; here it is instantiated at the two programs'
  own operations, read entry by entry. (The edge classifier's law is HeadLaw.lean; the composition is TopLaw.lean.)
-/
import proofs.«108547_j24747601560282_2_alg».proof.Proof.KerForms
import proofs.«108547_j24747601560282_2_alg».proof.Proof.RefForms
import proofs.«108547_j24747601560282_2_alg».proof.Proof.LibDegreeScaledLayer
import proofs.«108547_j24747601560282_2_alg».proof.Proof.LibScaledScatter
import proofs.«108547_j24747601560282_2_alg».proof.Proof.LibBiasRows
import proofs.«108547_j24747601560282_2_alg».proof.Proof.LibConcatRead
import Idealize.ShloMosaic.Lib.ValueLayout
import Idealize.ShloMosaic.Lib.Affine

set_option maxRecDepth 16384

noncomputable section

open scoped BigOperators

namespace Cert.Law

open Idealize.ShloMosaic Idealize.ShloMosaic.ValueIdx Cert.Gnn Cert.Gcn Cert.MatrixProduct

/-! ## The index columns and the degree factors are the same terms in both programs -/

variable (a1 : (⟨Cert.KernelIdeal.S2x800000, .i32⟩ : BufTy).Contents (Elt Ideal))

theorem srcw_eq : Cert.KernelIdeal.Forms.wrapCol (Cert.KernelIdeal.Forms.srcVec a1) = Cert.ReferenceIdeal.Forms.wrapCol (Cert.ReferenceIdeal.Forms.srcVec a1) := rfl
theorem dstw_eq : Cert.KernelIdeal.Forms.wrapCol (Cert.KernelIdeal.Forms.dstVec a1) = Cert.ReferenceIdeal.Forms.wrapCol (Cert.ReferenceIdeal.Forms.dstVec a1) := rfl
theorem dstc_eq : Cert.KernelIdeal.Forms.rawCol (Cert.KernelIdeal.Forms.dstVec a1) = Cert.ReferenceIdeal.Forms.rawCol (Cert.ReferenceIdeal.Forms.dstVec a1) := rfl
theorem dinv_eq : Cert.KernelIdeal.Forms.dinv a1 = Cert.ReferenceIdeal.Forms.dinv a1 := rfl

theorem hN : 0 < 50000 := by norm_num

/-- The degree factors are nonnegative and finite. -/
theorem dinv_range (r : Fin 50000) : 0 ≤ Cert.ReferenceIdeal.Forms.dinv a1 (ix1 r) ∧ Cert.ReferenceIdeal.Forms.dinv a1 (ix1 r) ≠ ⊤ :=
  host_rsqrt_count_range Cert.ReferenceIdeal.scatter_S50000_S800000x1_S800000_n_0_0_1 _ _ _ _
    (fun _ => Ideal.ofBits_zero_f32) (fun _ => ofBits_one_f32) (fun _ => ofBits_one_f32) (ix1 r)

/-! ## A wrapped row number is the given one when that is not negative -/

theorem wrap_of_nonneg (v : Cert.ReferenceIdeal.Forms.Vec32) (e : Fin 800000) (h : 0 ≤ (Cert.ReferenceIdeal.Forms.rawCol v (colEntry e)).toInt) :
    Cert.ReferenceIdeal.Forms.wrapCol v (colEntry e) = Cert.ReferenceIdeal.Forms.rawCol v (colEntry e) := by
  have hr : Cert.ReferenceIdeal.Forms.rawCol v (colEntry e) = v (ix1 e) := col_apply v _ e _
  have hw : Cert.ReferenceIdeal.Forms.wrapCol v (colEntry e)
      = (select (cmpi .slt v (broadcastInDim Cert.ReferenceIdeal.S800000 ![] Cert.ReferenceIdeal.Facts₀.bcast_S_S800000 (constantI Cert.ReferenceIdeal.S_ 32 0#32)))
          (addi v (broadcastInDim Cert.ReferenceIdeal.S800000 ![] Cert.ReferenceIdeal.Facts₀.bcast_S_S800000 (constantI Cert.ReferenceIdeal.S_ 32 50000#32))) v) (ix1 e) :=
    col_apply _ _ e _
  rw [hr] at h
  rw [hw, hr]
  show Scalar.select (IntOp.cmpi .slt (v (ix1 e)) (0#32)) _ (v (ix1 e)) = v (ix1 e)
  unfold Scalar.select
  rw [if_neg]
  intro hc
  have h2 := IntOp.cmpi_slt.mp hc
  have h0 : (0#32 : BitVec 32).toInt = 0 := by decide
  omega

/-! ## The layers' pieces read at an index -/

/-- The reference's parameter rows. -/
theorem r_rows (v : FVec Ideal Cert.ReferenceIdeal.S128 .f32) (r : Fin 50000) (l : Fin 128) : Cert.ReferenceIdeal.Forms.rows v (ix2 r l) = v (ix1 l) :=
  bias_rows_apply v _ _ r l

/-- The kernel's parameter rows. -/
theorem k_row (v : FVec Ideal Cert.KernelIdeal.S128 .f32) (l : Fin 128) : Cert.KernelIdeal.Forms.row v (ix2 (0 : Fin 1) l) = v (ix1 l) :=
  shapeCast_a_1a_apply v _ 0 l

/-- The kernel's column of degree factors. -/
theorem k_dcol (r : Fin 50000) : Cert.KernelIdeal.Forms.dinvCol a1 (ix2 r (0 : Fin 1)) = Cert.ReferenceIdeal.Forms.dinv a1 (ix1 r) :=
  col_apply (Cert.ReferenceIdeal.Forms.dinv a1) _ r 0

/-- The reference's product is the matrix product. -/
theorem r_dot (X : FVec Ideal Cert.ReferenceIdeal.S50000x128 .f32) (W : FVec Ideal Cert.ReferenceIdeal.S128x128 .f32) :
    Host.dotGeneral (F := Ideal) Cert.ReferenceIdeal.dot_S50000x128_S128x128_S50000x128_1_0_0_1_n_n none X W = mm X W :=
  dotGeneral_eq_mm Cert.ReferenceIdeal.dot_S50000x128_S128x128_S50000x128_1_0_0_1_n_n.wf none X W

/-- The kernel's gathered rows. -/
theorem k_gath {α : Type} (x : (⟨2, ![50000, 128]⟩ : Shape).Idx → α) (idx : Cert.ReferenceIdeal.Forms.Col32) (e : Fin 800000) (l : Fin 128) :
    Host.gather Cert.KernelIdeal.gather_S50000x128_S800000x1_S800000x128_1_0_n_n_0_1_1128 x idx (ix2 e l) = x (ix2 (clampRow hN idx e) l) :=
  gather_rows_apply hN Cert.KernelIdeal.gather_S50000x128_S800000x1_S800000x128_1_0_n_n_0_1_1128.wf x idx e l

/-- The reference's gathered rows. -/
theorem r_gath {α : Type} (x : (⟨2, ![50000, 128]⟩ : Shape).Idx → α) (idx : Cert.ReferenceIdeal.Forms.Col32) (e : Fin 800000) (l : Fin 128) :
    Host.gather Cert.ReferenceIdeal.gather_S50000x128_S800000x1_S800000x128_1_0_n_n_0_1_1128 x idx (ix2 e l) = x (ix2 (clampRow hN idx e) l) :=
  gather_rows_apply hN Cert.ReferenceIdeal.gather_S50000x128_S800000x1_S800000x128_1_0_n_n_0_1_1128.wf x idx e l

/-- The reference's per-edge factor, repeated along the row: the product of the two end points' degree factors. -/
theorem r_norm (e : Fin 800000) (l : Fin 128) :
    broadcastInDim Cert.ReferenceIdeal.S800000x128 ![0, 1] Cert.ReferenceIdeal.Facts₀.bcast_S800000x1_S800000x128_0_1
        (broadcastInDim Cert.ReferenceIdeal.S800000x1 ![0] Cert.ReferenceIdeal.Facts₀.bcast_S800000_S800000x1_0 (Cert.ReferenceIdeal.Forms.edgeNorm a1)) (ix2 e l)
      = Cert.ReferenceIdeal.Forms.dinv a1 (ix1 (clampRow hN (Cert.ReferenceIdeal.Forms.wrapCol (Cert.ReferenceIdeal.Forms.srcVec a1)) e)) * Cert.ReferenceIdeal.Forms.dinv a1 (ix1 (clampRow hN (Cert.ReferenceIdeal.Forms.wrapCol (Cert.ReferenceIdeal.Forms.dstVec a1)) e)) :=
  gathered_product_apply hN Cert.ReferenceIdeal.gather_S50000_S800000x1_S800000_n_0_n_n_0_1_1.wf (Cert.ReferenceIdeal.Forms.dinv a1) (Cert.ReferenceIdeal.Forms.wrapCol (Cert.ReferenceIdeal.Forms.srcVec a1)) (Cert.ReferenceIdeal.Forms.wrapCol (Cert.ReferenceIdeal.Forms.dstVec a1)) _ _ e l

/-- The reference's per-node factor, repeated along the row: the degree factor squared. -/
theorem r_selfn (r : Fin 50000) (l : Fin 128) :
    broadcastInDim Cert.ReferenceIdeal.S50000x128 ![0, 1] Cert.ReferenceIdeal.Facts₀.bcast_S50000x1_S50000x128_0_1 (Cert.ReferenceIdeal.Forms.selfNorm a1) (ix2 r l)
      = Cert.ReferenceIdeal.Forms.dinv a1 (ix1 r) * Cert.ReferenceIdeal.Forms.dinv a1 (ix1 r) :=
  sq_col_apply (Cert.ReferenceIdeal.Forms.dinv a1) _ _ r l

-- From here on the degree factors are opaque: nothing below looks inside them.
attribute [local irreducible] Cert.ReferenceIdeal.Forms.dinv

/-! ## One layer -/

/-- The kernel's scaled features at an entry. -/
theorem k_scaled_apply (X : FVec Ideal Cert.KernelIdeal.S50000x128 .f32) (W : FVec Ideal Cert.KernelIdeal.S128x128 .f32) (D : FVec Ideal Cert.KernelIdeal.S50000x1 .f32)
    (r : Fin 50000) (l : Fin 128) : Cert.KernelIdeal.Forms.scaled X W D (ix2 r l) = mm X W (ix2 r l) * D (ix2 r (0 : Fin 1)) := rfl

/-- The kernel program's layer, one step unfolded: `normAct` of the exact scatter-add of the gathered scaled features. -/
theorem k_layer_def (X : FVec Ideal Cert.KernelIdeal.S50000x128 .f32) (W : FVec Ideal Cert.KernelIdeal.S128x128 .f32) (D : FVec Ideal Cert.KernelIdeal.S50000x1 .f32)
    (bc gm bt rm rv : FVec Ideal Cert.KernelIdeal.S128 .f32) (srcw dstc : Cert.KernelIdeal.Forms.Col32) :
    Cert.KernelIdeal.Forms.layer X W D bc gm bt rm rv srcw dstc
      = normAct (Ideal.hostScatterAdd (rowScatterDims 50000 800000 128 Cert.KernelIdeal.scatter_S50000x128_S800000x1_S800000x128_1_0_0_1.wf) (broadcastInDim Cert.KernelIdeal.S50000x128 ![] Cert.KernelIdeal.Facts₀.bcast_S_S50000x128 (constant (F := Ideal) Cert.KernelIdeal.S_ .f32 0x00000000#32)) dstc
          (extf .f32 (Host.gather Cert.KernelIdeal.gather_S50000x128_S800000x1_S800000x128_1_0_n_n_0_1_1128 (Cert.KernelIdeal.Forms.scaled X W D) srcw) Cert.KernelIdeal.Facts₀.bitsLt_bf16_f32))
        (Cert.KernelIdeal.Forms.scaled X W D) D (Cert.KernelIdeal.Forms.row bc) (Cert.KernelIdeal.Forms.row gm) (Cert.KernelIdeal.Forms.row bt) (Cert.KernelIdeal.Forms.row rm) (Cert.KernelIdeal.Forms.row rv) := rfl

/-- The reference's scatter-add into zeros, in the same spelling. -/
theorem r_scat_def (dstc : Cert.ReferenceIdeal.Forms.Col32) (u : FVec Ideal Cert.ReferenceIdeal.S800000x128 .f32) :
    Host.scatterAdd (F := Ideal) Cert.ReferenceIdeal.scatter_S50000x128_S800000x1_S800000x128_1_0_0_1 (broadcastInDim Cert.ReferenceIdeal.S50000x128 ![] Cert.ReferenceIdeal.Facts₀.bcast_S_S50000x128 (constant (F := Ideal) Cert.ReferenceIdeal.S_ .f32 0x00000000#32)) dstc u
      = Ideal.hostScatterAdd (rowScatterDims 50000 800000 128 Cert.KernelIdeal.scatter_S50000x128_S800000x1_S800000x128_1_0_0_1.wf) (broadcastInDim Cert.KernelIdeal.S50000x128 ![] Cert.KernelIdeal.Facts₀.bcast_S_S50000x128 (constant (F := Ideal) Cert.KernelIdeal.S_ .f32 0x00000000#32)) dstc u := rfl

/-- The reference's zero array and its rsqrt row at an entry. -/
theorem r_zero (r : Fin 50000) (l : Fin 128) : (broadcastInDim Cert.ReferenceIdeal.S50000x128 ![] Cert.ReferenceIdeal.Facts₀.bcast_S_S50000x128 (constant (F := Ideal) Cert.ReferenceIdeal.S_ .f32 0x00000000#32)) (ix2 r l) = zw := rfl
theorem r_rsq (rv : FVec Ideal Cert.ReferenceIdeal.S128 .f32) (l : Fin 128) :
    (Host.rsqrt (F := Ideal) (addf rv (broadcastInDim Cert.ReferenceIdeal.S128 ![] Cert.ReferenceIdeal.Facts₀.bcast_S_S128 (constant (F := Ideal) Cert.ReferenceIdeal.S_ .f32 0x3727C5AC#32)))) (ix1 l) = Ideal.rsqrt (rv (ix1 l) + epsw) := rfl

/-- The reference's layer at an entry, one step unfolded. -/
theorem r_layer_apply (X : FVec Ideal Cert.ReferenceIdeal.S50000x128 .f32) (W : FVec Ideal Cert.ReferenceIdeal.S128x128 .f32) (bc gm bt rm rv : FVec Ideal Cert.ReferenceIdeal.S128 .f32)
    (norm : FVec Ideal Cert.ReferenceIdeal.S800000 .f32) (selfn : FVec Ideal Cert.ReferenceIdeal.S50000x1 .f32) (srcw dstc : Cert.ReferenceIdeal.Forms.Col32) (r : Fin 50000) (l : Fin 128) :
    Cert.ReferenceIdeal.Forms.layer X W bc gm bt rm rv norm selfn srcw dstc (ix2 r l)
      = max (((((Host.scatterAdd (F := Ideal) Cert.ReferenceIdeal.scatter_S50000x128_S800000x1_S800000x128_1_0_0_1 (broadcastInDim Cert.ReferenceIdeal.S50000x128 ![] Cert.ReferenceIdeal.Facts₀.bcast_S_S50000x128 (constant (F := Ideal) Cert.ReferenceIdeal.S_ .f32 0x00000000#32)) dstc
            (mulf (Host.gather Cert.ReferenceIdeal.gather_S50000x128_S800000x1_S800000x128_1_0_n_n_0_1_1128 (Host.dotGeneral (F := Ideal) Cert.ReferenceIdeal.dot_S50000x128_S128x128_S50000x128_1_0_0_1_n_n none X W) srcw) (broadcastInDim Cert.ReferenceIdeal.S800000x128 ![0, 1] Cert.ReferenceIdeal.Facts₀.bcast_S800000x1_S800000x128_0_1
        (broadcastInDim Cert.ReferenceIdeal.S800000x1 ![0] Cert.ReferenceIdeal.Facts₀.bcast_S800000_S800000x1_0 norm))) (ix2 r l)
          + (Host.dotGeneral (F := Ideal) Cert.ReferenceIdeal.dot_S50000x128_S128x128_S50000x128_1_0_0_1_n_n none X W) (ix2 r l)
            * broadcastInDim Cert.ReferenceIdeal.S50000x128 ![0, 1] Cert.ReferenceIdeal.Facts₀.bcast_S50000x1_S50000x128_0_1 selfn (ix2 r l))
          + Cert.ReferenceIdeal.Forms.rows bc (ix2 r l)) - Cert.ReferenceIdeal.Forms.rows rm (ix2 r l))
          * Cert.ReferenceIdeal.Forms.rows (Host.rsqrt (F := Ideal) (addf rv (broadcastInDim Cert.ReferenceIdeal.S128 ![] Cert.ReferenceIdeal.Facts₀.bcast_S_S128 (constant (F := Ideal) Cert.ReferenceIdeal.S_ .f32 0x3727C5AC#32)))) (ix2 r l))
          * Cert.ReferenceIdeal.Forms.rows gm (ix2 r l) + Cert.ReferenceIdeal.Forms.rows bt (ix2 r l)) ((broadcastInDim Cert.ReferenceIdeal.S50000x128 ![] Cert.ReferenceIdeal.Facts₀.bcast_S_S50000x128 (constant (F := Ideal) Cert.ReferenceIdeal.S_ .f32 0x00000000#32)) (ix2 r l)) := by
  unfold Cert.ReferenceIdeal.Forms.layer
  rw [maximumf_apply, addf_apply, mulf_apply, mulf_apply, subf_apply, addf_apply, addf_apply, mulf_apply]

/-- ONE LAYER of the kernel program is one layer of the reference. -/
theorem layer_eq (X : FVec Ideal Cert.KernelIdeal.S50000x128 .f32) (W : FVec Ideal Cert.KernelIdeal.S128x128 .f32) (bc gm bt rm rv : FVec Ideal Cert.KernelIdeal.S128 .f32) :
    Cert.KernelIdeal.Forms.layer X W (Cert.KernelIdeal.Forms.dinvCol a1) bc gm bt rm rv (Cert.KernelIdeal.Forms.wrapCol (Cert.KernelIdeal.Forms.srcVec a1)) (Cert.KernelIdeal.Forms.rawCol (Cert.KernelIdeal.Forms.dstVec a1))
      = Cert.ReferenceIdeal.Forms.layer X W bc gm bt rm rv (Cert.ReferenceIdeal.Forms.edgeNorm a1) (Cert.ReferenceIdeal.Forms.selfNorm a1) (Cert.ReferenceIdeal.Forms.wrapCol (Cert.ReferenceIdeal.Forms.srcVec a1)) (Cert.ReferenceIdeal.Forms.rawCol (Cert.ReferenceIdeal.Forms.dstVec a1)) := by
  funext i
  obtain ⟨r, l, rfl⟩ : ∃ (r : Fin 50000) (l : Fin 128), i = ix2 r l := ⟨i 0, i 1, eq_ix2 i⟩
  rw [k_layer_def, srcw_eq, dstc_eq]
  refine (normAct_scaled hN Cert.KernelIdeal.scatter_S50000x128_S800000x1_S800000x128_1_0_0_1.wf (mm X W) (Cert.ReferenceIdeal.Forms.dinv a1) (dinv_range a1) (Cert.KernelIdeal.Forms.dinvCol a1) (k_dcol a1)
    (Cert.ReferenceIdeal.Forms.wrapCol (Cert.ReferenceIdeal.Forms.srcVec a1)) (Cert.ReferenceIdeal.Forms.rawCol (Cert.ReferenceIdeal.Forms.dstVec a1)) (Cert.ReferenceIdeal.Forms.wrapCol (Cert.ReferenceIdeal.Forms.dstVec a1)) (wrap_of_nonneg (Cert.ReferenceIdeal.Forms.dstVec a1)) (broadcastInDim Cert.KernelIdeal.S50000x128 ![] Cert.KernelIdeal.Facts₀.bcast_S_S50000x128 (constant (F := Ideal) Cert.KernelIdeal.S_ .f32 0x00000000#32)) (fun _ => Ideal.ofBits_zero_f32)
    (extf .f32 (Host.gather Cert.KernelIdeal.gather_S50000x128_S800000x1_S800000x128_1_0_n_n_0_1_1128 (Cert.KernelIdeal.Forms.scaled X W (Cert.KernelIdeal.Forms.dinvCol a1)) (Cert.ReferenceIdeal.Forms.wrapCol (Cert.ReferenceIdeal.Forms.srcVec a1))) Cert.KernelIdeal.Facts₀.bitsLt_bf16_f32)
    (mulf (Host.gather Cert.ReferenceIdeal.gather_S50000x128_S800000x1_S800000x128_1_0_n_n_0_1_1128 (Host.dotGeneral (F := Ideal) Cert.ReferenceIdeal.dot_S50000x128_S128x128_S50000x128_1_0_0_1_n_n none X W) (Cert.ReferenceIdeal.Forms.wrapCol (Cert.ReferenceIdeal.Forms.srcVec a1)))
      (broadcastInDim Cert.ReferenceIdeal.S800000x128 ![0, 1] Cert.ReferenceIdeal.Facts₀.bcast_S800000x1_S800000x128_0_1
        (broadcastInDim Cert.ReferenceIdeal.S800000x1 ![0] Cert.ReferenceIdeal.Facts₀.bcast_S800000_S800000x1_0 (Cert.ReferenceIdeal.Forms.edgeNorm a1))))
    (fun e l => by rw [extf_apply, k_gath, k_scaled_apply, k_dcol])
    (fun e l => by rw [mulf_apply, r_gath, r_norm, r_dot])
    (Cert.KernelIdeal.Forms.scaled X W (Cert.KernelIdeal.Forms.dinvCol a1)) (fun r l => k_scaled_apply X W _ r l) (Cert.KernelIdeal.Forms.row bc) (Cert.KernelIdeal.Forms.row gm) (Cert.KernelIdeal.Forms.row bt) (Cert.KernelIdeal.Forms.row rm) (Cert.KernelIdeal.Forms.row rv) r l).trans ?_
  rw [k_row, k_row, k_row, k_row, k_row, r_layer_apply, r_rows, r_rows, r_rows, r_rows, r_rows, r_selfn, r_scat_def, r_dot, r_zero, r_rsq]

end Cert.Law

end
-- ==== Proof.HeadLaw.lean ====
/-
  The edge classifier of the two programs is one function.

  The reference joins, for every edge, the features of its two end points (128 + 128 columns) and its own 8 features, and
  multiplies the 264 joined columns by the 264 × 128 weight matrix. The kernel multiplies the three blocks by rows 0–127,
  128–255 and 256–263 of that matrix and adds the three products. A sum over 264 terms is the sum over its three stretches,
  which needs only that addition is associative; the two later dense layers and the positive parts are the same on both sides.
-/
import proofs.«108547_j24747601560282_2_alg».proof.Proof.KerForms
import proofs.«108547_j24747601560282_2_alg».proof.Proof.RefForms
import proofs.«108547_j24747601560282_2_alg».proof.Proof.LibBiasRows
import proofs.«108547_j24747601560282_2_alg».proof.Proof.LibConcatRead
import Idealize.ShloMosaic.Lib.ValueLayout

set_option maxRecDepth 16384

noncomputable section

open scoped BigOperators

namespace Cert.Law

open Idealize.ShloMosaic Idealize.ShloMosaic.ValueIdx Cert.Gnn Cert.Gcn Cert.MatrixProduct

/-- A sum over 264 terms is the sum over its stretches of 128, 128 and 8. -/
theorem sum_264 (f : Fin 264 → EReal) :
    ∑ c, f c = ∑ c : Fin 128, f ⟨c.val, by omega⟩ + ∑ c : Fin 128, f ⟨128 + c.val, by omega⟩ + ∑ c : Fin 8, f ⟨256 + c.val, by omega⟩ := by
  have h1 : ∑ c : Fin (256 + 8), f c = ∑ c : Fin 256, f (Fin.castAdd 8 c) + ∑ c : Fin 8, f (Fin.natAdd 256 c) :=
    Fin.sum_univ_add (a := 256) (b := 8) (f : Fin (256 + 8) → EReal)
  have h2 : ∑ c : Fin (128 + 128), f (Fin.castAdd 8 c)
      = ∑ c : Fin 128, f (Fin.castAdd 8 (Fin.castAdd 128 c)) + ∑ c : Fin 128, f (Fin.castAdd 8 (Fin.natAdd 128 c)) :=
    Fin.sum_univ_add (a := 128) (b := 128) fun c : Fin (128 + 128) => f (Fin.castAdd 8 c)
  exact h1.trans (congrArg (· + ∑ c : Fin 8, f (Fin.natAdd 256 c)) h2)

/-- The first product: the joined columns against the whole weight matrix is the three blocks against its three stretches
    of rows. -/
theorem first_split (xs xd : (⟨2, ![800000, 128]⟩ : Shape).Idx → EReal) (ea : (⟨2, ![800000, 8]⟩ : Shape).Idx → EReal)
    (w1 : (⟨2, ![264, 128]⟩ : Shape).Idx → EReal) (e : Fin 800000) (k : Fin 128) :
    mm (concatenate Cert.ReferenceIdeal.S800000x264 1 [⟨Cert.ReferenceIdeal.S800000x128, xs⟩, ⟨Cert.ReferenceIdeal.S800000x128, xd⟩, ⟨Cert.ReferenceIdeal.S800000x8, ea⟩] Cert.ReferenceIdeal.Facts₀.concatenates_S800000x128_S800000x128_S800000x8_S800000x264_d1) w1 (ix2 e k)
      = mm xs (extractStridedSlice Cert.KernelIdeal.S128x128 ![0, 0] w1 Cert.KernelIdeal.Facts₀.slices_S264x128_S128x128_0_0) (ix2 e k) + mm xd (extractStridedSlice Cert.KernelIdeal.S128x128 ![128, 0] w1 Cert.KernelIdeal.Facts₀.slices_S264x128_S128x128_128_0) (ix2 e k) + mm ea (extractStridedSlice Cert.KernelIdeal.S8x128 ![256, 0] w1 Cert.KernelIdeal.Facts₀.slices_S264x128_S8x128_256_0) (ix2 e k) := by
  rw [mm_apply, mm_apply, mm_apply, mm_apply, sum_264]
  refine congrArg₂ (· + ·) (congrArg₂ (· + ·) (Finset.sum_congr rfl fun c _ => ?_) (Finset.sum_congr rfl fun c _ => ?_))
    (Finset.sum_congr rfl fun c _ => ?_)
  · rw [concat3_cols_first xs xd ea Cert.ReferenceIdeal.Facts₀.concatenates_S800000x128_S800000x128_S800000x8_S800000x264_d1 e c ⟨c.val, by omega⟩ rfl]
    refine congrArg (xs (ix2 e c) * ·) (extractStridedSlice_apply _ w1 _ (ix2 c k) (ix2 ⟨c.val, by omega⟩ k) fun a => ?_).symm
    match a with
    | ⟨0, _⟩ => show c.val = 0 + c.val; omega
    | ⟨1, _⟩ => show k.val = 0 + k.val; omega
  · rw [concat3_cols_second xs xd ea Cert.ReferenceIdeal.Facts₀.concatenates_S800000x128_S800000x128_S800000x8_S800000x264_d1 e c ⟨128 + c.val, by omega⟩ rfl]
    refine congrArg (xd (ix2 e c) * ·) (extractStridedSlice_apply _ w1 _ (ix2 c k) (ix2 ⟨128 + c.val, by omega⟩ k) fun a => ?_).symm
    match a with
    | ⟨0, _⟩ => show 128 + c.val = 128 + c.val; rfl
    | ⟨1, _⟩ => show k.val = 0 + k.val; omega
  · rw [concat3_cols_third xs xd ea Cert.ReferenceIdeal.Facts₀.concatenates_S800000x128_S800000x128_S800000x8_S800000x264_d1 e c ⟨256 + c.val, by omega⟩ rfl]
    refine congrArg (ea (ix2 e c) * ·) (extractStridedSlice_apply _ w1 _ (ix2 c k) (ix2 ⟨256 + c.val, by omega⟩ k) fun a => ?_).symm
    match a with
    | ⟨0, _⟩ => show 256 + c.val = 256 + c.val; rfl
    | ⟨1, _⟩ => show k.val = 0 + k.val; omega

/-! ## The three dense stages -/

section Head

variable (X : (⟨2, ![50000, 128]⟩ : Shape).Idx → EReal) (srcw dstw : Cert.ReferenceIdeal.Forms.Col32) (ea : FVec Ideal Cert.ReferenceIdeal.S800000x8 .f32)
  (w1 : FVec Ideal Cert.ReferenceIdeal.S264x128 .f32) (b1 : FVec Ideal Cert.ReferenceIdeal.S128 .f32) (w2 : FVec Ideal Cert.ReferenceIdeal.S128x64 .f32) (b2 : FVec Ideal Cert.ReferenceIdeal.S64 .f32)
  (w3 : FVec Ideal Cert.ReferenceIdeal.S64x2 .f32) (b3 : FVec Ideal Cert.ReferenceIdeal.S2 .f32)

/-- The two programs gather with the same dimension numbers. -/
theorem gath_eq (idx : Cert.ReferenceIdeal.Forms.Col32) : Host.gather Cert.ReferenceIdeal.gather_S50000x128_S800000x1_S800000x128_1_0_n_n_0_1_1128 X idx = Host.gather Cert.KernelIdeal.gather_S50000x128_S800000x1_S800000x128_1_0_n_n_0_1_1128 X idx := rfl

/-- The reference's three products are matrix products. -/
theorem r_dot1 (A : FVec Ideal Cert.ReferenceIdeal.S800000x264 .f32) (B : FVec Ideal Cert.ReferenceIdeal.S264x128 .f32) :
    Host.dotGeneral (F := Ideal) Cert.ReferenceIdeal.dot_S800000x264_S264x128_S800000x128_1_0_0_1_n_n none A B = mm A B := dotGeneral_eq_mm Cert.ReferenceIdeal.dot_S800000x264_S264x128_S800000x128_1_0_0_1_n_n.wf none A B
theorem r_dot2 (A : FVec Ideal Cert.ReferenceIdeal.S800000x128 .f32) (B : FVec Ideal Cert.ReferenceIdeal.S128x64 .f32) :
    Host.dotGeneral (F := Ideal) Cert.ReferenceIdeal.dot_S800000x128_S128x64_S800000x64_1_0_0_1_n_n none A B = mm A B := dotGeneral_eq_mm Cert.ReferenceIdeal.dot_S800000x128_S128x64_S800000x64_1_0_0_1_n_n.wf none A B
theorem r_dot3 (A : FVec Ideal Cert.ReferenceIdeal.S800000x64 .f32) (B : FVec Ideal Cert.ReferenceIdeal.S64x2 .f32) :
    Host.dotGeneral (F := Ideal) Cert.ReferenceIdeal.dot_S800000x64_S64x2_S800000x2_1_0_0_1_n_n none A B = mm A B := dotGeneral_eq_mm Cert.ReferenceIdeal.dot_S800000x64_S64x2_S800000x2_1_0_0_1_n_n.wf none A B

/-- After the first dense layer and its positive part. -/
theorem stage1 : (maximumf (addf (Host.dotGeneral (F := Ideal) Cert.ReferenceIdeal.dot_S800000x264_S264x128_S800000x128_1_0_0_1_n_n none (concatenate Cert.ReferenceIdeal.S800000x264 1 [⟨Cert.ReferenceIdeal.S800000x128, (Host.gather Cert.ReferenceIdeal.gather_S50000x128_S800000x1_S800000x128_1_0_n_n_0_1_1128 X srcw)⟩, ⟨Cert.ReferenceIdeal.S800000x128, (Host.gather Cert.ReferenceIdeal.gather_S50000x128_S800000x1_S800000x128_1_0_n_n_0_1_1128 X dstw)⟩, ⟨Cert.ReferenceIdeal.S800000x8, ea⟩] Cert.ReferenceIdeal.Facts₀.concatenates_S800000x128_S800000x128_S800000x8_S800000x264_d1) w1) (broadcastInDim Cert.ReferenceIdeal.S800000x128 ![0, 1] Cert.ReferenceIdeal.Facts₀.bcast_S1x128_S800000x128_0_1 (broadcastInDim Cert.ReferenceIdeal.S1x128 ![1] Cert.ReferenceIdeal.Facts₀.bcast_S128_S1x128_1 b1))) (broadcastInDim Cert.ReferenceIdeal.S800000x128 ![] Cert.ReferenceIdeal.Facts₀.bcast_S_S800000x128 (constant (F := Ideal) Cert.ReferenceIdeal.S_ .f32 0x00000000#32))) = (Gnn.posPart (firstDense (Host.gather Cert.KernelIdeal.gather_S50000x128_S800000x1_S800000x128_1_0_n_n_0_1_1128 X srcw) (Host.gather Cert.KernelIdeal.gather_S50000x128_S800000x1_S800000x128_1_0_n_n_0_1_1128 X dstw) ea (extractStridedSlice Cert.KernelIdeal.S128x128 ![0, 0] w1 Cert.KernelIdeal.Facts₀.slices_S264x128_S128x128_0_0) (extractStridedSlice Cert.KernelIdeal.S128x128 ![128, 0] w1 Cert.KernelIdeal.Facts₀.slices_S264x128_S128x128_128_0) (extractStridedSlice Cert.KernelIdeal.S8x128 ![256, 0] w1 Cert.KernelIdeal.Facts₀.slices_S264x128_S8x128_256_0) (shapeCast Cert.KernelIdeal.S1x128 b1 Cert.KernelIdeal.Facts₀.shapeCasts_S128_S1x128))) := by
  funext i
  obtain ⟨e, k, rfl⟩ : ∃ (e : Fin 800000) (k : Fin 128), i = ix2 e k := ⟨i 0, i 1, eq_ix2 i⟩
  show max ((Host.dotGeneral (F := Ideal) Cert.ReferenceIdeal.dot_S800000x264_S264x128_S800000x128_1_0_0_1_n_n none (concatenate Cert.ReferenceIdeal.S800000x264 1 [⟨Cert.ReferenceIdeal.S800000x128, (Host.gather Cert.ReferenceIdeal.gather_S50000x128_S800000x1_S800000x128_1_0_n_n_0_1_1128 X srcw)⟩, ⟨Cert.ReferenceIdeal.S800000x128, (Host.gather Cert.ReferenceIdeal.gather_S50000x128_S800000x1_S800000x128_1_0_n_n_0_1_1128 X dstw)⟩, ⟨Cert.ReferenceIdeal.S800000x8, ea⟩] Cert.ReferenceIdeal.Facts₀.concatenates_S800000x128_S800000x128_S800000x8_S800000x264_d1) w1) (ix2 e k) + (broadcastInDim Cert.ReferenceIdeal.S800000x128 ![0, 1] Cert.ReferenceIdeal.Facts₀.bcast_S1x128_S800000x128_0_1 (broadcastInDim Cert.ReferenceIdeal.S1x128 ![1] Cert.ReferenceIdeal.Facts₀.bcast_S128_S1x128_1 b1)) (ix2 e k)) zw
    = max (mm (Host.gather Cert.KernelIdeal.gather_S50000x128_S800000x1_S800000x128_1_0_n_n_0_1_1128 X srcw) (extractStridedSlice Cert.KernelIdeal.S128x128 ![0, 0] w1 Cert.KernelIdeal.Facts₀.slices_S264x128_S128x128_0_0) (ix2 e k) + mm (Host.gather Cert.KernelIdeal.gather_S50000x128_S800000x1_S800000x128_1_0_n_n_0_1_1128 X dstw) (extractStridedSlice Cert.KernelIdeal.S128x128 ![128, 0] w1 Cert.KernelIdeal.Facts₀.slices_S264x128_S128x128_128_0) (ix2 e k) + mm ea (extractStridedSlice Cert.KernelIdeal.S8x128 ![256, 0] w1 Cert.KernelIdeal.Facts₀.slices_S264x128_S8x128_256_0) (ix2 e k) + (shapeCast Cert.KernelIdeal.S1x128 b1 Cert.KernelIdeal.Facts₀.shapeCasts_S128_S1x128) (ix2 (0 : Fin 1) k)) zw
  rw [r_dot1, bias_rows_apply, first_split, shapeCast_a_1a_apply, gath_eq, gath_eq]

/-- After the second dense layer and its positive part. -/
theorem stage2 : (maximumf (addf (Host.dotGeneral (F := Ideal) Cert.ReferenceIdeal.dot_S800000x128_S128x64_S800000x64_1_0_0_1_n_n none (maximumf (addf (Host.dotGeneral (F := Ideal) Cert.ReferenceIdeal.dot_S800000x264_S264x128_S800000x128_1_0_0_1_n_n none (concatenate Cert.ReferenceIdeal.S800000x264 1 [⟨Cert.ReferenceIdeal.S800000x128, (Host.gather Cert.ReferenceIdeal.gather_S50000x128_S800000x1_S800000x128_1_0_n_n_0_1_1128 X srcw)⟩, ⟨Cert.ReferenceIdeal.S800000x128, (Host.gather Cert.ReferenceIdeal.gather_S50000x128_S800000x1_S800000x128_1_0_n_n_0_1_1128 X dstw)⟩, ⟨Cert.ReferenceIdeal.S800000x8, ea⟩] Cert.ReferenceIdeal.Facts₀.concatenates_S800000x128_S800000x128_S800000x8_S800000x264_d1) w1) (broadcastInDim Cert.ReferenceIdeal.S800000x128 ![0, 1] Cert.ReferenceIdeal.Facts₀.bcast_S1x128_S800000x128_0_1 (broadcastInDim Cert.ReferenceIdeal.S1x128 ![1] Cert.ReferenceIdeal.Facts₀.bcast_S128_S1x128_1 b1))) (broadcastInDim Cert.ReferenceIdeal.S800000x128 ![] Cert.ReferenceIdeal.Facts₀.bcast_S_S800000x128 (constant (F := Ideal) Cert.ReferenceIdeal.S_ .f32 0x00000000#32))) w2) (broadcastInDim Cert.ReferenceIdeal.S800000x64 ![0, 1] Cert.ReferenceIdeal.Facts₀.bcast_S1x64_S800000x64_0_1 (broadcastInDim Cert.ReferenceIdeal.S1x64 ![1] Cert.ReferenceIdeal.Facts₀.bcast_S64_S1x64_1 b2))) (broadcastInDim Cert.ReferenceIdeal.S800000x64 ![] Cert.ReferenceIdeal.Facts₀.bcast_S_S800000x64 (constant (F := Ideal) Cert.ReferenceIdeal.S_ .f32 0x00000000#32))) = (Gnn.posPart (biasedProduct (Gnn.posPart (firstDense (Host.gather Cert.KernelIdeal.gather_S50000x128_S800000x1_S800000x128_1_0_n_n_0_1_1128 X srcw) (Host.gather Cert.KernelIdeal.gather_S50000x128_S800000x1_S800000x128_1_0_n_n_0_1_1128 X dstw) ea (extractStridedSlice Cert.KernelIdeal.S128x128 ![0, 0] w1 Cert.KernelIdeal.Facts₀.slices_S264x128_S128x128_0_0) (extractStridedSlice Cert.KernelIdeal.S128x128 ![128, 0] w1 Cert.KernelIdeal.Facts₀.slices_S264x128_S128x128_128_0) (extractStridedSlice Cert.KernelIdeal.S8x128 ![256, 0] w1 Cert.KernelIdeal.Facts₀.slices_S264x128_S8x128_256_0) (shapeCast Cert.KernelIdeal.S1x128 b1 Cert.KernelIdeal.Facts₀.shapeCasts_S128_S1x128))) w2 (shapeCast Cert.KernelIdeal.S1x64 b2 Cert.KernelIdeal.Facts₀.shapeCasts_S64_S1x64))) := by
  rw [stage1]
  funext i
  obtain ⟨e, k, rfl⟩ : ∃ (e : Fin 800000) (k : Fin 64), i = ix2 e k := ⟨i 0, i 1, eq_ix2 i⟩
  show max ((Host.dotGeneral (F := Ideal) Cert.ReferenceIdeal.dot_S800000x128_S128x64_S800000x64_1_0_0_1_n_n none (Gnn.posPart (firstDense (Host.gather Cert.KernelIdeal.gather_S50000x128_S800000x1_S800000x128_1_0_n_n_0_1_1128 X srcw) (Host.gather Cert.KernelIdeal.gather_S50000x128_S800000x1_S800000x128_1_0_n_n_0_1_1128 X dstw) ea (extractStridedSlice Cert.KernelIdeal.S128x128 ![0, 0] w1 Cert.KernelIdeal.Facts₀.slices_S264x128_S128x128_0_0) (extractStridedSlice Cert.KernelIdeal.S128x128 ![128, 0] w1 Cert.KernelIdeal.Facts₀.slices_S264x128_S128x128_128_0) (extractStridedSlice Cert.KernelIdeal.S8x128 ![256, 0] w1 Cert.KernelIdeal.Facts₀.slices_S264x128_S8x128_256_0) (shapeCast Cert.KernelIdeal.S1x128 b1 Cert.KernelIdeal.Facts₀.shapeCasts_S128_S1x128))) w2) (ix2 e k) + (broadcastInDim Cert.ReferenceIdeal.S800000x64 ![0, 1] Cert.ReferenceIdeal.Facts₀.bcast_S1x64_S800000x64_0_1 (broadcastInDim Cert.ReferenceIdeal.S1x64 ![1] Cert.ReferenceIdeal.Facts₀.bcast_S64_S1x64_1 b2)) (ix2 e k)) zw
    = max (mm (Gnn.posPart (firstDense (Host.gather Cert.KernelIdeal.gather_S50000x128_S800000x1_S800000x128_1_0_n_n_0_1_1128 X srcw) (Host.gather Cert.KernelIdeal.gather_S50000x128_S800000x1_S800000x128_1_0_n_n_0_1_1128 X dstw) ea (extractStridedSlice Cert.KernelIdeal.S128x128 ![0, 0] w1 Cert.KernelIdeal.Facts₀.slices_S264x128_S128x128_0_0) (extractStridedSlice Cert.KernelIdeal.S128x128 ![128, 0] w1 Cert.KernelIdeal.Facts₀.slices_S264x128_S128x128_128_0) (extractStridedSlice Cert.KernelIdeal.S8x128 ![256, 0] w1 Cert.KernelIdeal.Facts₀.slices_S264x128_S8x128_256_0) (shapeCast Cert.KernelIdeal.S1x128 b1 Cert.KernelIdeal.Facts₀.shapeCasts_S128_S1x128))) w2 (ix2 e k) + (shapeCast Cert.KernelIdeal.S1x64 b2 Cert.KernelIdeal.Facts₀.shapeCasts_S64_S1x64) (ix2 (0 : Fin 1) k)) zw
  rw [r_dot2, bias_rows_apply, shapeCast_a_1a_apply]

/-- THE EDGE CLASSIFIER of the kernel program is the reference's. -/
theorem head_eq : Cert.KernelIdeal.Forms.head X srcw dstw ea w1 b1 w2 b2 w3 b3 = Cert.ReferenceIdeal.Forms.head X srcw dstw ea w1 b1 w2 b2 w3 b3 := by
  have hR : Cert.ReferenceIdeal.Forms.head X srcw dstw ea w1 b1 w2 b2 w3 b3
      = addf (Host.dotGeneral (F := Ideal) Cert.ReferenceIdeal.dot_S800000x64_S64x2_S800000x2_1_0_0_1_n_n none (maximumf (addf (Host.dotGeneral (F := Ideal) Cert.ReferenceIdeal.dot_S800000x128_S128x64_S800000x64_1_0_0_1_n_n none (maximumf (addf (Host.dotGeneral (F := Ideal) Cert.ReferenceIdeal.dot_S800000x264_S264x128_S800000x128_1_0_0_1_n_n none (concatenate Cert.ReferenceIdeal.S800000x264 1 [⟨Cert.ReferenceIdeal.S800000x128, (Host.gather Cert.ReferenceIdeal.gather_S50000x128_S800000x1_S800000x128_1_0_n_n_0_1_1128 X srcw)⟩, ⟨Cert.ReferenceIdeal.S800000x128, (Host.gather Cert.ReferenceIdeal.gather_S50000x128_S800000x1_S800000x128_1_0_n_n_0_1_1128 X dstw)⟩, ⟨Cert.ReferenceIdeal.S800000x8, ea⟩] Cert.ReferenceIdeal.Facts₀.concatenates_S800000x128_S800000x128_S800000x8_S800000x264_d1) w1) (broadcastInDim Cert.ReferenceIdeal.S800000x128 ![0, 1] Cert.ReferenceIdeal.Facts₀.bcast_S1x128_S800000x128_0_1 (broadcastInDim Cert.ReferenceIdeal.S1x128 ![1] Cert.ReferenceIdeal.Facts₀.bcast_S128_S1x128_1 b1))) (broadcastInDim Cert.ReferenceIdeal.S800000x128 ![] Cert.ReferenceIdeal.Facts₀.bcast_S_S800000x128 (constant (F := Ideal) Cert.ReferenceIdeal.S_ .f32 0x00000000#32))) w2) (broadcastInDim Cert.ReferenceIdeal.S800000x64 ![0, 1] Cert.ReferenceIdeal.Facts₀.bcast_S1x64_S800000x64_0_1 (broadcastInDim Cert.ReferenceIdeal.S1x64 ![1] Cert.ReferenceIdeal.Facts₀.bcast_S64_S1x64_1 b2))) (broadcastInDim Cert.ReferenceIdeal.S800000x64 ![] Cert.ReferenceIdeal.Facts₀.bcast_S_S800000x64 (constant (F := Ideal) Cert.ReferenceIdeal.S_ .f32 0x00000000#32))) w3) (broadcastInDim Cert.ReferenceIdeal.S800000x2 ![0, 1] Cert.ReferenceIdeal.Facts₀.bcast_S1x2_S800000x2_0_1 (broadcastInDim Cert.ReferenceIdeal.S1x2 ![1] Cert.ReferenceIdeal.Facts₀.bcast_S2_S1x2_1 b3)) := rfl
  rw [hR, stage2]
  funext i
  obtain ⟨e, q, rfl⟩ : ∃ (e : Fin 800000) (q : Fin 2), i = ix2 e q := ⟨i 0, i 1, eq_ix2 i⟩
  show mm (Gnn.posPart (biasedProduct (Gnn.posPart (firstDense (Host.gather Cert.KernelIdeal.gather_S50000x128_S800000x1_S800000x128_1_0_n_n_0_1_1128 X srcw) (Host.gather Cert.KernelIdeal.gather_S50000x128_S800000x1_S800000x128_1_0_n_n_0_1_1128 X dstw) ea (extractStridedSlice Cert.KernelIdeal.S128x128 ![0, 0] w1 Cert.KernelIdeal.Facts₀.slices_S264x128_S128x128_0_0) (extractStridedSlice Cert.KernelIdeal.S128x128 ![128, 0] w1 Cert.KernelIdeal.Facts₀.slices_S264x128_S128x128_128_0) (extractStridedSlice Cert.KernelIdeal.S8x128 ![256, 0] w1 Cert.KernelIdeal.Facts₀.slices_S264x128_S8x128_256_0) (shapeCast Cert.KernelIdeal.S1x128 b1 Cert.KernelIdeal.Facts₀.shapeCasts_S128_S1x128))) w2 (shapeCast Cert.KernelIdeal.S1x64 b2 Cert.KernelIdeal.Facts₀.shapeCasts_S64_S1x64))) w3 (ix2 e q) + (shapeCast Cert.KernelIdeal.S1x2 b3 Cert.KernelIdeal.Facts₀.shapeCasts_S2_S1x2) (ix2 (0 : Fin 1) q)
    = (Host.dotGeneral (F := Ideal) Cert.ReferenceIdeal.dot_S800000x64_S64x2_S800000x2_1_0_0_1_n_n none (Gnn.posPart (biasedProduct (Gnn.posPart (firstDense (Host.gather Cert.KernelIdeal.gather_S50000x128_S800000x1_S800000x128_1_0_n_n_0_1_1128 X srcw) (Host.gather Cert.KernelIdeal.gather_S50000x128_S800000x1_S800000x128_1_0_n_n_0_1_1128 X dstw) ea (extractStridedSlice Cert.KernelIdeal.S128x128 ![0, 0] w1 Cert.KernelIdeal.Facts₀.slices_S264x128_S128x128_0_0) (extractStridedSlice Cert.KernelIdeal.S128x128 ![128, 0] w1 Cert.KernelIdeal.Facts₀.slices_S264x128_S128x128_128_0) (extractStridedSlice Cert.KernelIdeal.S8x128 ![256, 0] w1 Cert.KernelIdeal.Facts₀.slices_S264x128_S8x128_256_0) (shapeCast Cert.KernelIdeal.S1x128 b1 Cert.KernelIdeal.Facts₀.shapeCasts_S128_S1x128))) w2 (shapeCast Cert.KernelIdeal.S1x64 b2 Cert.KernelIdeal.Facts₀.shapeCasts_S64_S1x64))) w3) (ix2 e q) + (broadcastInDim Cert.ReferenceIdeal.S800000x2 ![0, 1] Cert.ReferenceIdeal.Facts₀.bcast_S1x2_S800000x2_0_1 (broadcastInDim Cert.ReferenceIdeal.S1x2 ![1] Cert.ReferenceIdeal.Facts₀.bcast_S2_S1x2_1 b3)) (ix2 e q)
  rw [r_dot3, bias_rows_apply, shapeCast_a_1a_apply]

end Head

end Cert.Law

end
-- ==== Proof.TopLaw.lean ====
/-
  The two programs' results are one function of the arguments: the layer law three times, each layer's input being the
  previous layer's (equal) output, then the classifier's law on the third layer's features.
-/
import proofs.«108547_j24747601560282_2_alg».proof.Proof.LayerLaw
import proofs.«108547_j24747601560282_2_alg».proof.Proof.HeadLaw

set_option maxRecDepth 16384

noncomputable section

namespace Cert.Law

open Idealize.ShloMosaic

variable (a0 : FVec Ideal Cert.KernelIdeal.S50000x128 .f32) (a1 : (⟨Cert.KernelIdeal.S2x800000, .i32⟩ : BufTy).Contents (Elt Ideal))
  (a2 : FVec Ideal Cert.KernelIdeal.S800000x8 .f32) (a3 : FVec Ideal Cert.KernelIdeal.S3x128x128 .f32) (a4 a5 a6 a7 a8 : FVec Ideal Cert.KernelIdeal.S3x128 .f32)
  (a9 : FVec Ideal Cert.KernelIdeal.S264x128 .f32) (a10 : FVec Ideal Cert.KernelIdeal.S128 .f32) (a11 : FVec Ideal Cert.KernelIdeal.S128x64 .f32)
  (a12 : FVec Ideal Cert.KernelIdeal.S64 .f32) (a13 : FVec Ideal Cert.KernelIdeal.S64x2 .f32) (a14 : FVec Ideal Cert.KernelIdeal.S2 .f32)

/-- The node features after layer 0. -/
theorem x1_eq : Cert.KernelIdeal.Forms.x1 a0 a1 a3 a4 a5 a6 a7 a8 = Cert.ReferenceIdeal.Forms.x1 a0 a1 a3 a4 a5 a6 a7 a8 :=
  layer_eq a1 a0 (Cert.KernelIdeal.Forms.w0 a3) (Cert.KernelIdeal.Forms.p0 a4) (Cert.KernelIdeal.Forms.p0 a5) (Cert.KernelIdeal.Forms.p0 a6) (Cert.KernelIdeal.Forms.p0 a7) (Cert.KernelIdeal.Forms.p0 a8)

/-- The node features after layer 1. -/
theorem x2_eq : Cert.KernelIdeal.Forms.x2 a0 a1 a3 a4 a5 a6 a7 a8 = Cert.ReferenceIdeal.Forms.x2 a0 a1 a3 a4 a5 a6 a7 a8 := by
  unfold Cert.KernelIdeal.Forms.x2
  rw [x1_eq]
  exact layer_eq a1 (Cert.ReferenceIdeal.Forms.x1 a0 a1 a3 a4 a5 a6 a7 a8) (Cert.KernelIdeal.Forms.w1 a3) (Cert.KernelIdeal.Forms.p1 a4) (Cert.KernelIdeal.Forms.p1 a5) (Cert.KernelIdeal.Forms.p1 a6) (Cert.KernelIdeal.Forms.p1 a7) (Cert.KernelIdeal.Forms.p1 a8)

/-- The node features after layer 2. -/
theorem x3_eq : Cert.KernelIdeal.Forms.x3 a0 a1 a3 a4 a5 a6 a7 a8 = Cert.ReferenceIdeal.Forms.x3 a0 a1 a3 a4 a5 a6 a7 a8 := by
  unfold Cert.KernelIdeal.Forms.x3
  rw [x2_eq]
  exact layer_eq a1 (Cert.ReferenceIdeal.Forms.x2 a0 a1 a3 a4 a5 a6 a7 a8) (Cert.KernelIdeal.Forms.w2 a3) (Cert.KernelIdeal.Forms.p2 a4) (Cert.KernelIdeal.Forms.p2 a5) (Cert.KernelIdeal.Forms.p2 a6) (Cert.KernelIdeal.Forms.p2 a7) (Cert.KernelIdeal.Forms.p2 a8)

/-- THE RESULTS: the kernel program's function of the arguments is the reference's. -/
theorem top_eq : Cert.KernelIdeal.Forms.top a0 a1 a2 a3 a4 a5 a6 a7 a8 a9 a10 a11 a12 a13 a14 = Cert.ReferenceIdeal.Forms.top a0 a1 a2 a3 a4 a5 a6 a7 a8 a9 a10 a11 a12 a13 a14 := by
  unfold Cert.KernelIdeal.Forms.top
  rw [x3_eq, srcw_eq, dstw_eq]
  exact head_eq (Cert.ReferenceIdeal.Forms.x3 a0 a1 a3 a4 a5 a6 a7 a8) (Cert.ReferenceIdeal.Forms.wrapCol (Cert.ReferenceIdeal.Forms.srcVec a1)) (Cert.ReferenceIdeal.Forms.wrapCol (Cert.ReferenceIdeal.Forms.dstVec a1)) a2 a9 a10 a11 a12 a13 a14

end Cert.Law

end
-- ==== Proof.lean ====
/-
  A three-layer graph convolution with an edge classifier on top: the Pallas kernels' program against its jnp reference,
  at the exact extended reals.

  Both programs compute the degree factors d = rsqrt(1 + in-degree) from the edge list. In each layer the kernel program
  scales the product X·W by d row by row before the host's gather and scatter-add and multiplies the aggregate (plus the
  node's own scaled features) by d afterwards; the reference scales each gathered row by d(src)·d(dst) and adds the node's
  own features times d². As d is nonnegative and finite these agree entry by entry, whatever the features are (LayerLaw.lean).
  The edge classifier's first product over the 264 joined columns is the kernel's three products over the column blocks.

  The pieces: KerRun.lean (the kernel program's run with its result named, and the buffers carried between segments),
  KerRegions.lean and KerHead.lean (what each kernel leaves in its output array), KerValue.lean (the result as one function
  of the arguments), RefSide.lean (the reference's result as the composition of its pieces), LayerLaw.lean, HeadLaw.lean and TopLaw.lean (the two
  functions are equal). The three frames are the generated ones (the reference's is its generated run with the result dropped).
  Defs.lean states `preserves_Kernel_KernelIdeal` as `True`: its list of the idealization's rewrites is empty.
-/
import proofs.«108547_j24747601560282_2_alg».proof.Defs
import proofs.«108547_j24747601560282_2_alg».proof.Proof.Gen.Kernel
import proofs.«108547_j24747601560282_2_alg».proof.Proof.Gen.Kernel.Skeleton
import proofs.«108547_j24747601560282_2_alg».proof.Proof.Gen.Kernel.Launch
import proofs.«108547_j24747601560282_2_alg».proof.Proof.Gen.Kernel.Points
import proofs.«108547_j24747601560282_2_alg».proof.Proof.Gen.Kernel.Frame
import proofs.«108547_j24747601560282_2_alg».proof.Proof.Gen.KernelIdeal
import proofs.«108547_j24747601560282_2_alg».proof.Proof.Gen.KernelIdeal.Skeleton
import proofs.«108547_j24747601560282_2_alg».proof.Proof.Gen.KernelIdeal.Launch
import proofs.«108547_j24747601560282_2_alg».proof.Proof.Gen.KernelIdeal.Points
import proofs.«108547_j24747601560282_2_alg».proof.Proof.Gen.KernelIdeal.Frame
import proofs.«108547_j24747601560282_2_alg».proof.Proof.Gen.ReferenceIdeal
import proofs.«108547_j24747601560282_2_alg».proof.Proof.Gen.ReferenceIdeal.Run
import proofs.«108547_j24747601560282_2_alg».proof.Proof.Gen.ReferenceIdeal.Read
import proofs.«108547_j24747601560282_2_alg».proof.Proof.Gen.Pre_finite_inputs
import proofs.«108547_j24747601560282_2_alg».proof.Proof.KerValue
import proofs.«108547_j24747601560282_2_alg».proof.Proof.RefSide
import proofs.«108547_j24747601560282_2_alg».proof.Proof.TopLaw
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Defs.lean states this conjunct as `True` (its list of rewrites is empty). -/
theorem preserves : Cert.preserves_Kernel_KernelIdeal := trivial

/-- From memories agreeing on the arguments both programs end with the same result: the kernel program's at `Forms.top` of
    its arguments (KerValue.lean), the reference's at its own composition (RefSide.lean), and the two compositions are one
    function (TopLaw.lean). -/
theorem algebraic : Cert.algebraic_KernelIdeal_ReferenceIdeal := by
  intro m ρ m' ρ' _ hagree
  refine ⟨fun c => Cert.KernelIdeal.Forms.top (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Val.w14_result m ρ c), (h c).2⟩) (Cert.KernelIdeal.Val.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v200_eq, Cert.ReferenceIdeal.Side.top_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact (Cert.Law.top_eq _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
